-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x90x195 : Shape := ⟨3, ![4096, 90, 195]⟩
abbrev S128x195 : Shape := ⟨2, ![128, 195]⟩
abbrev S128 : Shape := ⟨1, ![128]⟩
abbrev S64x128 : Shape := ⟨2, ![64, 128]⟩
abbrev S64 : Shape := ⟨1, ![64]⟩
abbrev S512x5760 : Shape := ⟨2, ![512, 5760]⟩
abbrev S512 : Shape := ⟨1, ![512]⟩
abbrev S256x512 : Shape := ⟨2, ![256, 512]⟩
abbrev S256 : Shape := ⟨1, ![256]⟩
abbrev S2x256 : Shape := ⟨2, ![2, 256]⟩
abbrev S2 : Shape := ⟨1, ![2]⟩
abbrev S_ : Shape := ⟨0, ![]⟩
abbrev S4096x90 : Shape := ⟨2, ![4096, 90]⟩
abbrev S4096x90x1 : Shape := ⟨3, ![4096, 90, 1]⟩

class Facts : Prop where
  bcast_S_S4096x90x195 : S_.BroadcastsInDim S4096x90x195 (![] : Fin 0 → Fin S4096x90x195.rank)
  reducesTo_S4096x90x195_S_d0_1_2 : S4096x90x195.ReducesTo [0, 1, 2] S_
  h_S_ : 0 < S_.numel
  bcast_S_S128x195 : S_.BroadcastsInDim S128x195 (![] : Fin 0 → Fin S128x195.rank)
  reducesTo_S128x195_S_d0_1 : S128x195.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S512x5760 : S_.BroadcastsInDim S512x5760 (![] : Fin 0 → Fin S512x5760.rank)
  reducesTo_S512x5760_S_d0_1 : S512x5760.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  reducesTo_S4096x90x195_S4096x90_d2 : S4096x90x195.ReducesTo [2] S4096x90
  bcast_S4096x90_S4096x90x1_0_1 : S4096x90.BroadcastsInDim S4096x90x1 (![0, 1] : Fin 2 → Fin S4096x90x1.rank)
  bcast_S_S4096x90x1 : S_.BroadcastsInDim S4096x90x1 (![] : Fin 0 → Fin S4096x90x1.rank)
  bcast_S4096x90x1_S4096x90x195_0_1_2 : S4096x90x1.BroadcastsInDim S4096x90x195 (![0, 1, 2] : Fin 3 → Fin S4096x90x195.rank)
  bcast_S_S4096x90 : S_.BroadcastsInDim S4096x90 (![] : Fin 0 → Fin S4096x90.rank)
  reducesTo_S4096x90_S_d0_1 : S4096x90.ReducesTo [0, 1] S_

variable [Facts]

def fn_part7 {F : FTy → Type} [FloatOps F] (main_v103 : IVec S_ 1) (main_v119 : IVec S4096x90 1) : IVec S_ 1 :=
  let main_c_46 : IVec S_ 1 := constantI S_ 1 1#1
  let main_v120 : IVec S_ 1 := (fun x v => Host.reduce IntOp.andi x v reducesTo_S4096x90_S_d0_1 h_S_) main_v119 main_c_46
  let main_v121 : IVec S_ 1 := andi main_v103 main_v120
  main_v121

def fn_part6 {F : FTy → Type} [FloatOps F] (main_arg0 : FVec F S4096x90x195 .f32) (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  let main_cst_40 : FVec F S_ .f32 := constant S_ .f32 0x00000000#32
  let main_v104 : FVec F S4096x90 .f32 := (fun x v => Host.reduceAdd x v reducesTo_S4096x90x195_S4096x90_d2 h_S_) main_arg0 main_cst_40
  let main_v105 : FVec F S4096x90x1 .f32 := broadcastInDim S4096x90x1 ![0, 1] bcast_S4096x90_S4096x90x1_0_1 main_v104
  let main_cst_41 : FVec F S_ .f32 := constant S_ .f32 0x43430000#32
  let main_v106 : FVec F S4096x90x1 .f32 := broadcastInDim S4096x90x1 ![] bcast_S_S4096x90x1 main_cst_41
  let main_v107 : FVec F S4096x90x1 .f32 := Host.divf main_v105 main_v106
  let main_v108 : FVec F S4096x90x195 .f32 := broadcastInDim S4096x90x195 ![0, 1, 2] bcast_S4096x90x1_S4096x90x195_0_1_2 main_v107
  let main_v109 : FVec F S4096x90x195 .f32 := subf main_arg0 main_v108
  let main_cst_42 : FVec F S_ .f32 := constant S_ .f32 0x00000000#32
  let main_v110 : FVec F S4096x90 .f32 := (fun x v => Host.reduceAdd x v reducesTo_S4096x90x195_S4096x90_d2 h_S_) main_arg0 main_cst_42
  let main_v111 : FVec F S4096x90x1 .f32 := broadcastInDim S4096x90x1 ![0, 1] bcast_S4096x90_S4096x90x1_0_1 main_v110
  let main_cst_43 : FVec F S_ .f32 := constant S_ .f32 0x43430000#32
  let main_v112 : FVec F S4096x90x1 .f32 := broadcastInDim S4096x90x1 ![] bcast_S_S4096x90x1 main_cst_43
  let main_v113 : FVec F S4096x90x1 .f32 := Host.divf main_v111 main_v112
  let main_v114 : FVec F S4096x90x195 .f32 := broadcastInDim S4096x90x195 ![0, 1, 2] bcast_S4096x90x1_S4096x90x195_0_1_2 main_v113
  let main_v115 : FVec F S4096x90x195 .f32 := subf main_arg0 main_v114
  let main_v116 : FVec F S4096x90x195 .f32 := mulf main_v109 main_v115
  let main_cst_44 : FVec F S_ .f32 := constant S_ .f32 0x00000000#32
  let main_v117 : FVec F S4096x90 .f32 := (fun x v => Host.reduceAdd x v reducesTo_S4096x90x195_S4096x90_d2 h_S_) main_v116 main_cst_44
  let main_cst_45 : FVec F S_ .f32 := constant S_ .f32 0x00000000#32
  let main_v118 : FVec F S4096x90 .f32 := broadcastInDim S4096x90 ![] bcast_S_S4096x90 main_cst_45
  let main_v119 : IVec S4096x90 1 := cmpf .ogt main_v117 main_v118
  fn_part7 (F := F) main_v103 main_v119

def fn_part5 {F : FTy → Type} [FloatOps F] (main_arg0 : FVec F S4096x90x195 .f32) (main_arg18 : FVec F S256 .f32) (main_arg19 : FVec F S2x256 .f32) (main_arg20 : FVec F S2 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S2x256 .f32 := Host.absf main_arg19
  let main_cst_36 : FVec F S_ .f32 := constant S_ .f32 0x7F800000#32
  let main_v95 : FVec F S2x256 .f32 := broadcastInDim S2x256 ![] bcast_S_S2x256 main_cst_36
  let main_v96 : IVec S2x256 1 := cmpf .olt main_v94 main_v95
  let main_c_37 : IVec S_ 1 := constantI S_ 1 1#1
  let main_v97 : IVec S_ 1 := (fun x v => Host.reduce IntOp.andi x v reducesTo_S2x256_S_d0_1 h_S_) main_v96 main_c_37
  let main_v98 : IVec S_ 1 := andi main_v93 main_v97
  let main_v99 : FVec F S2 .f32 := Host.absf main_arg20
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_arg0 main_v98 main_v101 main_c_39

def fn_part4 {F : FTy → Type} [FloatOps F] (main_arg0 : FVec F S4096x90x195 .f32) (main_arg14 : FVec F S256 .f32) (main_arg15 : FVec F S256 .f32) (main_arg16 : FVec F S256 .f32) (main_arg17 : FVec F S256 .f32) (main_arg18 : FVec F S256 .f32) (main_arg19 : FVec F S2x256 .f32) (main_arg20 : FVec F S2 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg0 main_arg18 main_arg19 main_arg20 main_v83 main_v84 main_cst_32

def fn_part3 {F : FTy → Type} [FloatOps F] (main_arg0 : FVec F S4096x90x195 .f32) (main_arg11 : FVec F S512 .f32) (main_arg12 : FVec F S512 .f32) (main_arg13 : FVec F S256x512 .f32) (main_arg14 : FVec F S256 .f32) (main_arg15 : FVec F S256 .f32) (main_arg16 : FVec F S256 .f32) (main_arg17 : FVec F S256 .f32) (main_arg18 : FVec F S256 .f32) (main_arg19 : FVec F S2x256 .f32) (main_arg20 : FVec F S2 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S256x512 .f32 := Host.absf main_arg13
  let main_cst_24 : FVec F S_ .f32 := constant S_ .f32 0x7F800000#32
  let main_v65 : FVec F S256x512 .f32 := broadcastInDim S256x512 ![] bcast_S_S256x512 main_cst_24
  let main_v66 : IVec S256x512 1 := cmpf .olt main_v64 main_v65
  let main_c_25 : IVec S_ 1 := constantI S_ 1 1#1
  let main_v67 : IVec S_ 1 := (fun x v => Host.reduce IntOp.andi x v reducesTo_S256x512_S_d0_1 h_S_) main_v66 main_c_25
  fn_part4 (F := F) main_arg0 main_arg14 main_arg15 main_arg16 main_arg17 main_arg18 main_arg19 main_arg20 main_v63 main_v67

def fn_part2 {F : FTy → Type} [FloatOps F] (main_arg0 : FVec F S4096x90x195 .f32) (main_arg7 : FVec F S512x5760 .f32) (main_arg8 : FVec F S512 .f32) (main_arg9 : FVec F S512 .f32) (main_arg10 : FVec F S512 .f32) (main_arg11 : FVec F S512 .f32) (main_arg12 : FVec F S512 .f32) (main_arg13 : FVec F S256x512 .f32) (main_arg14 : FVec F S256 .f32) (main_arg15 : FVec F S256 .f32) (main_arg16 : FVec F S256 .f32) (main_arg17 : FVec F S256 .f32) (main_arg18 : FVec F S256 .f32) (main_arg19 : FVec F S2x256 .f32) (main_arg20 : FVec F S2 .f32) (main_v33 : IVec S_ 1) : IVec S_ 1 :=
  let main_v34 : FVec F S512x5760 .f32 := Host.absf main_arg7
  let main_cst_12 : FVec F S_ .f32 := constant S_ .f32 0x7F800000#32
  let main_v35 : FVec F S512x5760 .f32 := broadcastInDim S512x5760 ![] bcast_S_S512x5760 main_cst_12
  let main_v36 : IVec S512x5760 1 := cmpf .olt main_v34 main_v35
  let main_c_13 : IVec S_ 1 := constantI S_ 1 1#1
  let main_v37 : IVec S_ 1 := (fun x v => Host.reduce IntOp.andi x v reducesTo_S512x5760_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg0 main_arg11 main_arg12 main_arg13 main_arg14 main_arg15 main_arg16 main_arg17 main_arg18 main_arg19 main_arg20 main_v48 main_v49 main_v50

def fn_part1 {F : FTy → Type} [FloatOps F] (main_arg0 : FVec F S4096x90x195 .f32) (main_arg4 : FVec F S64x128 .f32) (main_arg5 : FVec F S64 .f32) (main_arg6 : FVec F S64x128 .f32) (main_arg7 : FVec F S512x5760 .f32) (main_arg8 : FVec F S512 .f32) (main_arg9 : FVec F S512 .f32) (main_arg10 : FVec F S512 .f32) (main_arg11 : FVec F S512 .f32) (main_arg12 : FVec F S512 .f32) (main_arg13 : FVec F S256x512 .f32) (main_arg14 : FVec F S256 .f32) (main_arg15 : FVec F S256 .f32) (main_arg16 : FVec F S256 .f32) (main_arg17 : FVec F S256 .f32) (main_arg18 : FVec F S256 .f32) (main_arg19 : FVec F S2x256 .f32) (main_arg20 : FVec F S2 .f32) (main_v13 : IVec S_ 1) (main_v16 : IVec S128x195 1) : IVec S_ 1 :=
  let main_c_5 : IVec S_ 1 := constantI S_ 1 1#1
  let main_v17 : IVec S_ 1 := (fun x v => Host.reduce IntOp.andi x v reducesTo_S128x195_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg0 main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x90x195 .f32) (main_arg1 : FVec F S128x195 .f32) (main_arg2 : FVec F S128 .f32) (main_arg3 : FVec F S128x195 .f32) (main_arg4 : FVec F S64x128 .f32) (main_arg5 : FVec F S64 .f32) (main_arg6 : FVec F S64x128 .f32) (main_arg7 : FVec F S512x5760 .f32) (main_arg8 : FVec F S512 .f32) (main_arg9 : FVec F S512 .f32) (main_arg10 : FVec F S512 .f32) (main_arg11 : FVec F S512 .f32) (main_arg12 : FVec F S512 .f32) (main_arg13 : FVec F S256x512 .f32) (main_arg14 : FVec F S256 .f32) (main_arg15 : FVec F S256 .f32) (main_arg16 : FVec F S256 .f32) (main_arg17 : FVec F S256 .f32) (main_arg18 : FVec F S256 .f32) (main_arg19 : FVec F S2x256 .f32) (main_arg20 : FVec F S2 .f32) : IVec S_ 1 :=
  let main_v0 : FVec F S4096x90x195 .f32 := Host.absf main_arg0
  let main_cst : FVec F S_ .f32 := constant S_ .f32 0x7F800000#32
  let main_v1 : FVec F S4096x90x195 .f32 := broadcastInDim S4096x90x195 ![] bcast_S_S4096x90x195 main_cst
  let main_v2 : IVec S4096x90x195 1 := cmpf .olt main_v0 main_v1
  let main_c : IVec S_ 1 := constantI S_ 1 1#1
  let main_v3 : IVec S_ 1 := (fun x v => Host.reduce IntOp.andi x v reducesTo_S4096x90x195_S_d0_1_2 h_S_) main_v2 main_c
  let main_v4 : FVec F S128x195 .f32 := Host.absf main_arg1
  let main_cst_0 : FVec F S_ .f32 := constant S_ .f32 0x7F800000#32
  let main_v5 : FVec F S128x195 .f32 := broadcastInDim S128x195 ![] bcast_S_S128x195 main_cst_0
  let main_v6 : IVec S128x195 1 := cmpf .olt main_v4 main_v5
  let main_c_1 : IVec S_ 1 := constantI S_ 1 1#1
  let main_v7 : IVec S_ 1 := (fun x v => Host.reduce IntOp.andi x v reducesTo_S128x195_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x195 .f32 := Host.absf main_arg3
  let main_cst_4 : FVec F S_ .f32 := constant S_ .f32 0x7F800000#32
  let main_v15 : FVec F S128x195 .f32 := broadcastInDim S128x195 ![] bcast_S_S128x195 main_cst_4
  let main_v16 : IVec S128x195 1 := cmpf .olt main_v14 main_v15
  fn_part1 (F := F) main_arg0 main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x90x195 : Shape := ⟨3, ![4096, 90, 195]⟩
abbrev S128x195 : Shape := ⟨2, ![128, 195]⟩
abbrev S128 : Shape := ⟨1, ![128]⟩
abbrev S64x128 : Shape := ⟨2, ![64, 128]⟩
abbrev S64 : Shape := ⟨1, ![64]⟩
abbrev S512x5760 : Shape := ⟨2, ![512, 5760]⟩
abbrev S512 : Shape := ⟨1, ![512]⟩
abbrev S256x512 : Shape := ⟨2, ![256, 512]⟩
abbrev S256 : Shape := ⟨1, ![256]⟩
abbrev S2x256 : Shape := ⟨2, ![2, 256]⟩
abbrev S2 : Shape := ⟨1, ![2]⟩
abbrev S4096x90x64 : Shape := ⟨3, ![4096, 90, 64]⟩
abbrev S32x90x195 : Shape := ⟨3, ![32, 90, 195]⟩
abbrev S32x90x64 : Shape := ⟨3, ![32, 90, 64]⟩
abbrev S32x90 : Shape := ⟨2, ![32, 90]⟩
abbrev S32x90x1 : Shape := ⟨3, ![32, 90, 1]⟩
abbrev S32x90x90 : Shape := ⟨3, ![32, 90, 90]⟩
abbrev S32x1x90 : Shape := ⟨3, ![32, 1, 90]⟩
abbrev S2880x195 : Shape := ⟨2, ![2880, 195]⟩
abbrev S2880x128 : Shape := ⟨2, ![2880, 128]⟩
abbrev S32x90x128 : Shape := ⟨3, ![32, 90, 128]⟩
abbrev S1x1x128 : Shape := ⟨3, ![1, 1, 128]⟩
abbrev S2880x64 : Shape := ⟨2, ![2880, 64]⟩
abbrev S1x1x64 : Shape := ⟨3, ![1, 1, 64]⟩
abbrev S4096x5760 : Shape := ⟨2, ![4096, 5760]⟩
abbrev S4096x2 : Shape := ⟨2, ![4096, 2]⟩
abbrev S4096x256 : Shape := ⟨2, ![4096, 256]⟩
abbrev S1024x5760 : Shape := ⟨2, ![1024, 5760]⟩
abbrev S1024x2 : Shape := ⟨2, ![1024, 2]⟩
abbrev S1024x256 : Shape := ⟨2, ![1024, 256]⟩
abbrev S1024x512 : Shape := ⟨2, ![1024, 512]⟩
abbrev S1x512 : Shape := ⟨2, ![1, 512]⟩
abbrev S1x256 : Shape := ⟨2, ![1, 256]⟩
abbrev S1x2 : Shape := ⟨2, ![1, 2]⟩
abbrev S1024 : Shape := ⟨1, ![1024]⟩
abbrev S1024x1 : Shape := ⟨2, ![1024, 1]⟩

abbrev nBuf : Space → Nat
  | .hbm => 32
  | .vmem => 30
  | .smem => 0
  | _ => 0

abbrev bufTy : (tb : Table) → Fin (tcTables nBuf tb) → BufTy
  | .hbm, ⟨0, _⟩ => ⟨S4096x90x195, .f32⟩
  | .hbm, ⟨1, _⟩ => ⟨S128x195, .f32⟩
  | .hbm, ⟨2, _⟩ => ⟨S128, .f32⟩
  | .hbm, ⟨3, _⟩ => ⟨S128x195, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S512x5760, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S256x512, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S2x256, .f32⟩
  | .hbm, ⟨20, _⟩ => ⟨S2, .f32⟩
  | .hbm, ⟨21, _⟩ => ⟨S128x195, .bf16⟩
  | .hbm, ⟨22, _⟩ => ⟨S128x195, .bf16⟩
  | .hbm, ⟨23, _⟩ => ⟨S64x128, .bf16⟩
  | .hbm, ⟨24, _⟩ => ⟨S64x128, .bf16⟩
  | .hbm, ⟨25, _⟩ => ⟨S4096x90x64, .bf16⟩
  | .hbm, ⟨26, _⟩ => ⟨S4096x5760, .bf16⟩
  | .hbm, ⟨27, _⟩ => ⟨S512x5760, .bf16⟩
  | .hbm, ⟨28, _⟩ => ⟨S256x512, .bf16⟩
  | .hbm, ⟨29, _⟩ => ⟨S2x256, .bf16⟩
  | .hbm, ⟨30, _⟩ => ⟨S4096x2, .f32⟩
  | .hbm, ⟨31, _⟩ => ⟨S4096x256, .f32⟩
  | .local _ .vmem, ⟨0, _⟩ => ⟨S32x90x195, .f32⟩
  | .local _ .vmem, ⟨1, _⟩ => ⟨S32x90x195, .f32⟩
  | .local _ .vmem, ⟨2, _⟩ => ⟨S128x195, .bf16⟩
  | .local _ .vmem, ⟨3, _⟩ => ⟨S128, .f32⟩
  | .local _ .vmem, ⟨4, _⟩ => ⟨S128x195, .bf16⟩
  | .local _ .vmem, ⟨5, _⟩ => ⟨S64x128, .bf16⟩
  | .local _ .vmem, ⟨6, _⟩ => ⟨S64, .f32⟩
  | .local _ .vmem, ⟨7, _⟩ => ⟨S64x128, .bf16⟩
  | .local _ .vmem, ⟨8, _⟩ => ⟨S32x90x64, .bf16⟩
  | .local _ .vmem, ⟨9, _⟩ => ⟨S32x90x64, .bf16⟩
  | .local _ .vmem, ⟨10, _⟩ => ⟨S1024x5760, .bf16⟩
  | .local _ .vmem, ⟨11, _⟩ => ⟨S1024x5760, .bf16⟩
  | .local _ .vmem, ⟨12, _⟩ => ⟨S512x5760, .bf16⟩
  | .local _ .vmem, ⟨13, _⟩ => ⟨S512, .f32⟩
  | .local _ .vmem, ⟨14, _⟩ => ⟨S512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S256x512, .bf16⟩
  | .local _ .vmem, ⟨19, _⟩ => ⟨S256, .f32⟩
  | .local _ .vmem, ⟨20, _⟩ => ⟨S256, .f32⟩
  | .local _ .vmem, ⟨21, _⟩ => ⟨S256, .f32⟩
  | .local _ .vmem, ⟨22, _⟩ => ⟨S256, .f32⟩
  | .local _ .vmem, ⟨23, _⟩ => ⟨S256, .f32⟩
  | .local _ .vmem, ⟨24, _⟩ => ⟨S2x256, .bf16⟩
  | .local _ .vmem, ⟨25, _⟩ => ⟨S2, .f32⟩
  | .local _ .vmem, ⟨26, _⟩ => ⟨S1024x2, .f32⟩
  | .local _ .vmem, ⟨27, _⟩ => ⟨S1024x2, .f32⟩
  | .local _ .vmem, ⟨28, _⟩ => ⟨S1024x256, .f32⟩
  | .local _ .vmem, ⟨29, _⟩ => ⟨S1024x256, .f32⟩
  | _, _ => ⟨S4096x90x195, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9_0 : Ref sig .tc := ⟨.hbm, 30, rfl⟩
abbrev main_v9_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg15_1 : Ref sig .tc := ⟨.vmem, 27, rfl⟩
abbrev cc1_stg16_0 : Ref sig .tc := ⟨.vmem, 28, rfl⟩
abbrev cc1_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem15_1 : DmaSem sig := 27
abbrev cc1_sem16_0 : DmaSem sig := 28
abbrev cc1_sem16_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x90x195 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x195 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x195 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x90x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x5760 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x5760 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S2x256 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S2 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1024x2 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1024x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  bitsLt_bf16_f32 : FTy.bits .bf16 < FTy.bits .f32
  inb_S32x90x195_S32x90x195_0_0_0 : ∀ a, (![0, 0, 0] : Fin 3 → Nat) a + S32x90x195.size a ≤ S32x90x195.size a
  h_S32x90x195 : 0 < S32x90x195.numel
  reduces_S32x90x195_S32x90 : S32x90x195.Reduces [2] S32x90
  shapeCasts_S32x90_S32x90x1 : S32x90.ShapeCasts S32x90x1
  broadcasts_S32x90x1_S32x90x195 : S32x90x1.Broadcasts S32x90x195
  shapeCasts_S32x90_S32x1x90 : S32x90.ShapeCasts S32x1x90
  broadcasts_S32x90x1_S32x90x90 : S32x90x1.Broadcasts S32x90x90
  broadcasts_S32x1x90_S32x90x90 : S32x1x90.Broadcasts S32x90x90
  natLt_1_32 : 1 < 32
  transposes_S32x90x90_p0_2_1_S32x90x90 : S32x90x90.Transposes [0, 2, 1] S32x90x90
  reduces_S32x90x90_S32x90 : S32x90x90.Reduces [2] S32x90
  inb_S128x195_S128x195_0_0 : ∀ a, (![0, 0] : Fin 2 → Nat) a + S128x195.size a ≤ S128x195.size a
  h_S128x195 : 0 < S128x195.numel
  shapeCasts_S128x195_S128x195 : S128x195.ShapeCasts S128x195
  inb_S128_S128_0 : ∀ a, (![0] : Fin 1 → Nat) a + S128.size a ≤ S128.size a
  h_S128 : 0 < S128.numel
  shapeCasts_S32x90x195_S2880x195 : S32x90x195.ShapeCasts S2880x195
  shapeCasts_S2880x128_S32x90x128 : S2880x128.ShapeCasts S32x90x128
  shapeCasts_S128_S1x1x128 : S128.ShapeCasts S1x1x128
  broadcasts_S1x1x128_S32x90x128 : S1x1x128.Broadcasts S32x90x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64_S64_0 : ∀ a, (![0] : Fin 1 → Nat) a + S64.size a ≤ S64.size a
  h_S64 : 0 < S64.numel
  shapeCasts_S32x90x128_S2880x128 : S32x90x128.ShapeCasts S2880x128
  shapeCasts_S2880x64_S32x90x64 : S2880x64.ShapeCasts S32x90x64
  shapeCasts_S64_S1x1x64 : S64.ShapeCasts S1x1x64
  broadcasts_S1x1x64_S32x90x64 : S1x1x64.Broadcasts S32x90x64
  inb_S32x90x64_S32x90x64_0_0_0 : ∀ a, (![0, 0, 0] : Fin 3 → Nat) a + S32x90x64.size a ≤ S32x90x64.size a
  h_S32x90x64 : 0 < S32x90x64.numel
  packedbf16_S32x90x64_S32x90x64_0_0_0 : (Rect.unit (s := S32x90x64) ![0, 0, 0] S32x90x64.size inb_S32x90x64_S32x90x64_0_0_0).PackedRows (EltTy.packing .bf16)
  shapeCasts_S4096x90x64_S4096x5760 : S4096x90x64.ShapeCasts S4096x5760
  inb_S1024x5760_S1024x5760_0_0 : ∀ a, (![0, 0] : Fin 2 → Nat) a + S1024x5760.size a ≤ S1024x5760.size a
  h_S1024x5760 : 0 < S1024x5760.numel
  shapeCasts_S1024x5760_S1024x5760 : S1024x5760.ShapeCasts S1024x5760
  inb_S512x5760_S512x5760_0_0 : ∀ a, (![0, 0] : Fin 2 → Nat) a + S512x5760.size a ≤ S512x5760.size a
  h_S512x5760 : 0 < S512x5760.numel
  shapeCasts_S512x5760_S512x5760 : S512x5760.ShapeCasts S512x5760
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  inb_S1024x256_S1024x256_0_0 : ∀ a, (![0, 0] : Fin 2 → Nat) a + S1024x256.size a ≤ S1024x256.size a
  h_S1024x256 : 0 < S1024x256.numel
  dot_S32x90x195_S32x90x195_S32x90x90_2_2_1_1_0_0_wf : DotDims.WF S32x90x195 S32x90x195 S32x90x90 [2] [2] [1] [1] [0] [0]
  dot_S32x90x90_S32x90x195_S32x90x195_2_1_1_2_0_0_wf : DotDims.WF S32x90x90 S32x90x195 S32x90x195 [2] [1] [1] [2] [0] [0]
  dot_S2880x195_S128x195_S2880x128_1_1_0_0_n_n_wf : DotDims.WF S2880x195 S128x195 S2880x128 [1] [1] [0] [0] [] []
  dot_S32x90x90_S32x90x128_S32x90x128_2_1_1_2_0_0_wf : DotDims.WF S32x90x90 S32x90x128 S32x90x128 [2] [1] [1] [2] [0] [0]
  dot_S2880x128_S64x128_S2880x64_1_1_0_0_n_n_wf : DotDims.WF S2880x128 S64x128 S2880x64 [1] [1] [0] [0] [] []
  dot_S1024x5760_S512x5760_S1024x512_1_1_0_0_n_n_wf : DotDims.WF S1024x5760 S512x5760 S1024x512 [1] [1] [0] [0] [] []
  dot_S1024x512_S256x512_S1024x256_1_1_0_0_n_n_wf : DotDims.WF S1024x512 S256x512 S1024x256 [1] [1] [0] [0] [] []
  dot_S1024x256_S2x256_S1024x2_1_1_0_0_n_n_wf : DotDims.WF S1024x256 S2x256 S1024x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x90x195.size a ≤ S4096x90x195.size a
  hwx0_0 : ∀ i : grid0.Coords, EltTy.bits .f32 = 32 ∨ (Rect.block (s := S4096x90x195) S32x90x195.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x195.size a ≤ S128x195.size a
  hwx0_1 : ∀ i : grid0.Coords, EltTy.bits .bf16 = 32 ∨ (Rect.block (s := S128x195) S128x195.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x195.size a ≤ S128x195.size a
  hwx0_3 : ∀ i : grid0.Coords, EltTy.bits .bf16 = 32 ∨ (Rect.block (s := S128x195) S128x195.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .bf16 = 32 ∨ (Rect.block (s := S64x128) S64x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x90x64.size a ≤ S4096x90x64.size a
  hwx0_7 : ∀ i : grid0.Coords, EltTy.bits .bf16 = 32 ∨ (Rect.block (s := S4096x90x64) S32x90x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x5760.size a ≤ S4096x5760.size a
  hwx1_0 : ∀ i : grid1.Coords, EltTy.bits .bf16 = 32 ∨ (Rect.block (s := S4096x5760) S1024x5760.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x5760.size a ≤ S512x5760.size a
  hwx1_1 : ∀ i : grid1.Coords, EltTy.bits .bf16 = 32 ∨ (Rect.block (s := S512x5760) S512x5760.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x512.size a ≤ S256x512.size a
  hwx1_7 : ∀ i : grid1.Coords, EltTy.bits .bf16 = 32 ∨ (Rect.block (s := S256x512) S256x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256.size a ≤ S256.size a
  hwx1_9 : ∀ i : grid1.Coords, EltTy.bits .f32 = 32 ∨ (Rect.block (s := S256) S256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256.size a ≤ S256.size a
  hwx1_10 : ∀ i : grid1.Coords, EltTy.bits .f32 = 32 ∨ (Rect.block (s := S256) S256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256.size a ≤ S256.size a
  hwx1_11 : ∀ i : grid1.Coords, EltTy.bits .f32 = 32 ∨ (Rect.block (s := S256) S256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S256.size a ≤ S256.size a
  hwx1_12 : ∀ i : grid1.Coords, EltTy.bits .f32 = 32 ∨ (Rect.block (s := S256) S256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S2x256.size a ≤ S2x256.size a
  hwx1_13 : ∀ i : grid1.Coords, EltTy.bits .bf16 = 32 ∨ (Rect.block (s := S2x256) S2x256.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S2.size a ≤ S2.size a
  hwx1_14 : ∀ i : grid1.Coords, EltTy.bits .f32 = 32 ∨ (Rect.block (s := S2) S2.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1024x2.size a ≤ S4096x2.size a
  hwx1_15 : ∀ i : grid1.Coords, EltTy.bits .f32 = 32 ∨ (Rect.block (s := S4096x2) S1024x2.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1024x256.size a ≤ S4096x256.size a
  hwx1_16 : ∀ i : grid1.Coords, EltTy.bits .f32 = 32 ∨ (Rect.block (s := S4096x256) S1024x256.size (cc1_transform_16 i) (hinb1_16 i)).WholeWords (EltTy.packing .f32)

variable [Facts₀]

def dot_S32x90x195_S32x90x195_S32x90x90_2_2_1_1_0_0 : DotDims S32x90x195 S32x90x195 S32x90x90 where
  lhsContracting := [2]
  rhsContracting := [2]
  lhsNonContracting := [1]
  rhsNonContracting := [1]
  lhsBatch := [0]
  rhsBatch := [0]
  wf := dot_S32x90x195_S32x90x195_S32x90x90_2_2_1_1_0_0_wf
def dot_S32x90x90_S32x90x195_S32x90x195_2_1_1_2_0_0 : DotDims S32x90x90 S32x90x195 S32x90x195 where
  lhsContracting := [2]
  rhsContracting := [1]
  lhsNonContracting := [1]
  rhsNonContracting := [2]
  lhsBatch := [0]
  rhsBatch := [0]
  wf := dot_S32x90x90_S32x90x195_S32x90x195_2_1_1_2_0_0_wf
def dot_S2880x195_S128x195_S2880x128_1_1_0_0_n_n : DotDims S2880x195 S128x195 S2880x128 where
  lhsContracting := [1]
  rhsContracting := [1]
  lhsNonContracting := [0]
  rhsNonContracting := [0]
  lhsBatch := []
  rhsBatch := []
  wf := dot_S2880x195_S128x195_S2880x128_1_1_0_0_n_n_wf
def dot_S32x90x90_S32x90x128_S32x90x128_2_1_1_2_0_0 : DotDims S32x90x90 S32x90x128 S32x90x128 where
  lhsContracting := [2]
  rhsContracting := [1]
  lhsNonContracting := [1]
  rhsNonContracting := [2]
  lhsBatch := [0]
  rhsBatch := [0]
  wf := dot_S32x90x90_S32x90x128_S32x90x128_2_1_1_2_0_0_wf
def dot_S2880x128_S64x128_S2880x64_1_1_0_0_n_n : DotDims S2880x128 S64x128 S2880x64 where
  lhsContracting := [1]
  rhsContracting := [1]
  lhsNonContracting := [0]
  rhsNonContracting := [0]
  lhsBatch := []
  rhsBatch := []
  wf := dot_S2880x128_S64x128_S2880x64_1_1_0_0_n_n_wf
def dot_S1024x5760_S512x5760_S1024x512_1_1_0_0_n_n : DotDims S1024x5760 S512x5760 S1024x512 where
  lhsContracting := [1]
  rhsContracting := [1]
  lhsNonContracting := [0]
  rhsNonContracting := [0]
  lhsBatch := []
  rhsBatch := []
  wf := dot_S1024x5760_S512x5760_S1024x512_1_1_0_0_n_n_wf
def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf
def dot_S1024x256_S2x256_S1024x2_1_1_0_0_n_n : DotDims S1024x256 S2x256 S1024x2 where
  lhsContracting := [1]
  rhsContracting := [1]
  lhsNonContracting := [0]
  rhsNonContracting := [0]
  lhsBatch := []
  rhsBatch := []
  wf := dot_S1024x256_S2x256_S1024x2_1_1_0_0_n_n_wf

abbrev win0_0 : Pipeline.Window sig grid0 :=
  Pipeline.Window.ofSpec (Memref.whole main_arg0) S32x90x195.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x195.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x195.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S32x90x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5) S1024x5760.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S512x5760.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S256x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg16) S256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg17) S256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg18) S256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v8) S2x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg20) S2.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v9_0) S1024x2.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v9_1) S1024x256.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S4096x90x195 : Shape := ⟨3, ![4096, 90, 195]⟩
abbrev S128x195 : Shape := ⟨2, ![128, 195]⟩
abbrev S128 : Shape := ⟨1, ![128]⟩
abbrev S64x128 : Shape := ⟨2, ![64, 128]⟩
abbrev S64 : Shape := ⟨1, ![64]⟩
abbrev S512x5760 : Shape := ⟨2, ![512, 5760]⟩
abbrev S512 : Shape := ⟨1, ![512]⟩
abbrev S256x512 : Shape := ⟨2, ![256, 512]⟩
abbrev S256 : Shape := ⟨1, ![256]⟩
abbrev S2x256 : Shape := ⟨2, ![2, 256]⟩
abbrev S2 : Shape := ⟨1, ![2]⟩
abbrev S_ : Shape := ⟨0, ![]⟩
abbrev S4096x90 : Shape := ⟨2, ![4096, 90]⟩
abbrev S4096x90x1 : Shape := ⟨3, ![4096, 90, 1]⟩
abbrev S4096x90x90 : Shape := ⟨3, ![4096, 90, 90]⟩
abbrev S90 : Shape := ⟨1, ![90]⟩
abbrev S90x1 : Shape := ⟨2, ![90, 1]⟩
abbrev S90x2 : Shape := ⟨2, ![90, 2]⟩
abbrev S4096x1x90 : Shape := ⟨3, ![4096, 1, 90]⟩
abbrev S4096x90x128 : Shape := ⟨3, ![4096, 90, 128]⟩
abbrev S1x1x128 : Shape := ⟨3, ![1, 1, 128]⟩
abbrev S4096x90x64 : Shape := ⟨3, ![4096, 90, 64]⟩
abbrev S1x1x64 : Shape := ⟨3, ![1, 1, 64]⟩
abbrev S4096x5760 : Shape := ⟨2, ![4096, 5760]⟩
abbrev S5760x512 : Shape := ⟨2, ![5760, 512]⟩
abbrev S4096x512 : Shape := ⟨2, ![4096, 512]⟩
abbrev S1x512 : Shape := ⟨2, ![1, 512]⟩
abbrev S512x256 : Shape := ⟨2, ![512, 256]⟩
abbrev S4096x256 : Shape := ⟨2, ![4096, 256]⟩
abbrev S1x256 : Shape := ⟨2, ![1, 256]⟩
abbrev S256x2 : Shape := ⟨2, ![256, 2]⟩
abbrev S4096x2 : Shape := ⟨2, ![4096, 2]⟩
abbrev S1x2 : Shape := ⟨2, ![1, 2]⟩
abbrev S4096 : Shape := ⟨1, ![4096]⟩
abbrev S4096x1 : Shape := ⟨2, ![4096, 1]⟩

abbrev nBuf : Space → Nat
  | .hbm => 158
  | .vmem => 0
  | .smem => 0
  | _ => 0

abbrev hbmTy0_0 (i : Nat) : BufTy := match i % 128 with
  | 0 => ⟨S4096x90x195, .f32⟩
  | 1 => ⟨S128x195, .f32⟩
  | 2 => ⟨S128, .f32⟩
  | 3 => ⟨S128x195, .f32⟩
  | 4 => ⟨S64x128, .f32⟩
  | 5 => ⟨S64, .f32⟩
  | 6 => ⟨S64x128, .f32⟩
  | 7 => ⟨S512x5760, .f32⟩
  | 8 => ⟨S512, .f32⟩
  | 9 => ⟨S512, .f32⟩
  | 10 => ⟨S512, .f32⟩
  | 11 => ⟨S512, .f32⟩
  | 12 => ⟨S512, .f32⟩
  | 13 => ⟨S256x512, .f32⟩
  | 14 => ⟨S256, .f32⟩
  | 15 => ⟨S256, .f32⟩
  | 16 => ⟨S256, .f32⟩
  | 17 => ⟨S256, .f32⟩
  | 18 => ⟨S256, .f32⟩
  | 19 => ⟨S2x256, .f32⟩
  | 20 => ⟨S2, .f32⟩
  | 21 => ⟨S_, .f32⟩
  | 22 => ⟨S4096x90, .f32⟩
  | 23 => ⟨S4096x90x1, .f32⟩
  | 24 => ⟨S_, .f32⟩
  | 25 => ⟨S4096x90x1, .f32⟩
  | 26 => ⟨S4096x90x1, .f32⟩
  | 27 => ⟨S4096x90x195, .f32⟩
  | 28 => ⟨S4096x90x195, .f32⟩
  | 29 => ⟨S4096x90x90, .f32⟩
  | 30 => ⟨S90, .i32⟩
  | 31 => ⟨S90, .i32⟩
  | 32 => ⟨S_, .i32⟩
  | 33 => ⟨S90, .i32⟩
  | 34 => ⟨S90, .i1⟩
  | 35 => ⟨S_, .i32⟩
  | 36 => ⟨S90, .i32⟩
  | 37 => ⟨S90, .i32⟩
  | 38 => ⟨S90, .i32⟩
  | 39 => ⟨S_, .i32⟩
  | 40 => ⟨S90, .i32⟩
  | 41 => ⟨S90, .i1⟩
  | 42 => ⟨S_, .i32⟩
  | 43 => ⟨S90, .i32⟩
  | 44 => ⟨S90, .i32⟩
  | 45 => ⟨S90, .i32⟩
  | 46 => ⟨S90x1, .i32⟩
  | 47 => ⟨S90x1, .i32⟩
  | 48 => ⟨S90x2, .i32⟩
  | 49 => ⟨S4096x90, .f32⟩
  | 50 => ⟨S4096x90, .f32⟩
  | 51 => ⟨S4096x90x1, .f32⟩
  | 52 => ⟨S4096x1x90, .f32⟩
  | 53 => ⟨S4096x90x90, .f32⟩
  | 54 => ⟨S4096x90x90, .f32⟩
  | 55 => ⟨S4096x90x90, .f32⟩
  | 56 => ⟨S4096x90x90, .f32⟩
  | 57 => ⟨S_, .f32⟩
  | 58 => ⟨S4096x90x90, .f32⟩
  | 59 => ⟨S4096x90x90, .i1⟩
  | 60 => ⟨S4096x90x90, .f32⟩
  | 61 => ⟨S4096x90x90, .f32⟩
  | 62 => ⟨S_, .f32⟩
  | 63 => ⟨S4096x90, .f32⟩
  | 64 => ⟨S4096x90x1, .f32⟩
  | 65 => ⟨S4096x90x195, .f32⟩
  | 66 => ⟨S4096x90x195, .f32⟩
  | 67 => ⟨S4096x90x195, .f32⟩
  | 68 => ⟨S4096x90x128, .f32⟩
  | 69 => ⟨S1x1x128, .f32⟩
  | 70 => ⟨S4096x90x128, .f32⟩
  | 71 => ⟨S4096x90x128, .f32⟩
  | 72 => ⟨S4096x90x128, .f32⟩
  | 73 => ⟨S4096x90x128, .f32⟩
  | 74 => ⟨S_, .f32⟩
  | 75 => ⟨S4096x90x128, .f32⟩
  | 76 => ⟨S4096x90x128, .f32⟩
  | 77 => ⟨S4096x90x90, .f32⟩
  | 78 => ⟨S_, .f32⟩
  | 79 => ⟨S4096x90, .f32⟩
  | 80 => ⟨S4096x90x1, .f32⟩
  | 81 => ⟨S4096x90x128, .f32⟩
  | 82 => ⟨S4096x90x128, .f32⟩
  | 83 => ⟨S4096x90x128, .f32⟩
  | 84 => ⟨S4096x90x64, .f32⟩
  | 85 => ⟨S1x1x64, .f32⟩
  | 86 => ⟨S4096x90x64, .f32⟩
  | 87 => ⟨S4096x90x64, .f32⟩
  | 88 => ⟨S4096x90x64, .f32⟩
  | 89 => ⟨S4096x90x64, .f32⟩
  | 90 => ⟨S4096x5760, .f32⟩
  | 91 => ⟨S5760x512, .f32⟩
  | 92 => ⟨S4096x512, .f32⟩
  | 93 => ⟨S1x512, .f32⟩
  | 94 => ⟨S4096x512, .f32⟩
  | 95 => ⟨S4096x512, .f32⟩
  | 96 => ⟨S_, .f32⟩
  | 97 => ⟨S4096x512, .f32⟩
  | 98 => ⟨S4096x512, .f32⟩
  | 99 => ⟨S1x512, .f32⟩
  | 100 => ⟨S4096x512, .f32⟩
  | 101 => ⟨S4096x512, .f32⟩
  | 102 => ⟨S_, .f32⟩
  | 103 => ⟨S512, .f32⟩
  | 104 => ⟨S512, .f32⟩
  | 105 => ⟨S512, .f32⟩
  | 106 => ⟨S1x512, .f32⟩
  | 107 => ⟨S4096x512, .f32⟩
  | 108 => ⟨S4096x512, .f32⟩
  | 109 => ⟨S1x512, .f32⟩
  | 110 => ⟨S4096x512, .f32⟩
  | 111 => ⟨S4096x512, .f32⟩
  | 112 => ⟨S1x512, .f32⟩
  | 113 => ⟨S4096x512, .f32⟩
  | 114 => ⟨S4096x512, .f32⟩
  | 115 => ⟨S512x256, .f32⟩
  | 116 => ⟨S4096x256, .f32⟩
  | 117 => ⟨S1x256, .f32⟩
  | 118 => ⟨S4096x256, .f32⟩
  | 119 => ⟨S4096x256, .f32⟩
  | 120 => ⟨S_, .f32⟩
  | 121 => ⟨S4096x256, .f32⟩
  | 122 => ⟨S4096x256, .f32⟩
  | 123 => ⟨S1x256, .f32⟩
  | 124 => ⟨S4096x256, .f32⟩
  | 125 => ⟨S4096x256, .f32⟩
  | 126 => ⟨S_, .f32⟩
  | 127 => ⟨S256, .f32⟩
  | _ => ⟨S4096x90x195, .f32⟩

abbrev hbmTy0_1 (i : Nat) : BufTy := match i % 128 with
  | 0 => ⟨S256, .f32⟩
  | 1 => ⟨S256, .f32⟩
  | 2 => ⟨S1x256, .f32⟩
  | 3 => ⟨S4096x256, .f32⟩
  | 4 => ⟨S4096x256, .f32⟩
  | 5 => ⟨S1x256, .f32⟩
  | 6 => ⟨S4096x256, .f32⟩
  | 7 => ⟨S4096x256, .f32⟩
  | 8 => ⟨S1x256, .f32⟩
  | 9 => ⟨S4096x256, .f32⟩
  | 10 => ⟨S4096x256, .f32⟩
  | 11 => ⟨S256x2, .f32⟩
  | 12 => ⟨S4096x2, .f32⟩
  | 13 => ⟨S1x2, .f32⟩
  | 14 => ⟨S4096x2, .f32⟩
  | 15 => ⟨S4096x2, .f32⟩
  | 16 => ⟨S_, .f32⟩
  | 17 => ⟨S4096, .f32⟩
  | 18 => ⟨S_, .f32⟩
  | 19 => ⟨S4096, .f32⟩
  | 20 => ⟨S4096, .f32⟩
  | 21 => ⟨S4096x1, .f32⟩
  | 22 => ⟨S4096x2, .f32⟩
  | 23 => ⟨S4096x2, .f32⟩
  | 24 => ⟨S4096x2, .f32⟩
  | 25 => ⟨S_, .f32⟩
  | 26 => ⟨S4096, .f32⟩
  | 27 => ⟨S4096x1, .f32⟩
  | 28 => ⟨S4096x2, .f32⟩
  | 29 => ⟨S4096x2, .f32⟩
  | _ => ⟨S4096x90x195, .f32⟩

abbrev hbmTy (i : Nat) : BufTy := match i / 128 with
  | 0 => hbmTy0_0 i
  | 1 => hbmTy0_1 i
  | _ => ⟨S4096x90x195, .f32⟩

abbrev bufTy : (tb : Table) → Fin (tcTables nBuf tb) → BufTy
  | .hbm, ⟨i, _⟩ => hbmTy i
  | _, _ => ⟨S4096x90x195, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_call0_v0 : Ref sig .tc := ⟨.hbm, 30, rfl⟩
abbrev main_call0_v1 : Ref sig .tc := ⟨.hbm, 31, rfl⟩
abbrev main_call0_c : Ref sig .tc := ⟨.hbm, 32, rfl⟩
abbrev main_call0_v2 : Ref sig .tc := ⟨.hbm, 33, rfl⟩
abbrev main_call0_v3 : Ref sig .tc := ⟨.hbm, 34, rfl⟩
abbrev main_call0_c_0 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_c_1 : Ref sig .tc := ⟨.hbm, 39, rfl⟩
abbrev main_call0_v7 : Ref sig .tc := ⟨.hbm, 40, rfl⟩
abbrev main_call0_v8 : Ref sig .tc := ⟨.hbm, 41, rfl⟩
abbrev main_call0_c_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_cst_1 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_2 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_call1_cst : Ref sig .tc := ⟨.hbm, 74, rfl⟩
abbrev main_call1_v0 : Ref sig .tc := ⟨.hbm, 75, rfl⟩
abbrev main_v30 : Ref sig .tc := ⟨.hbm, 76, rfl⟩
abbrev main_v31 : Ref sig .tc := ⟨.hbm, 77, rfl⟩
abbrev main_cst_3 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_call2_cst : Ref sig .tc := ⟨.hbm, 96, rfl⟩
abbrev main_call2_v0 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_4 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_call3_cst : Ref sig .tc := ⟨.hbm, 120, rfl⟩
abbrev main_call3_v0 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_5 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_6 : Ref sig .tc := ⟨.hbm, 144, rfl⟩
abbrev main_v91 : Ref sig .tc := ⟨.hbm, 145, rfl⟩
abbrev main_cst_7 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_8 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩

abbrev nD : Nat := 1
abbrev τ : Topo := Topo.v7x

variable {F : FTy → Type} [FloatOps F]

class Facts₀ : Prop where
  reducesTo_S4096x90x195_S4096x90_d2 : S4096x90x195.ReducesTo [2] S4096x90
  h_S_ : 0 < S_.numel
  bcast_S4096x90_S4096x90x1_0_1 : S4096x90.BroadcastsInDim S4096x90x1 (![0, 1] : Fin 2 → Fin S4096x90x1.rank)
  bcast_S_S4096x90x1 : S_.BroadcastsInDim S4096x90x1 (![] : Fin 0 → Fin S4096x90x1.rank)
  bcast_S4096x90x1_S4096x90x195_0_1_2 : S4096x90x1.BroadcastsInDim S4096x90x195 (![0, 1, 2] : Fin 3 → Fin S4096x90x195.rank)
  bcast_S_S90 : S_.BroadcastsInDim S90 (![] : Fin 0 → Fin S90.rank)
  bcast_S90_S90x1_0 : S90.BroadcastsInDim S90x1 (![0] : Fin 1 → Fin S90x1.rank)
  concatenates_S90x1_S90x1_S90x2_d1 : Shape.Concatenates [S90x1, S90x1] S90x2 1
  bcast_S4096x90_S4096x1x90_0_2 : S4096x90.BroadcastsInDim S4096x1x90 (![0, 2] : Fin 2 → Fin S4096x1x90.rank)
  bcast_S4096x90x1_S4096x90x90_0_1_2 : S4096x90x1.BroadcastsInDim S4096x90x90 (![0, 1, 2] : Fin 3 → Fin S4096x90x90.rank)
  bcast_S4096x1x90_S4096x90x90_0_1_2 : S4096x1x90.BroadcastsInDim S4096x90x90 (![0, 1, 2] : Fin 3 → Fin S4096x90x90.rank)
  bcast_S_S4096x90x90 : S_.BroadcastsInDim S4096x90x90 (![] : Fin 0 → Fin S4096x90x90.rank)
  transposes_S4096x90x90_S4096x90x90_0_2_1 : S4096x90x90.Transposes [0, 2, 1] S4096x90x90
  reducesTo_S4096x90x90_S4096x90_d2 : S4096x90x90.ReducesTo [2] S4096x90
  bcast_S128_S1x1x128_2 : S128.BroadcastsInDim S1x1x128 (![2] : Fin 1 → Fin S1x1x128.rank)
  bcast_S1x1x128_S4096x90x128_0_1_2 : S1x1x128.BroadcastsInDim S4096x90x128 (![0, 1, 2] : Fin 3 → Fin S4096x90x128.rank)
  bcast_S_S4096x90x128 : S_.BroadcastsInDim S4096x90x128 (![] : Fin 0 → Fin S4096x90x128.rank)
  bcast_S4096x90x1_S4096x90x128_0_1_2 : S4096x90x1.BroadcastsInDim S4096x90x128 (![0, 1, 2] : Fin 3 → Fin S4096x90x128.rank)
  bcast_S64_S1x1x64_2 : S64.BroadcastsInDim S1x1x64 (![2] : Fin 1 → Fin S1x1x64.rank)
  bcast_S1x1x64_S4096x90x64_0_1_2 : S1x1x64.BroadcastsInDim S4096x90x64 (![0, 1, 2] : Fin 3 → Fin S4096x90x64.rank)
  shapeCasts_S4096x90x64_S4096x5760 : S4096x90x64.ShapeCasts S4096x5760
  transposes_S512x5760_S5760x512_1_0 : S512x5760.Transposes [1, 0] S5760x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S_S512 : S_.BroadcastsInDim S512 (![] : Fin 0 → Fin S512.rank)
  transposes_S256x512_S512x256_1_0 : S256x512.Transposes [1, 0] S512x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S_S256 : S_.BroadcastsInDim S256 (![] : Fin 0 → Fin S256.rank)
  transposes_S2x256_S256x2_1_0 : S2x256.Transposes [1, 0] S256x2
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  reducesTo_S4096x2_S4096_d1 : S4096x2.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  dot_S4096x90x195_S4096x90x195_S4096x90x90_2_2_1_1_0_0_wf : DotDims.WF S4096x90x195 S4096x90x195 S4096x90x90 [2] [2] [1] [1] [0] [0]
  gather_S4096x90x90_S90x2_S4096x90_0_12_n_n_12_1_409611_wf : GatherDims.WF S4096x90x90 S90x2 S4096x90 [0] [1, 2] [] [1, 2] [] 1 ![4096, 1, 1]
  dot_S4096x90x90_S4096x90x195_S4096x90x195_2_1_1_2_0_0_wf : DotDims.WF S4096x90x90 S4096x90x195 S4096x90x195 [2] [1] [1] [2] [0] [0]
  dot_S4096x90x195_S128x195_S4096x90x128_2_1_01_0_n_n_wf : DotDims.WF S4096x90x195 S128x195 S4096x90x128 [2] [1] [0, 1] [0] [] []
  dot_S4096x90x90_S4096x90x128_S4096x90x128_2_1_1_2_0_0_wf : DotDims.WF S4096x90x90 S4096x90x128 S4096x90x128 [2] [1] [1] [2] [0] [0]
  dot_S4096x90x128_S64x128_S4096x90x64_2_1_01_0_n_n_wf : DotDims.WF S4096x90x128 S64x128 S4096x90x64 [2] [1] [0, 1] [0] [] []
  dot_S4096x5760_S5760x512_S4096x512_1_0_0_1_n_n_wf : DotDims.WF S4096x5760 S5760x512 S4096x512 [1] [0] [0] [1] [] []
  dot_S4096x512_S512x256_S4096x256_1_0_0_1_n_n_wf : DotDims.WF S4096x512 S512x256 S4096x256 [1] [0] [0] [1] [] []
  dot_S4096x256_S256x2_S4096x2_1_0_0_1_n_n_wf : DotDims.WF S4096x256 S256x2 S4096x2 [1] [0] [0] [1] [] []

variable [Facts₀]

def dot_S4096x90x195_S4096x90x195_S4096x90x90_2_2_1_1_0_0 : DotDims S4096x90x195 S4096x90x195 S4096x90x90 where
  lhsContracting := [2]
  rhsContracting := [2]
  lhsNonContracting := [1]
  rhsNonContracting := [1]
  lhsBatch := [0]
  rhsBatch := [0]
  wf := dot_S4096x90x195_S4096x90x195_S4096x90x90_2_2_1_1_0_0_wf
def gather_S4096x90x90_S90x2_S4096x90_0_12_n_n_12_1_409611 : GatherDims S4096x90x90 S90x2 S4096x90 where
  offsetDims := [0]
  collapsedSliceDims := [1, 2]
  operandBatchingDims := []
  startIndicesBatchingDims := []
  startIndexMap := [1, 2]
  indexVectorDim := 1
  sliceSizes := ![4096, 1, 1]
  wf := gather_S4096x90x90_S90x2_S4096x90_0_12_n_n_12_1_409611_wf
def dot_S4096x90x90_S4096x90x195_S4096x90x195_2_1_1_2_0_0 : DotDims S4096x90x90 S4096x90x195 S4096x90x195 where
  lhsContracting := [2]
  rhsContracting := [1]
  lhsNonContracting := [1]
  rhsNonContracting := [2]
  lhsBatch := [0]
  rhsBatch := [0]
  wf := dot_S4096x90x90_S4096x90x195_S4096x90x195_2_1_1_2_0_0_wf
def dot_S4096x90x195_S128x195_S4096x90x128_2_1_01_0_n_n : DotDims S4096x90x195 S128x195 S4096x90x128 where
  lhsContracting := [2]
  rhsContracting := [1]
  lhsNonContracting := [0, 1]
  rhsNonContracting := [0]
  lhsBatch := []
  rhsBatch := []
  wf := dot_S4096x90x195_S128x195_S4096x90x128_2_1_01_0_n_n_wf
def dot_S4096x90x90_S4096x90x128_S4096x90x128_2_1_1_2_0_0 : DotDims S4096x90x90 S4096x90x128 S4096x90x128 where
  lhsContracting := [2]
  rhsContracting := [1]
  lhsNonContracting := [1]
  rhsNonContracting := [2]
  lhsBatch := [0]
  rhsBatch := [0]
  wf := dot_S4096x90x90_S4096x90x128_S4096x90x128_2_1_1_2_0_0_wf
def dot_S4096x90x128_S64x128_S4096x90x64_2_1_01_0_n_n : DotDims S4096x90x128 S64x128 S4096x90x64 where
  lhsContracting := [2]
  rhsContracting := [1]
  lhsNonContracting := [0, 1]
  rhsNonContracting := [0]
  lhsBatch := []
  rhsBatch := []
  wf := dot_S4096x90x128_S64x128_S4096x90x64_2_1_01_0_n_n_wf
def dot_S4096x5760_S5760x512_S4096x512_1_0_0_1_n_n : DotDims S4096x5760 S5760x512 S4096x512 where
  lhsContracting := [1]
  rhsContracting := [0]
  lhsNonContracting := [0]
  rhsNonContracting := [1]
  lhsBatch := []
  rhsBatch := []
  wf := dot_S4096x5760_S5760x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

class Facts : Prop extends Facts₀ where

variable [Facts]
-- ==== Proof.Spec.lean ====
/-
  The mathematics both programs compute, one batch element at a time, over the extended reals.

  A batch element is a graph signal `x : 90 nodes × 195 features`.  Its rows are centred, their Pearson
  correlation matrix is thresholded at 1/2 into an adjacency `adj`, and two rounds of mean aggregation over
  incoming edges follow (each a linear layer on the aggregate, a bias, a linear layer on the node itself; a
  rectifier between the rounds).  The 90 × 64 result is flattened and passed through a dense head: two
  (linear, rectifier, affine normalisation) stages and a final linear layer, whose 256 normalised activations are one
  result and whose two logits, soft-maxed, are the other.

  The two programs differ in ONE place: the kernel normalises the adjacency first and then aggregates
  (`aggK`: Σ_j (adj j i / deg i) · v j), the reference aggregates and then divides (`aggR`: (Σ_j adj j i · v j) / deg i).
  Everything else is operation for operation the same, so the head is stated once.
-/
import Idealize.ShloMosaic.PureOps.Ideal

noncomputable section

namespace Cert.GraphSpec

open Idealize.ShloMosaic

/-- The four float words both programs carry, read as extended reals: 195, 1/2, the normalisation's epsilon, -∞. -/
abbrev w195 : EReal := Ideal.ofBits .f32 0x43430000#32
abbrev whalf : EReal := Ideal.ofBits .f32 0x3F000000#32
abbrev weps : EReal := Ideal.ofBits .f32 0x3727C5AC#32
abbrev wninf : EReal := Ideal.ofBits .f32 0xFF800000#32

section Graph

variable {N Fi : ℕ} (x : Fin N → Fin Fi → EReal)

/-- A row's mean: its sum divided by the word 195. -/
def rowMean (n : Fin N) : EReal := Ideal.div (∑ f, x n f) w195
/-- The row with its mean removed. -/
def centred (n : Fin N) (f : Fin Fi) : EReal := x n f - rowMean x n
/-- The centred rows' Gram matrix. -/
def cov (n m : Fin N) : EReal := ∑ f, centred x n f * centred x m f
/-- A centred row's sum of squares (the Gram matrix's diagonal entry). -/
def sumSq (n : Fin N) : EReal := ∑ f, centred x n f * centred x n f
/-- A centred row's length. -/
def norm (n : Fin N) : EReal := Ideal.sqrt (sumSq x n)
/-- Pearson correlation of rows n and m. -/
def corr (n m : Fin N) : EReal := Ideal.div (cov x n m) (norm x n * norm x m)
/-- The adjacency: 1 where the correlation exceeds 1/2, else 0. -/
def adj (n m : Fin N) : EReal := if whalf < corr x n m then 1 else 0
/-- In-degree of node i: the number of j with an edge j → i. -/
def deg (i : Fin N) : EReal := ∑ j, adj x j i

variable {K H : ℕ}

/-- Mean aggregation as the kernel takes it: the adjacency column normalised by the degree, then summed against v. -/
def aggK (v : Fin N → Fin K → EReal) (i : Fin N) (f : Fin K) : EReal :=
  ∑ j, Ideal.div (adj x j i) (deg x i) * v j f
/-- Mean aggregation as the reference takes it: summed against v, then divided by the degree. -/
def aggR (v : Fin N → Fin K → EReal) (i : Fin N) (f : Fin K) : EReal :=
  Ideal.div (∑ j, adj x j i * v j f) (deg x i)

end Graph

/-- One graph layer's affine part: the aggregate through `Wl`, plus the bias, plus the node's own row through `Wr`. -/
def lin {N K H : ℕ} (a v : Fin N → Fin K → EReal) (Wl Wr : Fin H → Fin K → EReal) (b : Fin H → EReal)
    (n : Fin N) (h : Fin H) : EReal :=
  ((∑ f, a n f * Wl h f) + b h) + ∑ f, v n f * Wr h f

section Sage

variable {N Fi H O : ℕ} (x : Fin N → Fin Fi → EReal)
  (W1l : Fin H → Fin Fi → EReal) (b1 : Fin H → EReal) (W1r : Fin H → Fin Fi → EReal)
  (W2l : Fin O → Fin H → EReal) (b2 : Fin O → EReal) (W2r : Fin O → Fin H → EReal)

/-- The hidden layer, kernel's aggregation. -/
def hidK (n : Fin N) (h : Fin H) : EReal := max (lin (aggK x x) x W1l W1r b1 n h) 0
/-- The hidden layer, reference's aggregation. -/
def hidR (n : Fin N) (h : Fin H) : EReal := max (lin (aggR x x) x W1l W1r b1 n h) 0
/-- Both graph layers, kernel's aggregation. -/
def sageK (n : Fin N) (o : Fin O) : EReal :=
  lin (aggK x (hidK x W1l b1 W1r)) (hidK x W1l b1 W1r) W2l W2r b2 n o
/-- Both graph layers, reference's aggregation. -/
def sageR (n : Fin N) (o : Fin O) : EReal :=
  lin (aggR x (hidR x W1l b1 W1r)) (hidR x W1l b1 W1r) W2l W2r b2 n o

end Sage

/-- Row-major flattening of a 90 × 64 table to 5760 entries. -/
def flat (s : Fin 90 → Fin 64 → EReal) (k : Fin 5760) : EReal :=
  s ⟨k.val / 64, by have := k.isLt; omega⟩ ⟨k.val % 64, Nat.mod_lt _ (by norm_num)⟩

/-- The affine normalisation with stored statistics: ((y − m) · rsqrt(v + ε)) · g + β. -/
def bn (y m v g be : EReal) : EReal := ((y - m) * Ideal.rsqrt (v + weps)) * g + be

/-- A dense layer at one output: Σ_k u k · W h k, plus the bias. -/
def fc {K H : ℕ} (u : Fin K → EReal) (W : Fin H → Fin K → EReal) (b : Fin H → EReal) (h : Fin H) : EReal :=
  (∑ k, u k * W h k) + b h

section Head

variable (u : Fin 5760 → EReal)
  (fc1w : Fin 512 → Fin 5760 → EReal) (fc1b g1 be1 m1 v1 : Fin 512 → EReal)
  (fc2w : Fin 256 → Fin 512 → EReal) (fc2b g2 be2 m2 v2 : Fin 256 → EReal)
  (fc3w : Fin 2 → Fin 256 → EReal) (fc3b : Fin 2 → EReal)

/-- First head stage. -/
def stage1 (h : Fin 512) : EReal := bn (max (fc u fc1w fc1b h) 0) (m1 h) (v1 h) (g1 h) (be1 h)
/-- Second head stage: the programs' second result. -/
def outv (c : Fin 256) : EReal :=
  bn (max (fc (stage1 u fc1w fc1b g1 be1 m1 v1) fc2w fc2b c) 0) (m2 c) (v2 c) (g2 c) (be2 c)
/-- The two logits. -/
def logit (j : Fin 2) : EReal := fc (outv u fc1w fc1b g1 be1 m1 v1 fc2w fc2b g2 be2 m2 v2) fc3w fc3b j

end Head

/-- The shift both soft-maxes subtract: the larger of -∞ and the running maximum from -∞. -/
def rowMax (l : Fin 2 → EReal) : EReal := max wninf ((Finset.univ : Finset (Fin 2)).fold max wninf l)
/-- Soft-max of two logits: the programs' first result. -/
def softmax2 (l : Fin 2 → EReal) (j : Fin 2) : EReal :=
  Ideal.div (Ideal.exp (l j - rowMax l)) (∑ j' : Fin 2, Ideal.exp (l j' - rowMax l))

end Cert.GraphSpec

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.Law.lean ====
/-
  The algebraic law that joins the two mean aggregations.

  When the signal is finite and every centred row has a positive sum of squares, each row's correlation with
  itself is 1, which exceeds 1/2, so every node is its own neighbour and every in-degree is a real number at
  least 1.  Dividing each adjacency entry by such a degree before summing against a finite table equals summing
  first and dividing afterwards.  The hidden layer built from either aggregation is therefore the same finite
  table, and the law applies a second time.
-/
import proofs.«169563_j52381421142390_2_alg».proof.Proof.Spec
import proofs.«169563_j52381421142390_2_alg».proof.Proof.LibERealAlgebra
import Mathlib.Tactic

noncomputable section

namespace Cert.GraphLaw

open Idealize.ShloMosaic Cert.GraphSpec
open scoped BigOperators

/-! ### The two float words as reals -/

/-- The word `0x43430000` denotes `195 = (2^23 + 4390912) · 2^(-16)`. -/
theorem w195_eq : w195 = ((195 : ℝ) : EReal) := by
  simp [Ideal.ofBits, Ideal.ieee, -EReal.coe_mul]; norm_num

/-- The word `0x3F000000` denotes `1/2 = 2^23 · 2^(-24)`. -/
theorem whalf_eq : whalf = ((1 / 2 : ℝ) : EReal) := by
  simp [Ideal.ofBits, Ideal.ieee, -EReal.coe_mul]; norm_num

/-! ### Finite values are closed under the operations used -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb
  exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb
  exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb
  exact ⟨r * s, (EReal.coe_mul r s).symm⟩

theorem real_sum {ι : Type*} (s : Finset ι) {g : ι → EReal} (h : ∀ k, ∃ r : ℝ, g k = (r : EReal)) :
    ∃ r : ℝ, ∑ k ∈ s, g k = (r : EReal) := by
  choose q hq using h
  refine ⟨∑ k ∈ s, q k, ?_⟩
  rw [← Cert.LibEReal.coe_sum]
  exact Finset.sum_congr rfl fun k _ => hq k

theorem real_max_zero {a : EReal} (ha : ∃ r : ℝ, a = (r : EReal)) : ∃ r : ℝ, max a 0 = (r : EReal) := by
  obtain ⟨r, rfl⟩ := ha
  rcases le_total r 0 with h | h
  · exact ⟨0, by rw [max_eq_right (by exact_mod_cast h)]; exact EReal.coe_zero.symm⟩
  · exact ⟨r, max_eq_left (by exact_mod_cast h)⟩

/-! ### The graph quantities of a finite signal -/

section Graph

variable {N Fi : ℕ} (x : Fin N → Fin Fi → EReal)

/-- A finite row's mean is finite: the real sum over the real 195. -/
theorem rowMean_real (hx : ∀ n f, ∃ r : ℝ, x n f = (r : EReal)) (n : Fin N) :
    ∃ r : ℝ, rowMean x n = (r : EReal) := by
  obtain ⟨s, hs⟩ := real_sum Finset.univ (fun f => hx n f)
  unfold rowMean
  rw [hs, w195_eq]
  exact ⟨s / 195, Cert.LibEReal.div_coe' s 195 (by norm_num)⟩

theorem centred_real (hx : ∀ n f, ∃ r : ℝ, x n f = (r : EReal)) (n : Fin N) (f : Fin Fi) :
    ∃ r : ℝ, centred x n f = (r : EReal) :=
  real_sub (hx n f) (rowMean_real x hx n)

theorem sumSq_real (hx : ∀ n f, ∃ r : ℝ, x n f = (r : EReal)) (n : Fin N) :
    ∃ r : ℝ, sumSq x n = (r : EReal) :=
  real_sum Finset.univ fun f => real_mul (centred_real x hx n f) (centred_real x hx n f)

/-- Every node is its own neighbour: with `s > 0` the row's sum of squares, the self-correlation is
    `s / (√s · √s) = 1`, and `1/2 < 1`. -/
theorem adj_self (hx : ∀ n f, ∃ r : ℝ, x n f = (r : EReal)) (hvar : ∀ n, 0 < sumSq x n) (n : Fin N) :
    adj x n n = 1 := by
  obtain ⟨s, hs⟩ := sumSq_real x hx n
  have hpos : 0 < s := by
    have h := hvar n
    rw [hs] at h
    exact_mod_cast h
  have hcov : cov x n n = sumSq x n := rfl
  unfold adj corr Cert.GraphSpec.norm
  rw [hcov, hs, Cert.LibEReal.sqrt_coe s hpos.le, ← EReal.coe_mul, Real.mul_self_sqrt hpos.le,
    Cert.LibEReal.div_coe' s s hpos.ne', div_self hpos.ne', whalf_eq, if_pos]
  exact_mod_cast (by norm_num : (1 / 2 : ℝ) < 1)

/-- Every adjacency entry is the real 0 or the real 1; in particular a nonnegative real. -/
theorem adj_real (j i : Fin N) : ∃ r : ℝ, 0 ≤ r ∧ adj x j i = (r : EReal) := by
  unfold adj
  split_ifs
  · exact ⟨1, zero_le_one, EReal.coe_one.symm⟩
  · exact ⟨0, le_rfl, EReal.coe_zero.symm⟩

/-- Every in-degree is a real number at least 1: a sum of nonnegative reals one of which (the node's own
    entry) is 1. -/
theorem deg_real (hx : ∀ n f, ∃ r : ℝ, x n f = (r : EReal)) (hvar : ∀ n, 0 < sumSq x n) (i : Fin N) :
    ∃ d : ℝ, 1 ≤ d ∧ deg x i = (d : EReal) := by
  choose a ha0 ha using fun j => adj_real x j i
  refine ⟨∑ j, a j, ?_, ?_⟩
  · have h1 : a i = 1 := by
      have h := adj_self x hx hvar i
      rw [ha i] at h
      exact_mod_cast h
    calc (1 : ℝ) = a i := h1.symm
      _ ≤ ∑ j, a j := Finset.single_le_sum (fun j _ => ha0 j) (Finset.mem_univ i)
  · unfold deg
    rw [← Cert.LibEReal.coe_sum]
    exact Finset.sum_congr rfl fun j _ => ha j

variable {K : ℕ}

/-- Against a finite table, normalising the adjacency column first and summing equals summing and then
    dividing: `Σ_j (a_j / d) · w_j = (Σ_j a_j · w_j) / d` for a real `d ≠ 0`; the common value is finite. -/
theorem agg_entry (hx : ∀ n f, ∃ r : ℝ, x n f = (r : EReal)) (hvar : ∀ n, 0 < sumSq x n)
    (v : Fin N → Fin K → EReal) (hv : ∀ j f, ∃ r : ℝ, v j f = (r : EReal)) (i : Fin N) (f : Fin K) :
    aggK x v i f = aggR x v i f ∧ ∃ r : ℝ, aggR x v i f = (r : EReal) := by
  choose a _ ha using fun j => adj_real x j i
  obtain ⟨d, hd1, hd⟩ := deg_real x hx hvar i
  choose w hw using fun j => hv j f
  have hd0 : d ≠ 0 := (lt_of_lt_of_le one_pos hd1).ne'
  have hK : aggK x v i f = ((∑ j, a j / d * w j : ℝ) : EReal) := by
    unfold aggK
    rw [← Cert.LibEReal.coe_sum]
    refine Finset.sum_congr rfl fun j _ => ?_
    rw [ha j, hd, hw j, Cert.LibEReal.div_coe' _ _ hd0, ← EReal.coe_mul]
  have hR : aggR x v i f = (((∑ j, a j * w j) / d : ℝ) : EReal) := by
    unfold aggR
    rw [hd, ← Cert.LibEReal.div_coe' _ _ hd0, ← Cert.LibEReal.coe_sum]
    congr 1
    refine Finset.sum_congr rfl fun j _ => ?_
    rw [ha j, hw j, ← EReal.coe_mul]
  refine ⟨?_, _, hR⟩
  rw [hK, hR, Finset.sum_div]
  congr 1
  exact Finset.sum_congr rfl fun j _ => by ring

theorem aggK_eq_aggR (hx : ∀ n f, ∃ r : ℝ, x n f = (r : EReal)) (hvar : ∀ n, 0 < sumSq x n)
    (v : Fin N → Fin K → EReal) (hv : ∀ j f, ∃ r : ℝ, v j f = (r : EReal)) :
    aggK x v = aggR x v :=
  funext fun i => funext fun f => (agg_entry x hx hvar v hv i f).1

theorem aggR_real (hx : ∀ n f, ∃ r : ℝ, x n f = (r : EReal)) (hvar : ∀ n, 0 < sumSq x n)
    (v : Fin N → Fin K → EReal) (hv : ∀ j f, ∃ r : ℝ, v j f = (r : EReal)) (i : Fin N) (f : Fin K) :
    ∃ r : ℝ, aggR x v i f = (r : EReal) :=
  (agg_entry x hx hvar v hv i f).2

end Graph

/-- A layer's affine part over finite tables, weights and bias is finite. -/
theorem lin_real {N K H : ℕ} {a v : Fin N → Fin K → EReal} {Wl Wr : Fin H → Fin K → EReal} {b : Fin H → EReal}
    (ha : ∀ n f, ∃ r : ℝ, a n f = (r : EReal)) (hv : ∀ n f, ∃ r : ℝ, v n f = (r : EReal))
    (hWl : ∀ h f, ∃ r : ℝ, Wl h f = (r : EReal)) (hWr : ∀ h f, ∃ r : ℝ, Wr h f = (r : EReal))
    (hb : ∀ h, ∃ r : ℝ, b h = (r : EReal)) (n : Fin N) (h : Fin H) :
    ∃ r : ℝ, lin a v Wl Wr b n h = (r : EReal) := by
  unfold lin
  exact real_add (real_add (real_sum _ fun f => real_mul (ha n f) (hWl h f)) (hb h))
    (real_sum _ fun f => real_mul (hv n f) (hWr h f))

section Sage

variable {N Fi H O : ℕ} (x : Fin N → Fin Fi → EReal)
  (W1l : Fin H → Fin Fi → EReal) (b1 : Fin H → EReal) (W1r : Fin H → Fin Fi → EReal)
  (W2l : Fin O → Fin H → EReal) (b2 : Fin O → EReal) (W2r : Fin O → Fin H → EReal)

/-- The two programs' graph layers agree.  The first layer's aggregates agree because the signal is finite; the
    hidden layer is then one finite table, so the second layer's aggregates agree as well, whatever the second
    layer's weights are. -/
theorem sageK_eq_sageR (hx : ∀ n f, ∃ r : ℝ, x n f = (r : EReal))
    (hW1l : ∀ h f, ∃ r : ℝ, W1l h f = (r : EReal)) (hb1 : ∀ h, ∃ r : ℝ, b1 h = (r : EReal))
    (hW1r : ∀ h f, ∃ r : ℝ, W1r h f = (r : EReal))
    (hvar : ∀ n, 0 < Cert.GraphSpec.sumSq x n) :
    Cert.GraphSpec.sageK x W1l b1 W1r W2l b2 W2r = Cert.GraphSpec.sageR x W1l b1 W1r W2l b2 W2r := by
  have h1 : aggK x x = aggR x x := aggK_eq_aggR x hx hvar x hx
  have hh : hidK x W1l b1 W1r = hidR x W1l b1 W1r := by
    funext n h
    unfold hidK hidR
    rw [h1]
  have hreal : ∀ n h, ∃ r : ℝ, hidR x W1l b1 W1r n h = (r : EReal) := fun n h =>
    real_max_zero (lin_real (aggR_real x hx hvar x hx) hx hW1l hW1r hb1 n h)
  funext n o
  unfold sageK sageR
  rw [hh, aggK_eq_aggR x hx hvar _ hreal]

end Sage

end Cert.GraphLaw

end
-- ==== Proof.PreFacts.lean ====
/-
  What the precondition says of the inputs, at the extended reals.

  The precondition is a conjunction: for each of the twenty-one inputs, every entry's absolute value is below +∞; and
  every row of the first input has a positive centred sum of squares. From the statement that the conjunction holds
  this file derives that every entry of the first four inputs is a real number, and that for every batch element and
  row the specification's centred sum of squares is positive.

  An entry whose absolute value is below +∞ is neither infinity, hence a real. The last conjunct's operations (a row
  sum, the division by 195, the subtraction of the mean, the product of the centred row with itself, a second row
  sum, a comparison with 0) are read at an index as the specification's rowMean, centred and sumSq.
-/
import proofs.«169563_j52381421142390_2_alg».proof.Proof.Spec
import proofs.«169563_j52381421142390_2_alg».proof.Pre_finite_inputs
import Idealize.ShloMosaic.Lib.ReduceAll
import Idealize.ShloMosaic.Lib.ValueLayout
import Idealize.ShloMosaic.PureOps.Ideal.Laws

noncomputable section

namespace Cert.PreFacts

open Cert.Pre_finite_inputs Cert.Pre_finite_inputs.Facts Idealize.ShloMosaic Idealize.ShloMosaic.ValueIdx

/-- The scalar shape has one index. -/
instance : Subsingleton S_.Idx := ⟨fun a b => funext fun d => d.elim0⟩

/-! ## Words -/

/-- The left factor of a conjunction of bits that is 1 is 1. -/
theorem andi_left {s : Shape} {a b : IVec s 1} {i : s.Idx} (h : andi a b i = 1#1) : a i = 1#1 :=
  (IntOp.andi_eq_one.1 h).1
/-- The right factor of a conjunction of bits that is 1 is 1. -/
theorem andi_right {s : Shape} {a b : IVec s 1} {i : s.Idx} (h : andi a b i = 1#1) : b i = 1#1 :=
  (IntOp.andi_eq_one.1 h).2

/-- The word 0x7F800000 is +∞. -/
theorem ofBits_inf : Ideal.ofBits .f32 0x7F800000#32 = ⊤ := by simp [Ideal.ofBits, Ideal.ieee]

/-- An extended real whose absolute value is below +∞ is a real. -/
theorem real_of_abs_lt (x : EReal)
    (h : FloatOps.cmpf (F := Ideal) (φ := .f32) .olt (FloatOps.hostAbsf x) (Ideal.ofBits .f32 0x7F800000#32) = 1#1) :
    ∃ r : ℝ, x = (r : EReal) := by
  rw [ofBits_inf] at h
  change Ideal.cmp .olt (max x (-x)) ⊤ = 1#1 at h
  induction x using EReal.rec with
  | bot => simp [Ideal.cmp] at h
  | top => simp [Ideal.cmp] at h
  | coe r => exact ⟨r, rfl⟩

/-- A comparison "greater than 0" that is 1 says the left side is positive. -/
theorem pos_of_ogt (x : EReal)
    (h : FloatOps.cmpf (F := Ideal) (φ := .f32) .ogt x (Ideal.ofBits .f32 0x00000000#32) = 1#1) : 0 < x := by
  rw [Ideal.ofBits_zero_f32] at h
  change Ideal.cmp .ogt x 0 = 1#1 at h
  by_contra hn
  simp [Ideal.cmp, hn] at h

section

variable [Cert.Pre_finite_inputs.Facts]

/-! ## The host operations of the last conjunct, read at coordinates -/

/-- The host's sum over the last axis of the first input's shape, read at (b, n): the initial value plus the sum of the
    entries (b, n, f) over f. -/
theorem hostSumLast_apply (x : FVec Ideal S4096x90x195 .f32) (init : S_.Idx → Ideal .f32) (b : Fin 4096) (n : Fin 90) :
    Host.reduceAdd x init reducesTo_S4096x90x195_S4096x90_d2 h_S_ (ix2 b n)
      = init (Shape.Idx.first h_S_) + ∑ f : Fin 195, x (ix3 b n f) := by
  simp only [Host.reduceAdd, Ideal.hostReduceAdd_def]
  rw [Ideal.hostReduceAdd_single reducesTo_S4096x90x195_S4096x90_d2 (by decide)]
  refine congrArg (_ + ·) (Finset.sum_congr rfl fun k _ => ?_)
  exact congrArg x (funext fun a => Fin.ext (by match a with | ⟨0, _⟩ => rfl | ⟨1, _⟩ => rfl | ⟨2, _⟩ => rfl))

/-- A [4096, 90] array broadcast to a column [4096, 90, 1] reads, at (b, n, u), the operand at (b, n). -/
theorem bcastCol_apply {α : Type} (y : S4096x90.Idx → α) (b : Fin 4096) (n : Fin 90) (u : Fin 1) :
    broadcastInDim S4096x90x1 ![0, 1] bcast_S4096x90_S4096x90x1_0_1 y (ix3 b n u) = y (ix2 b n) :=
  broadcastInDim_apply _ bcast_S4096x90_S4096x90x1_0_1 y (ix3 b n u) (ix2 b n) (fun a => match a with
    | ⟨0, _⟩ => by show b.val = if (4096 : Nat) = 1 then 0 else b.val; rw [if_neg (by decide)]
    | ⟨1, _⟩ => by show n.val = if (90 : Nat) = 1 then 0 else n.val; rw [if_neg (by decide)])

/-- A column [4096, 90, 1] broadcast along the rows [4096, 90, 195] reads, at (b, n, f), the operand at (b, n, 0). -/
theorem bcastRow_apply {α : Type} (y : S4096x90x1.Idx → α) (b : Fin 4096) (n : Fin 90) (f : Fin 195) :
    broadcastInDim S4096x90x195 ![0, 1, 2] bcast_S4096x90x1_S4096x90x195_0_1_2 y (ix3 b n f) = y (ix3 b n (0 : Fin 1)) :=
  broadcastInDim_apply _ bcast_S4096x90x1_S4096x90x195_0_1_2 y (ix3 b n f) (ix3 b n (0 : Fin 1)) (fun a => match a with
    | ⟨0, _⟩ => by show b.val = if (4096 : Nat) = 1 then 0 else b.val; rw [if_neg (by decide)]
    | ⟨1, _⟩ => by show n.val = if (90 : Nat) = 1 then 0 else n.val; rw [if_neg (by decide)]
    | ⟨2, _⟩ => by show 0 = if (1 : Nat) = 1 then 0 else f.val; rw [if_pos rfl])

/-! ## The last conjunct's arrays -/

section Row

variable (a0 : FVec Ideal S4096x90x195 .f32)

/-- Batch element b of the first input: 90 rows of 195 features. -/
abbrev row (b : Fin 4096) : Fin 90 → Fin 195 → EReal := fun n f => a0 (ix3 b n f)

/-- The rows' sums. -/
def rSum : FVec Ideal S4096x90 .f32 :=
  Host.reduceAdd a0 (constant S_ .f32 0x00000000#32) reducesTo_S4096x90x195_S4096x90_d2 h_S_
/-- The rows' means, as a column. -/
def rMean : FVec Ideal S4096x90x1 .f32 :=
  Host.divf (broadcastInDim S4096x90x1 ![0, 1] bcast_S4096x90_S4096x90x1_0_1 (rSum a0))
    (broadcastInDim S4096x90x1 ![] bcast_S_S4096x90x1 (constant S_ .f32 0x43430000#32))
/-- The centred rows. -/
def rCen : FVec Ideal S4096x90x195 .f32 :=
  subf a0 (broadcastInDim S4096x90x195 ![0, 1, 2] bcast_S4096x90x1_S4096x90x195_0_1_2 (rMean a0))
/-- The centred rows' sums of squares. -/
def rSq : FVec Ideal S4096x90 .f32 :=
  Host.reduceAdd (mulf (rCen a0) (rCen a0)) (constant S_ .f32 0x00000000#32) reducesTo_S4096x90x195_S4096x90_d2 h_S_
/-- The bit "the row's centred sum of squares is above 0". -/
def rPos : IVec S4096x90 1 :=
  cmpf .ogt (rSq a0) (broadcastInDim S4096x90 ![] bcast_S_S4096x90 (constant S_ .f32 0x00000000#32))

variable (b : Fin 4096) (n : Fin 90)

theorem rSum_apply : rSum a0 (ix2 b n) = ∑ f : Fin 195, a0 (ix3 b n f) := by
  unfold rSum
  rw [hostSumLast_apply]
  show Ideal.ofBits .f32 0x00000000#32 + _ = _
  rw [Ideal.ofBits_zero_f32, zero_add]

theorem rMean_apply (u : Fin 1) : rMean a0 (ix3 b n u) = Cert.GraphSpec.rowMean (row a0 b) n := by
  unfold rMean
  show Ideal.div (broadcastInDim S4096x90x1 ![0, 1] bcast_S4096x90_S4096x90x1_0_1 (rSum a0) (ix3 b n u))
    (Ideal.ofBits .f32 0x43430000#32) = _
  rw [bcastCol_apply, rSum_apply]
  rfl

theorem rCen_apply (f : Fin 195) : rCen a0 (ix3 b n f) = Cert.GraphSpec.centred (row a0 b) n f := by
  unfold rCen
  show a0 (ix3 b n f) - broadcastInDim S4096x90x195 ![0, 1, 2] bcast_S4096x90x1_S4096x90x195_0_1_2 (rMean a0) (ix3 b n f) = _
  rw [bcastRow_apply, rMean_apply]
  rfl

theorem rSq_apply : rSq a0 (ix2 b n) = Cert.GraphSpec.sumSq (row a0 b) n := by
  unfold rSq
  rw [hostSumLast_apply]
  show Ideal.ofBits .f32 0x00000000#32 + _ = _
  rw [Ideal.ofBits_zero_f32, zero_add]
  unfold Cert.GraphSpec.sumSq
  refine Finset.sum_congr rfl fun f _ => ?_
  show rCen a0 (ix3 b n f) * rCen a0 (ix3 b n f) = _
  rw [rCen_apply]

/-- Where the bit is 1 the specification's centred sum of squares of the row is positive. -/
theorem sumSq_pos_of_rPos (h : rPos a0 (ix2 b n) = 1#1) : 0 < Cert.GraphSpec.sumSq (row a0 b) n := by
  rw [← rSq_apply]
  exact pos_of_ogt _ h

end Row

/-! ## The conjunction, part by part: where a part's result is 1, so is the conjunction it was handed, and so is every
row's bit -/

theorem part7_one (v103 : IVec S_ 1) (v119 : IVec S4096x90 1)
    (e : fn_part7 (F := Ideal) v103 v119 ix0 = 1#1) : v103 ix0 = 1#1 ∧ ∀ i, v119 i = 1#1 := by
  unfold fn_part7 at e
  dsimp only at e
  exact ⟨andi_left e, Host.reduce_andi_all _ _ _ _ _ (andi_right e)⟩

theorem part6_one (a0 : FVec Ideal S4096x90x195 .f32) (v98 : IVec S_ 1) (v101 : IVec S2 1) (c39 : IVec S_ 1)
    (e : fn_part6 (F := Ideal) a0 v98 v101 c39 ix0 = 1#1) : v98 ix0 = 1#1 ∧ ∀ i, rPos a0 i = 1#1 := by
  have e' : fn_part7 (F := Ideal) (andi v98 (Host.reduce IntOp.andi v101 c39 reducesTo_S2_S_d0 h_S_)) (rPos a0) ix0 = 1#1 := e
  obtain ⟨h1, h2⟩ := part7_one _ _ e'
  exact ⟨andi_left h1, h2⟩

theorem part5_one (a0 : FVec Ideal S4096x90x195 .f32) (a18 : FVec Ideal S256 .f32) (a19 : FVec Ideal S2x256 .f32)
    (a20 : FVec Ideal S2 .f32) (v83 : IVec S_ 1) (v84 : FVec Ideal S256 .f32) (cst32 : FVec Ideal S_ .f32)
    (e : fn_part5 (F := Ideal) a0 a18 a19 a20 v83 v84 cst32 ix0 = 1#1) : v83 ix0 = 1#1 ∧ ∀ i, rPos a0 i = 1#1 := by
  unfold fn_part5 at e
  dsimp only at e
  obtain ⟨h1, h2⟩ := part6_one _ _ _ _ e
  exact ⟨andi_left (andi_left (andi_left (h1))), h2⟩

theorem part4_one (a0 : FVec Ideal S4096x90x195 .f32) (a14 : FVec Ideal S256 .f32) (a15 : FVec Ideal S256 .f32)
    (a16 : FVec Ideal S256 .f32) (a17 : FVec Ideal S256 .f32) (a18 : FVec Ideal S256 .f32)
    (a19 : FVec Ideal S2x256 .f32) (a20 : FVec Ideal S2 .f32) (v63 : IVec S_ 1) (v67 : IVec S_ 1)
    (e : fn_part4 (F := Ideal) a0 a14 a15 a16 a17 a18 a19 a20 v63 v67 ix0 = 1#1) :
    v63 ix0 = 1#1 ∧ ∀ i, rPos a0 i = 1#1 := by
  unfold fn_part4 at e
  dsimp only at e
  obtain ⟨h1, h2⟩ := part5_one _ _ _ _ _ _ _ e
  exact ⟨andi_left (andi_left (andi_left (andi_left (h1)))), h2⟩

theorem part3_one (a0 : FVec Ideal S4096x90x195 .f32) (a11 : FVec Ideal S512 .f32) (a12 : FVec Ideal S512 .f32)
    (a13 : FVec Ideal S256x512 .f32) (a14 : FVec Ideal S256 .f32) (a15 : FVec Ideal S256 .f32)
    (a16 : FVec Ideal S256 .f32) (a17 : FVec Ideal S256 .f32) (a18 : FVec Ideal S256 .f32)
    (a19 : FVec Ideal S2x256 .f32) (a20 : FVec Ideal S2 .f32) (v48 : IVec S_ 1) (v49 : FVec Ideal S512 .f32)
    (v50 : FVec Ideal S512 .f32)
    (e : fn_part3 (F := Ideal) a0 a11 a12 a13 a14 a15 a16 a17 a18 a19 a20 v48 v49 v50 ix0 = 1#1) :
    v48 ix0 = 1#1 ∧ ∀ i, rPos a0 i = 1#1 := by
  unfold fn_part3 at e
  dsimp only at e
  obtain ⟨h1, h2⟩ := part4_one _ _ _ _ _ _ _ _ _ _ e
  exact ⟨andi_left (andi_left (andi_left (h1))), h2⟩

theorem part2_one (a0 : FVec Ideal S4096x90x195 .f32) (a7 : FVec Ideal S512x5760 .f32) (a8 : FVec Ideal S512 .f32)
    (a9 : FVec Ideal S512 .f32) (a10 : FVec Ideal S512 .f32) (a11 : FVec Ideal S512 .f32) (a12 : FVec Ideal S512 .f32)
    (a13 : FVec Ideal S256x512 .f32) (a14 : FVec Ideal S256 .f32) (a15 : FVec Ideal S256 .f32)
    (a16 : FVec Ideal S256 .f32) (a17 : FVec Ideal S256 .f32) (a18 : FVec Ideal S256 .f32)
    (a19 : FVec Ideal S2x256 .f32) (a20 : FVec Ideal S2 .f32) (v33 : IVec S_ 1)
    (e : fn_part2 (F := Ideal) a0 a7 a8 a9 a10 a11 a12 a13 a14 a15 a16 a17 a18 a19 a20 v33 ix0 = 1#1) :
    v33 ix0 = 1#1 ∧ ∀ i, rPos a0 i = 1#1 := by
  unfold fn_part2 at e
  dsimp only at e
  obtain ⟨h1, h2⟩ := part3_one _ _ _ _ _ _ _ _ _ _ _ _ _ _ e
  exact ⟨andi_left (andi_left (andi_left (h1))), h2⟩

theorem part1_one (a0 : FVec Ideal S4096x90x195 .f32) (a4 : FVec Ideal S64x128 .f32) (a5 : FVec Ideal S64 .f32)
    (a6 : FVec Ideal S64x128 .f32) (a7 : FVec Ideal S512x5760 .f32) (a8 : FVec Ideal S512 .f32)
    (a9 : FVec Ideal S512 .f32) (a10 : FVec Ideal S512 .f32) (a11 : FVec Ideal S512 .f32) (a12 : FVec Ideal S512 .f32)
    (a13 : FVec Ideal S256x512 .f32) (a14 : FVec Ideal S256 .f32) (a15 : FVec Ideal S256 .f32)
    (a16 : FVec Ideal S256 .f32) (a17 : FVec Ideal S256 .f32) (a18 : FVec Ideal S256 .f32)
    (a19 : FVec Ideal S2x256 .f32) (a20 : FVec Ideal S2 .f32) (v13 : IVec S_ 1) (v16 : IVec S128x195 1)
    (e : fn_part1 (F := Ideal) a0 a4 a5 a6 a7 a8 a9 a10 a11 a12 a13 a14 a15 a16 a17 a18 a19 a20 v13 v16 ix0 = 1#1) :
    v13 ix0 = 1#1 ∧ (∀ i, v16 i = 1#1) ∧ ∀ i, rPos a0 i = 1#1 := by
  unfold fn_part1 at e
  dsimp only at e
  obtain ⟨h1, h2⟩ := part2_one _ _ _ _ _ _ _ _ _ _ _ _ _ _ _ _ e
  have h18 := andi_left (andi_left (andi_left h1))
  exact ⟨andi_left h18, Host.reduce_andi_all _ _ _ _ _ (andi_right h18), h2⟩

/-- Where the whole conjunction is 1: every entry of the first four inputs has its absolute value below +∞, and every
    row's bit is 1. -/
theorem fn_one (a0 : FVec Ideal S4096x90x195 .f32) (a1 : FVec Ideal S128x195 .f32) (a2 : FVec Ideal S128 .f32)
    (a3 : FVec Ideal S128x195 .f32) (a4 : FVec Ideal S64x128 .f32) (a5 : FVec Ideal S64 .f32)
    (a6 : FVec Ideal S64x128 .f32) (a7 : FVec Ideal S512x5760 .f32) (a8 : FVec Ideal S512 .f32)
    (a9 : FVec Ideal S512 .f32) (a10 : FVec Ideal S512 .f32) (a11 : FVec Ideal S512 .f32) (a12 : FVec Ideal S512 .f32)
    (a13 : FVec Ideal S256x512 .f32) (a14 : FVec Ideal S256 .f32) (a15 : FVec Ideal S256 .f32)
    (a16 : FVec Ideal S256 .f32) (a17 : FVec Ideal S256 .f32) (a18 : FVec Ideal S256 .f32)
    (a19 : FVec Ideal S2x256 .f32) (a20 : FVec Ideal S2 .f32)
    (e : fn (F := Ideal) a0 a1 a2 a3 a4 a5 a6 a7 a8 a9 a10 a11 a12 a13 a14 a15 a16 a17 a18 a19 a20 ix0 = 1#1) :
    (∀ i, FloatOps.cmpf (F := Ideal) (φ := .f32) .olt (FloatOps.hostAbsf (a0 i)) (Ideal.ofBits .f32 0x7F800000#32) = 1#1)
      ∧ (∀ i, FloatOps.cmpf (F := Ideal) (φ := .f32) .olt (FloatOps.hostAbsf (a1 i)) (Ideal.ofBits .f32 0x7F800000#32) = 1#1)
      ∧ (∀ i, FloatOps.cmpf (F := Ideal) (φ := .f32) .olt (FloatOps.hostAbsf (a2 i)) (Ideal.ofBits .f32 0x7F800000#32) = 1#1)
      ∧ (∀ i, FloatOps.cmpf (F := Ideal) (φ := .f32) .olt (FloatOps.hostAbsf (a3 i)) (Ideal.ofBits .f32 0x7F800000#32) = 1#1)
      ∧ ∀ i, rPos a0 i = 1#1 := by
  unfold fn at e
  dsimp only at e
  obtain ⟨h13, h16, hp⟩ := part1_one _ _ _ _ _ _ _ _ _ _ _ _ _ _ _ _ _ _ _ _ e
  have h8 := andi_left h13
  exact ⟨fun i => Host.reduce_andi_all _ _ _ _ _ (andi_left h8) i, fun i => Host.reduce_andi_all _ _ _ _ _ (andi_right h8) i,
    fun i => Host.reduce_andi_all _ _ _ _ _ (andi_right h13) i, h16, hp⟩

end

/-- WHAT THE PRECONDITION GIVES: every entry of the first four inputs is a real number, and every row of every batch
    element of the first input has a positive centred sum of squares. -/
theorem facts [Cert.Pre_finite_inputs.Facts] (a0 : FVec Ideal S4096x90x195 .f32) (a1 : FVec Ideal S128x195 .f32)
    (a2 : FVec Ideal S128 .f32) (a3 : FVec Ideal S128x195 .f32) (a4 : FVec Ideal S64x128 .f32)
    (a5 : FVec Ideal S64 .f32) (a6 : FVec Ideal S64x128 .f32) (a7 : FVec Ideal S512x5760 .f32)
    (a8 : FVec Ideal S512 .f32) (a9 : FVec Ideal S512 .f32) (a10 : FVec Ideal S512 .f32) (a11 : FVec Ideal S512 .f32)
    (a12 : FVec Ideal S512 .f32) (a13 : FVec Ideal S256x512 .f32) (a14 : FVec Ideal S256 .f32)
    (a15 : FVec Ideal S256 .f32) (a16 : FVec Ideal S256 .f32) (a17 : FVec Ideal S256 .f32)
    (a18 : FVec Ideal S256 .f32) (a19 : FVec Ideal S2x256 .f32) (a20 : FVec Ideal S2 .f32)
    (h : Cert.Pre_finite_inputs.fn (F := Ideal) a0 a1 a2 a3 a4 a5 a6 a7 a8 a9 a10 a11 a12 a13 a14 a15 a16 a17 a18 a19 a20
      = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal))
      ∧ ∀ (b : Fin 4096) (n : Fin 90), 0 < Cert.GraphSpec.sumSq (fun n f => a0 (ix3 b n f)) n := by
  obtain ⟨h0, h1, h2, h3, hp⟩ :=
    fn_one a0 a1 a2 a3 a4 a5 a6 a7 a8 a9 a10 a11 a12 a13 a14 a15 a16 a17 a18 a19 a20 (congrFun h ix0)
  exact ⟨fun i => real_of_abs_lt _ (h0 i), fun i => real_of_abs_lt _ (h1 i), fun i => real_of_abs_lt _ (h2 i),
    fun i => real_of_abs_lt _ (h3 i), fun b n => sumSq_pos_of_rPos a0 b n (hp (ix2 b n))⟩

end Cert.PreFacts

end
-- ==== Proof.KAdj.lean ====
/-
  The first kernel's normalised adjacency, read at an index.

  For one batch element x (90 rows of 195 features) the block computed from the loaded rows is, entry (i, j), the
  adjacency's entry (j, i) divided by the in-degree of i: rows are centred by their mean, the centred rows' Gram
  matrix is divided by the outer product of the rows' lengths, the quotient is compared with 1/2, the resulting 0/1
  matrix is transposed, and each row of the transpose is divided by its sum.

  The file first reads each operation that is not elementwise at an index given by coordinates (a sum over the
  last axis of a rank-3 array, the unit-axis shape casts and broadcasts, the batched contraction of two
  [32, 90, 195] operands over their last axes), then names the intermediate arrays and reads each one at an index as
  the quantity of the specification it computes.
-/
import proofs.«169563_j52381421142390_2_alg».proof.Proof.Spec
import proofs.«169563_j52381421142390_2_alg».proof.Proof.Gen.KernelIdeal.Skeleton
import Idealize.ShloMosaic.Lib.ValueLayout
import Idealize.ShloMosaic.PureOps.Ideal.Laws

noncomputable section

namespace Cert.KAdj

open Cert.KernelIdeal Cert.KernelIdeal.Gen Idealize.ShloMosaic Idealize.ShloMosaic.ValueIdx

/-! ## Operations that are not elementwise, read at coordinates -/

section Layout
variable {α : Type}

/-- A sum over the last axis of a rank-3 array, read at (p, q): the sum of the entries (p, q, k) over k. -/
theorem sumLast3_apply {a b c : ℕ} {φ : FTy} (src : FVec Ideal ⟨3, ![a, b, c]⟩ φ) (acc : BitVec φ.bits)
    (h : Shape.Reduces ⟨3, ![a, b, c]⟩ [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src ?_
  funext d
  match d with
  | ⟨0, _⟩ => rfl
  | ⟨1, _⟩ => rfl
  | ⟨2, _⟩ => rfl

/-- An [a, b] array cast to [a, b, 1] reads, at (p, q, u), the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b] array cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A column array [a, b, 1] broadcast to [a, b, c] reads, at (p, q, k), the operand at (p, q, 0). -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else k.val
    rw [if_pos rfl]

/-- A row array [a, 1, b] broadcast to [a, n, b] reads, at (p, r, q), the operand at (p, 0, q). -/
theorem broadcastTo_a1b_anb_apply {a n b : ℕ} (x : (⟨3, ![a, 1, b]⟩ : Shape).Idx → α)
    (h : (⟨3, ![a, 1, b]⟩ : Shape).Broadcasts ⟨3, ![a, n, b]⟩) (p : Fin a) (r : Fin n) (q : Fin b) :
    broadcastTo ⟨3, ![a, n, b]⟩ x h (ix3 p r q) = x (ix3 p (0 : Fin 1) q) := by
  refine broadcastTo_apply x h (ix3 p r q) (ix3 p (0 : Fin 1) q) fun ax => ?_
  match ax with
  | ⟨0, _⟩ =>
    show p.val = if a = 1 then 0 else p.val
    split
    · have := p.isLt; omega
    · rfl
  | ⟨1, _⟩ =>
    show 0 = if (1 : ℕ) = 1 then 0 else r.val
    rw [if_pos rfl]
  | ⟨2, _⟩ =>
    show q.val = if b = 1 then 0 else q.val
    split
    · have := q.isLt; omega
    · rfl

end Layout

/-! ## The batched contraction of two [32, 90, 195] operands over their last axes -/

section Gram

/-- The contraction's dimension numbers: batch axis 0, free axis 1 of each operand, contracting axis 2 of both. -/
abbrev gramDims : DotDims S32x90x195 S32x90x195 S32x90x90 := dot_S32x90x195_S32x90x195_S32x90x90_2_2_1_1_0_0

theorem gram_lhs_0 (i : S32x90x90.Idx) (q : gramDims.contr.Idx) : (gramDims.lhsIdx i q 0).val = (i 0).val := by
  unfold DotDims.lhsIdx
  rw [dif_pos (show (0 : Fin S32x90x195.rank) ∈ gramDims.lhsBatch by decide)]
  rfl
theorem gram_lhs_1 (i : S32x90x90.Idx) (q : gramDims.contr.Idx) : (gramDims.lhsIdx i q 1).val = (i 1).val := by
  unfold DotDims.lhsIdx
  rw [dif_neg (show ¬(1 : Fin S32x90x195.rank) ∈ gramDims.lhsBatch by decide),
    dif_pos (show (1 : Fin S32x90x195.rank) ∈ gramDims.lhsNonContracting by decide)]
  rfl
theorem gram_lhs_2 (i : S32x90x90.Idx) (q : gramDims.contr.Idx) :
    (gramDims.lhsIdx i q 2).val = (q ⟨0, by decide⟩).val :=
  gramDims.lhsIdx_val_of_single rfl i q
theorem gram_rhs_0 (i : S32x90x90.Idx) (q : gramDims.contr.Idx) : (gramDims.rhsIdx i q 0).val = (i 0).val := by
  unfold DotDims.rhsIdx
  rw [dif_pos (show (0 : Fin S32x90x195.rank) ∈ gramDims.rhsBatch by decide)]
  rfl
theorem gram_rhs_1 (i : S32x90x90.Idx) (q : gramDims.contr.Idx) : (gramDims.rhsIdx i q 1).val = (i 2).val := by
  unfold DotDims.rhsIdx
  rw [dif_neg (show ¬(1 : Fin S32x90x195.rank) ∈ gramDims.rhsBatch by decide),
    dif_pos (show (1 : Fin S32x90x195.rank) ∈ gramDims.rhsNonContracting by decide)]
  rfl
theorem gram_rhs_2 (i : S32x90x90.Idx) (q : gramDims.contr.Idx) :
    (gramDims.rhsIdx i q 2).val = (q ⟨0, by decide⟩).val :=
  gramDims.rhsIdx_val_of_single rfl i q

/-- The contraction into the zero accumulator, read at (bb, i, j): the sum over k of the products of the left
    operand's entry (bb, i, k) and the right operand's entry (bb, j, k). -/
theorem gram_apply {φ₁ φ₂ : FTy} (l : FVec Ideal S32x90x195 φ₁) (r : FVec Ideal S32x90x195 φ₂)
    (bb : Fin 32) (i j : Fin 90) :
    matmul gramDims none l r (constant S32x90x90 .f32 0x00000000#32) (ix3 bb i j)
      = ∑ k : Fin 195, l (ix3 bb i k) * r (ix3 bb j k) := by
  simp only [matmul]
  rw [Ideal.matmul_constant_zero_apply, ← Equiv.sum_comp (contrEquiv1 gramDims 195 rfl rfl).symm]
  refine Finset.sum_congr rfl fun k _ => ?_
  have hk := contrEquiv1_symm_val gramDims 195 rfl rfl k
  have el : gramDims.lhsIdx (ix3 bb i j) ((contrEquiv1 gramDims 195 rfl rfl).symm k) = ix3 bb i k :=
    funext fun a => Fin.ext (by
      match a with
      | ⟨0, _⟩ => exact gram_lhs_0 _ _
      | ⟨1, _⟩ => exact gram_lhs_1 _ _
      | ⟨2, _⟩ => exact (gram_lhs_2 _ _).trans hk)
  have er : gramDims.rhsIdx (ix3 bb i j) ((contrEquiv1 gramDims 195 rfl rfl).symm k) = ix3 bb j k :=
    funext fun a => Fin.ext (by
      match a with
      | ⟨0, _⟩ => exact gram_rhs_0 _ _
      | ⟨1, _⟩ => exact gram_rhs_1 _ _
      | ⟨2, _⟩ => exact (gram_rhs_2 _ _).trans hk)
  rw [el, er]

end Gram

/-! ## The comparison's bit as a number -/

/-- A comparison "greater than" of extended reals, its one bit widened to 32 bits and read as a signed integer, is 1
    where the comparison holds and 0 where it does not. -/
theorem bit_ogt (x y : EReal) :
    (FloatOps.sitofp .f32 ((FloatOps.cmpf (F := Ideal) (φ := .f32) .ogt x y).setWidth 32) : Ideal .f32)
      = if y < x then 1 else 0 := by
  show ((((Ideal.cmp .ogt x y).setWidth 32).toInt : ℝ) : EReal) = _
  by_cases h : y < x
  · have hc : Ideal.cmp .ogt x y = 1#1 := by simp [Ideal.cmp, h]
    have ht : ((1#1 : BitVec 1).setWidth 32).toInt = 1 := by decide
    rw [hc, ht, if_pos h]; simp
  · have hc : Ideal.cmp .ogt x y = 0#1 := by simp [Ideal.cmp, h]
    have ht : ((0#1 : BitVec 1).setWidth 32).toInt = 0 := by decide
    rw [hc, ht, if_neg h]; simp

/-! ## The intermediate arrays of the block, each read at an index as the specification's quantity -/

section Arrays

variable (x0 : Vec Ideal S32x90x195 .f32)

/-- Batch element bb of the loaded block: 90 rows of 195 features. -/
abbrev sig (bb : Fin 32) : Fin 90 → Fin 195 → EReal := fun n f => x0 (ix3 bb n f)

/-- The rows' sums. -/
def aSum : FVec Ideal S32x90 .f32 :=
  multiReduction .add [2] S32x90 x0 0x00000000#32 reduces_S32x90x195_S32x90 (.inl rfl) rfl
/-- The rows' means, as a column. -/
def aMean : FVec Ideal S32x90x1 .f32 :=
  divf (shapeCast S32x90x1 (aSum x0) shapeCasts_S32x90_S32x90x1) (broadcast S32x90x1 (Scalar.ofBits .f32 0x43430000#32))
/-- The centred rows. -/
def aCen : FVec Ideal S32x90x195 .f32 :=
  subf x0 (broadcastTo S32x90x195 (aMean x0) broadcasts_S32x90x1_S32x90x195)
/-- The centred rows' Gram matrix. -/
def aGram : FVec Ideal S32x90x90 .f32 :=
  matmul dot_S32x90x195_S32x90x195_S32x90x90_2_2_1_1_0_0 none (truncf .bf16 (aCen x0) bitsLt_bf16_f32)
    (truncf .bf16 (aCen x0) bitsLt_bf16_f32) (constant S32x90x90 .f32 0x00000000#32)
/-- The centred rows' sums of squares. -/
def aSq : FVec Ideal S32x90 .f32 :=
  multiReduction .add [2] S32x90 (mulf (aCen x0) (aCen x0)) 0x00000000#32 reduces_S32x90x195_S32x90 (.inl rfl) rfl
/-- The rows' lengths, constant along each row of the matrix. -/
def aNormCol : FVec Ideal S32x90x90 .f32 :=
  broadcastTo S32x90x90 (sqrt (shapeCast S32x90x1 (aSq x0) shapeCasts_S32x90_S32x90x1)) broadcasts_S32x90x1_S32x90x90
/-- The rows' lengths, constant along each column of the matrix. -/
def aNormRow : FVec Ideal S32x90x90 .f32 :=
  broadcastTo S32x90x90 (shapeCast S32x1x90 (sqrt (aSq x0)) shapeCasts_S32x90_S32x1x90) broadcasts_S32x1x90_S32x90x90
/-- The correlation matrix. -/
def aCorr : FVec Ideal S32x90x90 .f32 :=
  divf (aGram x0) (mulf (aNormCol x0) (aNormRow x0))
/-- The adjacency: the comparison with 1/2, as a number. -/
def aAdj : FVec Ideal S32x90x90 .f32 :=
  sitofp .f32 (extui 32 (cmpf .ogt (aCorr x0) (broadcast S32x90x90 (Scalar.ofBits .f32 0x3F000000#32))) natLt_1_32)
/-- The adjacency transposed. -/
def aAdjT : FVec Ideal S32x90x90 .f32 :=
  transpose S32x90x90 [0, 2, 1] (aAdj x0) transposes_S32x90x90_p0_2_1_S32x90x90
/-- The in-degrees: the transposed adjacency's row sums. -/
def aDeg : FVec Ideal S32x90 .f32 :=
  multiReduction .add [2] S32x90 (aAdjT x0) 0x00000000#32 reduces_S32x90x90_S32x90 (.inl rfl) rfl
/-- The transposed adjacency with each row divided by its sum. -/
def aOut : FVec Ideal S32x90x90 .bf16 :=
  truncf .bf16 (divf (aAdjT x0) (broadcastTo S32x90x90 (shapeCast S32x90x1 (aDeg x0) shapeCasts_S32x90_S32x90x1)
    broadcasts_S32x90x1_S32x90x90)) bitsLt_bf16_f32

/-- The block the kernel computes is the last of these arrays. -/
theorem pay2_eq : k0_pay2 (F := Ideal) x0 = aOut x0 := rfl

variable (bb : Fin 32)

theorem aSum_apply (n : Fin 90) : aSum x0 (ix2 bb n) = ∑ f : Fin 195, x0 (ix3 bb n f) := by
  unfold aSum
  exact sumLast3_apply (φ := .f32) x0 _ _ _ _ bb n

theorem aMean_apply (n : Fin 90) (u : Fin 1) : aMean x0 (ix3 bb n u) = Cert.GraphSpec.rowMean (sig x0 bb) n := by
  unfold aMean
  show Ideal.div (shapeCast S32x90x1 (aSum x0) shapeCasts_S32x90_S32x90x1 (ix3 bb n u)) (Ideal.ofBits .f32 0x43430000#32) = _
  rw [shapeCast_ab_ab1_apply, aSum_apply]
  rfl

theorem aCen_apply (n : Fin 90) (f : Fin 195) : aCen x0 (ix3 bb n f) = Cert.GraphSpec.centred (sig x0 bb) n f := by
  unfold aCen
  show x0 (ix3 bb n f) - broadcastTo S32x90x195 (aMean x0) broadcasts_S32x90x1_S32x90x195 (ix3 bb n f) = _
  rw [broadcastTo_ab1_abc_apply, aMean_apply]
  rfl

theorem aGram_apply (i j : Fin 90) : aGram x0 (ix3 bb i j) = Cert.GraphSpec.cov (sig x0 bb) i j := by
  unfold aGram
  refine (gram_apply _ _ bb i j).trans ?_
  unfold Cert.GraphSpec.cov
  refine Finset.sum_congr rfl fun k _ => ?_
  show aCen x0 (ix3 bb i k) * aCen x0 (ix3 bb j k) = _
  rw [aCen_apply, aCen_apply]

theorem aSq_apply (n : Fin 90) : aSq x0 (ix2 bb n) = Cert.GraphSpec.sumSq (sig x0 bb) n := by
  unfold aSq
  refine (sumLast3_apply (φ := .f32) (mulf (aCen x0) (aCen x0)) _ _ _ _ bb n).trans ?_
  unfold Cert.GraphSpec.sumSq
  refine Finset.sum_congr rfl fun k _ => ?_
  show aCen x0 (ix3 bb n k) * aCen x0 (ix3 bb n k) = _
  rw [aCen_apply]

theorem aNormCol_apply (i j : Fin 90) : aNormCol x0 (ix3 bb i j) = Cert.GraphSpec.norm (sig x0 bb) i := by
  unfold aNormCol
  rw [broadcastTo_ab1_abc_apply]
  show Ideal.sqrt (shapeCast S32x90x1 (aSq x0) shapeCasts_S32x90_S32x90x1 (ix3 bb i (0 : Fin 1))) = _
  rw [shapeCast_ab_ab1_apply, aSq_apply]
  rfl

theorem aNormRow_apply (i j : Fin 90) : aNormRow x0 (ix3 bb i j) = Cert.GraphSpec.norm (sig x0 bb) j := by
  unfold aNormRow
  rw [broadcastTo_a1b_anb_apply, shapeCast_ab_a1b_apply]
  show Ideal.sqrt (aSq x0 (ix2 bb j)) = _
  rw [aSq_apply]
  rfl

theorem aCorr_apply (i j : Fin 90) : aCorr x0 (ix3 bb i j) = Cert.GraphSpec.corr (sig x0 bb) i j := by
  unfold aCorr
  show Ideal.div (aGram x0 (ix3 bb i j)) (aNormCol x0 (ix3 bb i j) * aNormRow x0 (ix3 bb i j)) = _
  rw [aGram_apply, aNormCol_apply, aNormRow_apply]
  rfl

theorem aAdj_apply (i j : Fin 90) : aAdj x0 (ix3 bb i j) = Cert.GraphSpec.adj (sig x0 bb) i j := by
  unfold aAdj
  show (FloatOps.sitofp .f32 ((FloatOps.cmpf (F := Ideal) (φ := .f32) .ogt (aCorr x0 (ix3 bb i j))
    (Ideal.ofBits .f32 0x3F000000#32)).setWidth 32) : Ideal .f32) = _
  rw [bit_ogt, aCorr_apply]
  rfl

theorem aAdjT_apply (i j : Fin 90) : aAdjT x0 (ix3 bb i j) = Cert.GraphSpec.adj (sig x0 bb) j i := by
  unfold aAdjT
  rw [transpose_ix3_021_apply, aAdj_apply]

theorem aDeg_apply (i : Fin 90) : aDeg x0 (ix2 bb i) = Cert.GraphSpec.deg (sig x0 bb) i := by
  unfold aDeg
  refine (sumLast3_apply (φ := .f32) (aAdjT x0) _ _ _ _ bb i).trans ?_
  unfold Cert.GraphSpec.deg
  exact Finset.sum_congr rfl fun k _ => aAdjT_apply x0 bb i k

end Arrays

/-- THE BLOCK AT AN INDEX: entry (bb, i, j) is the adjacency's entry (j, i) of batch element bb divided by the
    in-degree of i. -/
theorem pay2_apply (x0 : Vec Ideal S32x90x195 .f32) (bb : Fin 32) (i j : Fin 90) :
    k0_pay2 (F := Ideal) x0 (ix3 bb i j)
      = Ideal.div (Cert.GraphSpec.adj (fun n f => x0 (ix3 bb n f)) j i) (Cert.GraphSpec.deg (fun n f => x0 (ix3 bb n f)) i) := by
  rw [pay2_eq]
  unfold aOut
  show Ideal.div (aAdjT x0 (ix3 bb i j)) (broadcastTo S32x90x90 (shapeCast S32x90x1 (aDeg x0) shapeCasts_S32x90_S32x90x1)
    broadcasts_S32x90x1_S32x90x90 (ix3 bb i j)) = _
  rw [broadcastTo_ab1_abc_apply, shapeCast_ab_ab1_apply, aAdjT_apply, aDeg_apply]

end Cert.KAdj

end
-- ==== Proof.KSage.lean ====
/-
  The first kernel's two graph layers, read at an index, given its normalised adjacency.

  With A the normalised adjacency of a block of 32 graphs (entry (i, j): the adjacency's (j, i) over the in-degree
  of i) the kernel forms A · x per graph, folds the 32 × 90 node rows into 2880 rows for the two linear layers
  (a product with a transposed weight matrix each), adds the bias between them, rectifies, and repeats with the hidden
  layer in x's place.  Each form that is not elementwise — the batched product, the fold of the leading axes and its
  inverse, the product with a transposed matrix, the bias laid out along the last axis — is read at coordinates;
  the stored value at (bb, n, o) then unfolds to the specification's two layers of graph bb at node n, output o.
-/
import proofs.«169563_j52381421142390_2_alg».proof.Proof.Spec
import proofs.«169563_j52381421142390_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KSage

open Cert.KernelIdeal Cert.KernelIdeal.Gen Idealize.ShloMosaic Idealize.ShloMosaic.ValueIdx

/-! ## A one-axis contraction into the zero accumulator is a finite sum -/

/-- A matrix product whose dimension numbers contract ONE axis of extent `K`, accumulated into the zero splat and read
    at `j`: the sum over `k < K` of the left operand at `L k` times the right at `R k`, where `L k`, `R k` are the
    operand indices the dimension numbers assign to the contraction coordinate `k`. -/
theorem matmul_zero_sum {sl sr so : Shape} {φ₁ φ₂ : FTy} (D : DotDims sl sr so) (K : ℕ)
    (hr : D.contr.rank = 1) (hs : D.contr.size ⟨0, by omega⟩ = K)
    (lhs : FVec Ideal sl φ₁) (rhs : FVec Ideal sr φ₂) (j : so.Idx)
    (L : Fin K → sl.Idx) (R : Fin K → sr.Idx)
    (hL : ∀ (q : D.contr.Idx) (k : Fin K), (q ⟨0, by omega⟩).val = k.val → D.lhsIdx j q = L k)
    (hR : ∀ (q : D.contr.Idx) (k : Fin K), (q ⟨0, by omega⟩).val = k.val → D.rhsIdx j q = R k) :
    FloatOps.matmul D none lhs rhs (constant (F := Ideal) so .f32 0x00000000#32) j = ∑ k : Fin K, lhs (L k) * rhs (R k) := by
  rw [Ideal.matmul_constant_zero_apply, ← Equiv.sum_comp (contrEquiv1 D K hr hs).symm]
  refine Finset.sum_congr rfl fun k _ => ?_
  have hk := contrEquiv1_symm_val D K hr hs k
  rw [hL _ k hk, hR _ k hk]

/-! ## The four products of the two graph layers, at coordinates -/

/-- The batched product [32,90,90] × [32,90,195] (batch axis 0, the left operand's last axis against the right's
    middle one) at (b, i, f): Σ_j A(b,i,j) · V(b,j,f). -/
theorem bmm195_apply (A : FVec Ideal S32x90x90 .bf16) (V : FVec Ideal S32x90x195 .bf16) (bb : Fin 32) (i : Fin 90) (f : Fin 195) :
    matmul dot_S32x90x90_S32x90x195_S32x90x195_2_1_1_2_0_0 none A V (constant (F := Ideal) S32x90x195 .f32 0x00000000#32) (ix3 bb i f)
      = ∑ j : Fin 90, A (ix3 bb i j) * V (ix3 bb j f) := by
  refine matmul_zero_sum dot_S32x90x90_S32x90x195_S32x90x195_2_1_1_2_0_0 90 rfl rfl A V _ (fun j => ix3 bb i j) (fun j => ix3 bb j f) ?_ ?_
  · intro q k hk
    funext a
    apply Fin.ext
    match a with
    | ⟨0, _⟩ =>
      show (dot_S32x90x90_S32x90x195_S32x90x195_2_1_1_2_0_0.lhsIdx (ix3 bb i f) q 0).val = bb.val
      unfold DotDims.lhsIdx
      rw [dif_pos (show (0 : Fin S32x90x90.rank) ∈ dot_S32x90x90_S32x90x195_S32x90x195_2_1_1_2_0_0.lhsBatch by decide)]
      rfl
    | ⟨1, _⟩ =>
      show (dot_S32x90x90_S32x90x195_S32x90x195_2_1_1_2_0_0.lhsIdx (ix3 bb i f) q 1).val = i.val
      unfold DotDims.lhsIdx
      rw [dif_neg (show ¬(1 : Fin S32x90x90.rank) ∈ dot_S32x90x90_S32x90x195_S32x90x195_2_1_1_2_0_0.lhsBatch by decide), dif_pos (show (1 : Fin S32x90x90.rank) ∈ dot_S32x90x90_S32x90x195_S32x90x195_2_1_1_2_0_0.lhsNonContracting by decide)]
      rfl
    | ⟨2, _⟩ => exact (dot_S32x90x90_S32x90x195_S32x90x195_2_1_1_2_0_0.lhsIdx_val_of_single rfl _ q).trans hk
  · intro q k hk
    funext a
    apply Fin.ext
    match a with
    | ⟨0, _⟩ =>
      show (dot_S32x90x90_S32x90x195_S32x90x195_2_1_1_2_0_0.rhsIdx (ix3 bb i f) q 0).val = bb.val
      unfold DotDims.rhsIdx
      rw [dif_pos (show (0 : Fin S32x90x195.rank) ∈ dot_S32x90x90_S32x90x195_S32x90x195_2_1_1_2_0_0.rhsBatch by decide)]
      rfl
    | ⟨1, _⟩ => exact (dot_S32x90x90_S32x90x195_S32x90x195_2_1_1_2_0_0.rhsIdx_val_of_single rfl _ q).trans hk
    | ⟨2, _⟩ =>
      show (dot_S32x90x90_S32x90x195_S32x90x195_2_1_1_2_0_0.rhsIdx (ix3 bb i f) q 2).val = f.val
      unfold DotDims.rhsIdx
      rw [dif_neg (show ¬(2 : Fin S32x90x195.rank) ∈ dot_S32x90x90_S32x90x195_S32x90x195_2_1_1_2_0_0.rhsBatch by decide), dif_pos (show (2 : Fin S32x90x195.rank) ∈ dot_S32x90x90_S32x90x195_S32x90x195_2_1_1_2_0_0.rhsNonContracting by decide)]
      rfl

/-- The same batched product with 128 columns. -/
theorem bmm128_apply (A : FVec Ideal S32x90x90 .bf16) (V : FVec Ideal S32x90x128 .bf16) (bb : Fin 32) (i : Fin 90) (f : Fin 128) :
    matmul dot_S32x90x90_S32x90x128_S32x90x128_2_1_1_2_0_0 none A V (constant (F := Ideal) S32x90x128 .f32 0x00000000#32) (ix3 bb i f)
      = ∑ j : Fin 90, A (ix3 bb i j) * V (ix3 bb j f) := by
  refine matmul_zero_sum dot_S32x90x90_S32x90x128_S32x90x128_2_1_1_2_0_0 90 rfl rfl A V _ (fun j => ix3 bb i j) (fun j => ix3 bb j f) ?_ ?_
  · intro q k hk
    funext a
    apply Fin.ext
    match a with
    | ⟨0, _⟩ =>
      show (dot_S32x90x90_S32x90x128_S32x90x128_2_1_1_2_0_0.lhsIdx (ix3 bb i f) q 0).val = bb.val
      unfold DotDims.lhsIdx
      rw [dif_pos (show (0 : Fin S32x90x90.rank) ∈ dot_S32x90x90_S32x90x128_S32x90x128_2_1_1_2_0_0.lhsBatch by decide)]
      rfl
    | ⟨1, _⟩ =>
      show (dot_S32x90x90_S32x90x128_S32x90x128_2_1_1_2_0_0.lhsIdx (ix3 bb i f) q 1).val = i.val
      unfold DotDims.lhsIdx
      rw [dif_neg (show ¬(1 : Fin S32x90x90.rank) ∈ dot_S32x90x90_S32x90x128_S32x90x128_2_1_1_2_0_0.lhsBatch by decide), dif_pos (show (1 : Fin S32x90x90.rank) ∈ dot_S32x90x90_S32x90x128_S32x90x128_2_1_1_2_0_0.lhsNonContracting by decide)]
      rfl
    | ⟨2, _⟩ => exact (dot_S32x90x90_S32x90x128_S32x90x128_2_1_1_2_0_0.lhsIdx_val_of_single rfl _ q).trans hk
  · intro q k hk
    funext a
    apply Fin.ext
    match a with
    | ⟨0, _⟩ =>
      show (dot_S32x90x90_S32x90x128_S32x90x128_2_1_1_2_0_0.rhsIdx (ix3 bb i f) q 0).val = bb.val
      unfold DotDims.rhsIdx
      rw [dif_pos (show (0 : Fin S32x90x128.rank) ∈ dot_S32x90x90_S32x90x128_S32x90x128_2_1_1_2_0_0.rhsBatch by decide)]
      rfl
    | ⟨1, _⟩ => exact (dot_S32x90x90_S32x90x128_S32x90x128_2_1_1_2_0_0.rhsIdx_val_of_single rfl _ q).trans hk
    | ⟨2, _⟩ =>
      show (dot_S32x90x90_S32x90x128_S32x90x128_2_1_1_2_0_0.rhsIdx (ix3 bb i f) q 2).val = f.val
      unfold DotDims.rhsIdx
      rw [dif_neg (show ¬(2 : Fin S32x90x128.rank) ∈ dot_S32x90x90_S32x90x128_S32x90x128_2_1_1_2_0_0.rhsBatch by decide), dif_pos (show (2 : Fin S32x90x128.rank) ∈ dot_S32x90x90_S32x90x128_S32x90x128_2_1_1_2_0_0.rhsNonContracting by decide)]
      rfl

/-- The flat product [2880,195] × [128,195], both last axes contracted, at (r, h): Σ_f X(r,f) · W(h,f). -/
theorem mm195_apply (X : FVec Ideal S2880x195 .bf16) (W : FVec Ideal S128x195 .bf16) (r : Fin 2880) (h : Fin 128) :
    matmul dot_S2880x195_S128x195_S2880x128_1_1_0_0_n_n none X W (constant (F := Ideal) S2880x128 .f32 0x00000000#32) (ix2 r h)
      = ∑ f : Fin 195, X (ix2 r f) * W (ix2 h f) := by
  refine matmul_zero_sum dot_S2880x195_S128x195_S2880x128_1_1_0_0_n_n 195 rfl rfl X W _ (fun f => ix2 r f) (fun f => ix2 h f) ?_ ?_
  · intro q k hk
    funext a
    apply Fin.ext
    match a with
    | ⟨0, _⟩ =>
      show (dot_S2880x195_S128x195_S2880x128_1_1_0_0_n_n.lhsIdx (ix2 r h) q 0).val = r.val
      unfold DotDims.lhsIdx
      rw [dif_neg (show ¬(0 : Fin S2880x195.rank) ∈ dot_S2880x195_S128x195_S2880x128_1_1_0_0_n_n.lhsBatch by decide), dif_pos (show (0 : Fin S2880x195.rank) ∈ dot_S2880x195_S128x195_S2880x128_1_1_0_0_n_n.lhsNonContracting by decide)]
      rfl
    | ⟨1, _⟩ => exact (dot_S2880x195_S128x195_S2880x128_1_1_0_0_n_n.lhsIdx_val_of_single rfl _ q).trans hk
  · intro q k hk
    funext a
    apply Fin.ext
    match a with
    | ⟨0, _⟩ =>
      show (dot_S2880x195_S128x195_S2880x128_1_1_0_0_n_n.rhsIdx (ix2 r h) q 0).val = h.val
      unfold DotDims.rhsIdx
      rw [dif_neg (show ¬(0 : Fin S128x195.rank) ∈ dot_S2880x195_S128x195_S2880x128_1_1_0_0_n_n.rhsBatch by decide), dif_pos (show (0 : Fin S128x195.rank) ∈ dot_S2880x195_S128x195_S2880x128_1_1_0_0_n_n.rhsNonContracting by decide)]
      rfl
    | ⟨1, _⟩ => exact (dot_S2880x195_S128x195_S2880x128_1_1_0_0_n_n.rhsIdx_val_of_single rfl _ q).trans hk

/-- The flat product [2880,128] × [64,128], both last axes contracted, at (r, o): Σ_h X(r,h) · W(o,h). -/
theorem mm128_apply (X : FVec Ideal S2880x128 .bf16) (W : FVec Ideal S64x128 .bf16) (r : Fin 2880) (h : Fin 64) :
    matmul dot_S2880x128_S64x128_S2880x64_1_1_0_0_n_n none X W (constant (F := Ideal) S2880x64 .f32 0x00000000#32) (ix2 r h)
      = ∑ f : Fin 128, X (ix2 r f) * W (ix2 h f) := by
  refine matmul_zero_sum dot_S2880x128_S64x128_S2880x64_1_1_0_0_n_n 128 rfl rfl X W _ (fun f => ix2 r f) (fun f => ix2 h f) ?_ ?_
  · intro q k hk
    funext a
    apply Fin.ext
    match a with
    | ⟨0, _⟩ =>
      show (dot_S2880x128_S64x128_S2880x64_1_1_0_0_n_n.lhsIdx (ix2 r h) q 0).val = r.val
      unfold DotDims.lhsIdx
      rw [dif_neg (show ¬(0 : Fin S2880x128.rank) ∈ dot_S2880x128_S64x128_S2880x64_1_1_0_0_n_n.lhsBatch by decide), dif_pos (show (0 : Fin S2880x128.rank) ∈ dot_S2880x128_S64x128_S2880x64_1_1_0_0_n_n.lhsNonContracting by decide)]
      rfl
    | ⟨1, _⟩ => exact (dot_S2880x128_S64x128_S2880x64_1_1_0_0_n_n.lhsIdx_val_of_single rfl _ q).trans hk
  · intro q k hk
    funext a
    apply Fin.ext
    match a with
    | ⟨0, _⟩ =>
      show (dot_S2880x128_S64x128_S2880x64_1_1_0_0_n_n.rhsIdx (ix2 r h) q 0).val = h.val
      unfold DotDims.rhsIdx
      rw [dif_neg (show ¬(0 : Fin S64x128.rank) ∈ dot_S2880x128_S64x128_S2880x64_1_1_0_0_n_n.rhsBatch by decide), dif_pos (show (0 : Fin S64x128.rank) ∈ dot_S2880x128_S64x128_S2880x64_1_1_0_0_n_n.rhsNonContracting by decide)]
      rfl
    | ⟨1, _⟩ => exact (dot_S2880x128_S64x128_S2880x64_1_1_0_0_n_n.rhsIdx_val_of_single rfl _ q).trans hk

/-! ## The layout operations, at coordinates -/

/-- Row 90·b + n: the position of node n of batch element b once the two leading axes are flattened. -/
def row (bb : Fin 32) (n : Fin 90) : Fin 2880 := ⟨90 * bb.val + n.val, by have := bb.isLt; have := n.isLt; omega⟩

/-- Flattening [32,90,F] to [2880,F] keeps row-major order: row 90·b + n is (b, n). -/
theorem flatten_apply {α : Type} {F : ℕ} (v : (⟨3, ![32, 90, F]⟩ : Shape).Idx → α)
    (h : (⟨3, ![32, 90, F]⟩ : Shape).ShapeCasts ⟨2, ![2880, F]⟩) (bb : Fin 32) (n : Fin 90) (f : Fin F) :
    shapeCast ⟨2, ![2880, F]⟩ v h (ix2 (row bb n) f) = v (ix3 bb n f) := by
  refine shapeCast_apply v h _ _ ?_
  rw [Shape.rowMajor_val_three, Shape.rowMajor_val_two]
  show (bb.val * 90 + n.val) * F + f.val = (90 * bb.val + n.val) * F + f.val
  rw [Nat.mul_comm bb.val 90]

/-- And back: (b, n) of the [32,90,F] form is row 90·b + n of the [2880,F] form. -/
theorem unflatten_apply {α : Type} {F : ℕ} (v : (⟨2, ![2880, F]⟩ : Shape).Idx → α)
    (h : (⟨2, ![2880, F]⟩ : Shape).ShapeCasts ⟨3, ![32, 90, F]⟩) (bb : Fin 32) (n : Fin 90) (f : Fin F) :
    shapeCast ⟨3, ![32, 90, F]⟩ v h (ix3 bb n f) = v (ix2 (row bb n) f) := by
  refine shapeCast_apply v h _ _ ?_
  rw [Shape.rowMajor_val_three, Shape.rowMajor_val_two]
  show (90 * bb.val + n.val) * F + f.val = (bb.val * 90 + n.val) * F + f.val
  rw [Nat.mul_comm bb.val 90]

/-- A bias vector [H] viewed as [1,1,H] and broadcast over batch and node: at (b, n, h) it is the vector's entry h. -/
theorem bias_apply {α : Type} {H : ℕ} (b : (⟨1, ![H]⟩ : Shape).Idx → α)
    (h1 : (⟨1, ![H]⟩ : Shape).ShapeCasts ⟨3, ![1, 1, H]⟩) (h2 : (⟨3, ![1, 1, H]⟩ : Shape).Broadcasts ⟨3, ![32, 90, H]⟩)
    (bb : Fin 32) (n : Fin 90) (hh : Fin H) :
    broadcastTo ⟨3, ![32, 90, H]⟩ (shapeCast ⟨3, ![1, 1, H]⟩ b h1) h2 (ix3 bb n hh) = b (ix1 hh) := by
  refine (broadcastTo_apply _ h2 (ix3 bb n hh) (ix3 (0 : Fin 1) (0 : Fin 1) hh) ?_).trans ?_
  · intro a
    match a with
    | ⟨0, _⟩ => exact (if_pos rfl).symm
    | ⟨1, _⟩ => exact (if_pos rfl).symm
    | ⟨2, _⟩ =>
      show hh.val = if H = 1 then 0 else hh.val
      split
      · have := hh.isLt; omega
      · rfl
  · refine shapeCast_apply b h1 _ _ ?_
    rw [Shape.rowMajor_val_three, Shape.rowMajor_val_one]
    show hh.val = (0 * 1 + 0) * H + hh.val
    simp

/-! ## Congruences, named -/

theorem add_congr {a a' b b' : EReal} (ha : a = a') (hb : b = b') : a + b = a' + b' := by rw [ha, hb]
theorem mul_congr {a a' b b' : EReal} (ha : a = a') (hb : b = b') : a * b = a' * b' := by rw [ha, hb]
theorem max_congr {a a' b b' : EReal} (ha : a = a') (hb : b = b') : max a b = max a' b' := by rw [ha, hb]

/-! ## The two layers over variable operands -/

/-- The hidden activations as the kernel forms them from its staged operands: the aggregate part `agg` (already through
    its weights, flat), the bias `b`, the nodes' own rows `xf` (flat) through `Wr`, rectified. -/
def hidVec (Wr : FVec Ideal S128x195 .bf16) (b : Vec Ideal S128 .f32) (xf : FVec Ideal S2880x195 .bf16)
    (agg : FVec Ideal S2880x128 .f32) : FVec Ideal S32x90x128 .bf16 :=
  truncf .bf16
    (maximumf
      (addf
        (addf (shapeCast S32x90x128 agg shapeCasts_S2880x128_S32x90x128)
          (broadcastTo S32x90x128 (shapeCast S1x1x128 b shapeCasts_S128_S1x1x128 : FVec Ideal S1x1x128 .f32) broadcasts_S1x1x128_S32x90x128))
        (shapeCast S32x90x128
          (matmul dot_S2880x195_S128x195_S2880x128_1_1_0_0_n_n none xf Wr (constant (F := Ideal) S2880x128 .f32 0x00000000#32))
          shapeCasts_S2880x128_S32x90x128))
      (broadcast S32x90x128 (Scalar.ofBits (F := Ideal) .f32 0x00000000#32)))
    bitsLt_bf16_f32

/-- The second layer as the kernel forms it from the normalised adjacency `A`, hidden activations `hid`, the two weight
    blocks and the bias: aggregate, flatten, two flat products, bias added first, own-row part second. -/
def outVec (A : FVec Ideal S32x90x90 .bf16) (hid : FVec Ideal S32x90x128 .bf16) (Wl Wr : Vec Ideal S64x128 .bf16)
    (b : Vec Ideal S64 .f32) : FVec Ideal S32x90x64 .bf16 :=
  truncf .bf16
    (addf
      (addf
        (shapeCast S32x90x64
          (matmul dot_S2880x128_S64x128_S2880x64_1_1_0_0_n_n none
            (shapeCast S2880x128
              (truncf .bf16
                (matmul dot_S32x90x90_S32x90x128_S32x90x128_2_1_1_2_0_0 none A hid (constant (F := Ideal) S32x90x128 .f32 0x00000000#32))
                bitsLt_bf16_f32)
              shapeCasts_S32x90x128_S2880x128)
            (shapeCast S64x128 Wl shapeCasts_S64x128_S64x128 : FVec Ideal S64x128 .bf16) (constant (F := Ideal) S2880x64 .f32 0x00000000#32))
          shapeCasts_S2880x64_S32x90x64)
        (broadcastTo S32x90x64 (shapeCast S1x1x64 b shapeCasts_S64_S1x1x64 : FVec Ideal S1x1x64 .f32) broadcasts_S1x1x64_S32x90x64))
      (shapeCast S32x90x64
        (matmul dot_S2880x128_S64x128_S2880x64_1_1_0_0_n_n none
          (shapeCast S2880x128 hid shapeCasts_S32x90x128_S2880x128)
          (shapeCast S64x128 Wr shapeCasts_S64x128_S64x128 : FVec Ideal S64x128 .bf16) (constant (F := Ideal) S2880x64 .f32 0x00000000#32))
        shapeCasts_S2880x64_S32x90x64))
    bitsLt_bf16_f32

/-- The stored block is the second layer over the hidden activations. -/
theorem pay1_eq (v30 : FVec Ideal S32x90x90 .bf16) (v37 : FVec Ideal S128x195 .bf16) (v38 : Vec Ideal S128 .f32)
    (v40 : FVec Ideal S2880x195 .bf16) (v41 : FVec Ideal S2880x128 .f32) (v54 : Vec Ideal S64x128 .bf16)
    (v56 : Vec Ideal S64x128 .bf16) (v58 : Vec Ideal S64 .f32) :
    k0_pay1 (F := Ideal) v30 v37 v38 v40 v41 v54 v56 v58 = outVec v30 (hidVec v37 v38 v40 v41) v54 v56 v58 := rfl

/-- The hidden activation at (b, n, h). -/
theorem hidVec_apply (Wr : FVec Ideal S128x195 .bf16) (b : Vec Ideal S128 .f32) (xf : FVec Ideal S2880x195 .bf16)
    (agg : FVec Ideal S2880x128 .f32) (bb : Fin 32) (n : Fin 90) (h : Fin 128) :
    hidVec Wr b xf agg (ix3 bb n h)
      = max ((agg (ix2 (row bb n) h) + b (ix1 h)) + ∑ f : Fin 195, xf (ix2 (row bb n) f) * Wr (ix2 h f)) 0 := by
  unfold hidVec
  refine max_congr (add_congr (add_congr ?_ ?_) ?_) ?_
  · exact unflatten_apply agg _ bb n h
  · exact bias_apply b _ _ bb n h
  · exact (unflatten_apply _ _ bb n h).trans (mm195_apply xf Wr (row bb n) h)
  · exact Ideal.ofBits_zero_f32

/-- The second layer at (b, n, o). -/
theorem outVec_apply (A : FVec Ideal S32x90x90 .bf16) (hid : FVec Ideal S32x90x128 .bf16) (Wl Wr : Vec Ideal S64x128 .bf16)
    (b : Vec Ideal S64 .f32) (bb : Fin 32) (n : Fin 90) (o : Fin 64) :
    outVec A hid Wl Wr b (ix3 bb n o)
      = ((∑ h : Fin 128, (∑ j : Fin 90, A (ix3 bb n j) * hid (ix3 bb j h)) * Wl (ix2 o h)) + b (ix1 o))
        + ∑ h : Fin 128, hid (ix3 bb n h) * Wr (ix2 o h) := by
  unfold outVec
  refine add_congr (add_congr ?_ ?_) ?_
  · refine (unflatten_apply _ _ bb n o).trans ((mm128_apply _ _ (row bb n) o).trans ?_)
    refine Finset.sum_congr rfl fun h _ => mul_congr ?_ ?_
    · exact (flatten_apply _ _ bb n h).trans (bmm128_apply A hid bb n h)
    · exact congrFun (shapeCast_self Wl _) (ix2 o h)
  · exact bias_apply b _ _ bb n o
  · refine (unflatten_apply _ _ bb n o).trans ((mm128_apply _ _ (row bb n) o).trans ?_)
    exact Finset.sum_congr rfl fun h _ =>
      mul_congr (flatten_apply hid _ bb n h) (congrFun (shapeCast_self Wr _) (ix2 o h))

/-! ## The staged operands, at coordinates -/

/-- The first layer's aggregate part at (row 90·b + n, h): the adjacency-weighted mean of the rows, through the weights. -/
theorem pay6_apply (x0 : Vec Ideal S32x90x195 .f32) (x1 : Vec Ideal S128x195 .bf16) (bb : Fin 32) (n : Fin 90) (h : Fin 128) :
    k0_pay6 (F := Ideal) x0 x1 (ix2 (row bb n) h)
      = ∑ f : Fin 195, (∑ j : Fin 90, k0_pay2 (F := Ideal) x0 (ix3 bb n j) * x0 (ix3 bb j f)) * x1 (ix2 h f) := by
  unfold k0_pay6
  refine (mm195_apply _ _ (row bb n) h).trans ?_
  refine Finset.sum_congr rfl fun f _ => mul_congr ?_ ?_
  · exact (flatten_apply _ _ bb n f).trans (bmm195_apply (k0_pay2 x0) (k0_pay3 x0) bb n f)
  · exact congrFun (shapeCast_self x1 _) (ix2 h f)

/-- The nodes' own rows, flattened: row 90·b + n is row n of batch element b. -/
theorem pay5_apply (x0 : Vec Ideal S32x90x195 .f32) (bb : Fin 32) (n : Fin 90) (f : Fin 195) :
    k0_pay5 (F := Ideal) x0 (ix2 (row bb n) f) = x0 (ix3 bb n f) := by
  unfold k0_pay5
  exact flatten_apply (k0_pay3 x0) _ bb n f

/-- A weight block cast to its own shape is itself. -/
theorem pay4_apply (x3 : Vec Ideal S128x195 .bf16) (h : Fin 128) (f : Fin 195) :
    k0_pay4 (F := Ideal) x3 (ix2 h f) = x3 (ix2 h f) := by
  unfold k0_pay4
  exact congrFun (shapeCast_self x3 _) (ix2 h f)

/-! ## The stored block is the specification's two layers -/

/-- Given the normalised adjacency read at coordinates (`hA`: entry (i, j) of batch element b is adj(j→i) / deg(i)), the
    block the first kernel stores is, at (b, n, o), the two graph layers of the specification with the kernel's order of
    aggregation, over batch element b's signal and the staged weights. -/
theorem sage_block (x0 : Vec Ideal S32x90x195 .f32) (x1 : Vec Ideal S128x195 .bf16) (x2 : Vec Ideal S128 .f32)
    (x3 : Vec Ideal S128x195 .bf16) (x4 : Vec Ideal S64x128 .bf16) (x5 : Vec Ideal S64 .f32) (x6 : Vec Ideal S64x128 .bf16)
    (hA : ∀ (bb : Fin 32) (i j : Fin 90), k0_pay2 (F := Ideal) x0 (ix3 bb i j)
            = Ideal.div (Cert.GraphSpec.adj (fun n f => x0 (ix3 bb n f)) j i) (Cert.GraphSpec.deg (fun n f => x0 (ix3 bb n f)) i))
    (bb : Fin 32) (n : Fin 90) (o : Fin 64) :
    k0_pay1 (F := Ideal) (k0_pay2 x0) (k0_pay4 x3) x2 (k0_pay5 x0) (k0_pay6 x0 x1) x4 x6 x5 (ix3 bb n o)
      = Cert.GraphSpec.sageK (fun n f => x0 (ix3 bb n f)) (fun h f => x1 (ix2 h f)) (fun h => x2 (ix1 h))
          (fun h f => x3 (ix2 h f)) (fun o h => x4 (ix2 o h)) (fun o => x5 (ix1 o)) (fun o h => x6 (ix2 o h)) n o := by
  have hid : ∀ (j : Fin 90) (h : Fin 128),
      hidVec (k0_pay4 x3) x2 (k0_pay5 x0) (k0_pay6 x0 x1) (ix3 bb j h)
        = Cert.GraphSpec.hidK (fun n f => x0 (ix3 bb n f)) (fun h f => x1 (ix2 h f)) (fun h => x2 (ix1 h))
            (fun h f => x3 (ix2 h f)) j h := by
    intro j h
    refine (hidVec_apply _ _ _ _ bb j h).trans ?_
    unfold Cert.GraphSpec.hidK Cert.GraphSpec.lin Cert.GraphSpec.aggK
    refine max_congr (add_congr (add_congr ?_ rfl) ?_) rfl
    · refine (pay6_apply x0 x1 bb j h).trans ?_
      refine Finset.sum_congr rfl fun f _ => mul_congr ?_ rfl
      exact Finset.sum_congr rfl fun i _ => mul_congr (hA bb j i) rfl
    · exact Finset.sum_congr rfl fun f _ => mul_congr (pay5_apply x0 bb j f) (pay4_apply x3 h f)
  rw [pay1_eq]
  refine (outVec_apply _ _ _ _ _ bb n o).trans ?_
  unfold Cert.GraphSpec.sageK Cert.GraphSpec.lin Cert.GraphSpec.aggK
  refine add_congr (add_congr ?_ rfl) ?_
  · refine Finset.sum_congr rfl fun h _ => mul_congr ?_ rfl
    exact Finset.sum_congr rfl fun j _ => mul_congr (hA bb n j) (hid j h)
  · exact Finset.sum_congr rfl fun h _ => mul_congr (hid n h) rfl

end Cert.KSage

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KHead.lean ====
/-
  The dense head of the second kernel, read one element at a time.

  A row `u` of the block of flattened graph outputs goes through two stages, each a dense layer
  (Σ_k u k · W h k, plus a bias), a rectifier and an affine normalisation with stored statistics, and then a
  last dense layer to two logits which are soft-maxed.  Every operation of the kernel's head is either pointwise
  or one of four layout/contraction forms: a vector laid out as one row and repeated down the rows, a vector laid
  out as one column and repeated along the columns, a product of a matrix with a transposed matrix, and a
  reduction along a row.  Each form is read at a pair of coordinates below; the head's two results then unfold
  to the stated formulas term by term.
-/
import proofs.«169563_j52381421142390_2_alg».proof.Proof.Spec
import proofs.«169563_j52381421142390_2_alg».proof.Proof.Gen.KernelIdeal.Skeleton
import proofs.«169563_j52381421142390_2_alg».proof.Proof.LibKeepdims
import Idealize.ShloMosaic.Lib.ValueLayout
import Idealize.ShloMosaic.PureOps.Ideal.Laws

noncomputable section

namespace Cert.KHead

open Cert.KernelIdeal Cert.KernelIdeal.Gen Idealize.ShloMosaic Idealize.ShloMosaic.ValueIdx

/-! ## The four non-pointwise forms at coordinates -/

/-- A vector `[n]` laid out as the single row `[1, n]` and repeated down `m` rows reads, at `(r, c)`, its entry `c`. -/
theorem rowBcast_apply {m n : ℕ} {α : Type} (x : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (r : Fin m) (c : Fin n) :
    broadcastTo ⟨2, ![m, n]⟩ (shapeCast ⟨2, ![1, n]⟩ x h1) h2 (ix2 r c) = x (ix1 c) :=
  (broadcastTo_1b_ab_apply _ h2 r c).trans (shapeCast_a_1a_apply x h1 0 c)

/-- A vector `[m]` laid out as the single column `[m, 1]` and repeated along `n` columns reads, at `(r, c)`, its entry `r`. -/
theorem colBcast_apply {m n : ℕ} {α : Type} (x : (⟨1, ![m]⟩ : Shape).Idx → α)
    (h1 : (⟨1, ![m]⟩ : Shape).ShapeCasts ⟨2, ![m, 1]⟩) (h2 : (⟨2, ![m, 1]⟩ : Shape).Broadcasts ⟨2, ![m, n]⟩)
    (r : Fin m) (c : Fin n) :
    broadcastTo ⟨2, ![m, n]⟩ (shapeCast ⟨2, ![m, 1]⟩ x h1) h2 (ix2 r c) = x (ix1 r) :=
  (Cert.LibKeepdims.broadcastTo_a1_ab_apply _ h2 r c).trans (Cert.LibKeepdims.shapeCast_a_a1_apply x h1 r 0)

/-- A re-shaping to the same shape reads the operand at the same index. -/
theorem shapeCast_self_apply {s : Shape} {α : Type} (x : s.Idx → α) (h : s.ShapeCasts s) (j : s.Idx) :
    shapeCast s x h j = x j :=
  shapeCast_apply x h j j rfl

/-- A product `[M, K] × [H, K]` contracting the second axis of both operands into the zero accumulator reads, at
    `(p, c)`, the sum over `k < K` of `l (p, k) · r (c, k)`: the contraction index is its one coordinate, and the four
    coordinate facts say which operand coordinate reads which. -/
theorem matmulT_apply {M K H : ℕ} {φ₁ φ₂ : FTy}
    (d : DotDims ⟨2, ![M, K]⟩ ⟨2, ![H, K]⟩ ⟨2, ![M, H]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (j 1).val)
    (hr1 : ∀ j q, (d.rhsIdx j q 1).val = (q ⟨0, by omega⟩).val)
    (prec : Option ContractPrecision) (l : FVec Ideal ⟨2, ![M, K]⟩ φ₁) (r : FVec Ideal ⟨2, ![H, K]⟩ φ₂)
    (p : Fin M) (c : Fin H) :
    matmul d prec l r (constant ⟨2, ![M, H]⟩ .f32 0x00000000#32) (ix2 p c) = ∑ k : Fin K, l (ix2 p k) * r (ix2 c k) := by
  show FloatOps.matmul d prec l r (constant ⟨2, ![M, H]⟩ .f32 0x00000000#32) (ix2 p c) = _
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 c k := funext fun a => Fin.ext (by
    match a with
    | ⟨0, _⟩ => exact hr0 _ _
    | ⟨1, _⟩ => exact (hr1 _ _).trans hk)
  rw [el, er]

/-! ## The three products' coordinate facts -/

section Records

/-- The first dense layer's product `[1024, 5760] × [512, 5760]`. -/
theorem fc1_mm {φ₁ φ₂ : FTy} (l : FVec Ideal S1024x5760 φ₁) (w : FVec Ideal S512x5760 φ₂) (p : Fin 1024) (c : Fin 512) :
    matmul dot_S1024x5760_S512x5760_S1024x512_1_1_0_0_n_n none l w (constant S1024x512 .f32 0x00000000#32) (ix2 p c)
      = ∑ k : Fin 5760, l (ix2 p k) * w (ix2 c k) :=
  matmulT_apply dot_S1024x5760_S512x5760_S1024x512_1_1_0_0_n_n rfl rfl
    (fun j q => by
      unfold DotDims.lhsIdx
      rw [dif_neg (show ¬(0 : Fin S1024x5760.rank) ∈ dot_S1024x5760_S512x5760_S1024x512_1_1_0_0_n_n.lhsBatch by decide),
        dif_pos (show (0 : Fin S1024x5760.rank) ∈ dot_S1024x5760_S512x5760_S1024x512_1_1_0_0_n_n.lhsNonContracting by decide)]
      rfl)
    (fun j q => dot_S1024x5760_S512x5760_S1024x512_1_1_0_0_n_n.lhsIdx_val_of_single rfl j q)
    (fun j q => by
      unfold DotDims.rhsIdx
      rw [dif_neg (show ¬(0 : Fin S512x5760.rank) ∈ dot_S1024x5760_S512x5760_S1024x512_1_1_0_0_n_n.rhsBatch by decide),
        dif_pos (show (0 : Fin S512x5760.rank) ∈ dot_S1024x5760_S512x5760_S1024x512_1_1_0_0_n_n.rhsNonContracting by decide)]
      rfl)
    (fun j q => dot_S1024x5760_S512x5760_S1024x512_1_1_0_0_n_n.rhsIdx_val_of_single rfl j q)
    none l w p c

/-- The second dense layer's product `[1024, 512] × [256, 512]`. -/
theorem fc2_mm {φ₁ φ₂ : FTy} (l : FVec Ideal S1024x512 φ₁) (w : FVec Ideal S256x512 φ₂) (p : Fin 1024) (c : Fin 256) :
    matmul dot_S1024x512_S256x512_S1024x256_1_1_0_0_n_n none l w (constant S1024x256 .f32 0x00000000#32) (ix2 p c)
      = ∑ k : Fin 512, l (ix2 p k) * w (ix2 c k) :=
  matmulT_apply dot_S1024x512_S256x512_S1024x256_1_1_0_0_n_n rfl rfl
    (fun j q => by
      unfold DotDims.lhsIdx
      rw [dif_neg (show ¬(0 : Fin S1024x512.rank) ∈ dot_S1024x512_S256x512_S1024x256_1_1_0_0_n_n.lhsBatch by decide),
        dif_pos (show (0 : Fin S1024x512.rank) ∈ dot_S1024x512_S256x512_S1024x256_1_1_0_0_n_n.lhsNonContracting by decide)]
      rfl)
    (fun j q => dot_S1024x512_S256x512_S1024x256_1_1_0_0_n_n.lhsIdx_val_of_single rfl j q)
    (fun j q => by
      unfold DotDims.rhsIdx
      rw [dif_neg (show ¬(0 : Fin S256x512.rank) ∈ dot_S1024x512_S256x512_S1024x256_1_1_0_0_n_n.rhsBatch by decide),
        dif_pos (show (0 : Fin S256x512.rank) ∈ dot_S1024x512_S256x512_S1024x256_1_1_0_0_n_n.rhsNonContracting by decide)]
      rfl)
    (fun j q => dot_S1024x512_S256x512_S1024x256_1_1_0_0_n_n.rhsIdx_val_of_single rfl j q)
    none l w p c

/-- The last dense layer's product `[1024, 256] × [2, 256]`. -/
theorem fc3_mm {φ₁ φ₂ : FTy} (l : FVec Ideal S1024x256 φ₁) (w : FVec Ideal S2x256 φ₂) (p : Fin 1024) (c : Fin 2) :
    matmul dot_S1024x256_S2x256_S1024x2_1_1_0_0_n_n none l w (constant S1024x2 .f32 0x00000000#32) (ix2 p c)
      = ∑ k : Fin 256, l (ix2 p k) * w (ix2 c k) :=
  matmulT_apply dot_S1024x256_S2x256_S1024x2_1_1_0_0_n_n rfl rfl
    (fun j q => by
      unfold DotDims.lhsIdx
      rw [dif_neg (show ¬(0 : Fin S1024x256.rank) ∈ dot_S1024x256_S2x256_S1024x2_1_1_0_0_n_n.lhsBatch by decide),
        dif_pos (show (0 : Fin S1024x256.rank) ∈ dot_S1024x256_S2x256_S1024x2_1_1_0_0_n_n.lhsNonContracting by decide)]
      rfl)
    (fun j q => dot_S1024x256_S2x256_S1024x2_1_1_0_0_n_n.lhsIdx_val_of_single rfl j q)
    (fun j q => by
      unfold DotDims.rhsIdx
      rw [dif_neg (show ¬(0 : Fin S2x256.rank) ∈ dot_S1024x256_S2x256_S1024x2_1_1_0_0_n_n.rhsBatch by decide),
        dif_pos (show (0 : Fin S2x256.rank) ∈ dot_S1024x256_S2x256_S1024x2_1_1_0_0_n_n.rhsNonContracting by decide)]
      rfl)
    (fun j q => dot_S1024x256_S2x256_S1024x2_1_1_0_0_n_n.rhsIdx_val_of_single rfl j q)
    none l w p c

end Records

/-! ## The normalisation at coordinates -/

/-- The affine normalisation of a matrix `y : [m, n]` by per-column statistics, read at `(p, c)`:
    `((y − m) · rsqrt(v + ε)) · g + β` at the element and the column's four numbers. -/
theorem norm_apply {m n : ℕ} (y : FVec Ideal ⟨2, ![m, n]⟩ .f32) (mu v g be : FVec Ideal ⟨1, ![n]⟩ .f32)
    (h1 : (⟨1, ![n]⟩ : Shape).ShapeCasts ⟨2, ![1, n]⟩) (h2 : (⟨2, ![1, n]⟩ : Shape).Broadcasts ⟨2, ![m, n]⟩)
    (p : Fin m) (c : Fin n) :
    addf (mulf (mulf (subf y (broadcastTo ⟨2, ![m, n]⟩ (shapeCast ⟨2, ![1, n]⟩ mu h1) h2))
          (broadcastTo ⟨2, ![m, n]⟩ (shapeCast ⟨2, ![1, n]⟩
            (rsqrt (addf v (broadcast ⟨1, ![n]⟩ (Scalar.ofBits .f32 0x3727C5AC#32)))) h1) h2))
          (broadcastTo ⟨2, ![m, n]⟩ (shapeCast ⟨2, ![1, n]⟩ g h1) h2))
        (broadcastTo ⟨2, ![m, n]⟩ (shapeCast ⟨2, ![1, n]⟩ be h1) h2) (ix2 p c)
      = Cert.GraphSpec.bn (y (ix2 p c)) (mu (ix1 c)) (v (ix1 c)) (g (ix1 c)) (be (ix1 c)) := by
  show ((y (ix2 p c) - broadcastTo ⟨2, ![m, n]⟩ (shapeCast ⟨2, ![1, n]⟩ mu h1) h2 (ix2 p c))
        * broadcastTo ⟨2, ![m, n]⟩ (shapeCast ⟨2, ![1, n]⟩
            (rsqrt (addf v (broadcast ⟨1, ![n]⟩ (Scalar.ofBits .f32 0x3727C5AC#32)))) h1) h2 (ix2 p c))
        * broadcastTo ⟨2, ![m, n]⟩ (shapeCast ⟨2, ![1, n]⟩ g h1) h2 (ix2 p c)
        + broadcastTo ⟨2, ![m, n]⟩ (shapeCast ⟨2, ![1, n]⟩ be h1) h2 (ix2 p c) = _
  rw [rowBcast_apply, rowBcast_apply, rowBcast_apply, rowBcast_apply]
  rfl

/-- A dense layer followed by the rectifier, read at `(p, c)`, given the product's reading. -/
theorem dense_relu_apply {m n : ℕ} (mm : FVec Ideal ⟨2, ![m, n]⟩ .f32) (b : FVec Ideal ⟨1, ![n]⟩ .f32)
    (h1 : (⟨1, ![n]⟩ : Shape).ShapeCasts ⟨2, ![1, n]⟩) (h2 : (⟨2, ![1, n]⟩ : Shape).Broadcasts ⟨2, ![m, n]⟩)
    (p : Fin m) (c : Fin n) :
    maximumf (addf mm (broadcastTo ⟨2, ![m, n]⟩ (shapeCast ⟨2, ![1, n]⟩ b h1) h2))
        (broadcast ⟨2, ![m, n]⟩ (Scalar.ofBits .f32 0x00000000#32)) (ix2 p c)
      = max (mm (ix2 p c) + b (ix1 c)) 0 := by
  show max (mm (ix2 p c) + broadcastTo ⟨2, ![m, n]⟩ (shapeCast ⟨2, ![1, n]⟩ b h1) h2 (ix2 p c))
      (Ideal.ofBits .f32 0x00000000#32) = _
  rw [rowBcast_apply, Ideal.ofBits_zero_f32]

/-! ## The two reductions along a row, and the soft-max -/

/-- The index a reduction along the second axis inserts coordinate `k` at, over row `p`, is `(p, k)`. -/
theorem lift_row (h : S1024x2.Reduces [1] S1024) (p : Fin 1024) (k : Fin 2) : h.lift (ix1 p) k = ix2 p k := by
  funext a
  match a with
  | ⟨0, _⟩ => exact Fin.ext rfl
  | ⟨1, _⟩ => exact Fin.ext rfl

/-- The running maximum of a row from the word -∞, then the larger of it and -∞: the soft-max's shift. -/
theorem rowMax_apply (z : FVec Ideal S1024x2 .f32) (h : S1024x2.Reduces [1] S1024) (hφ : FKind.Formats .f32)
    (hacc : (0xFF800000#32 : BitVec 32) = FKind.maximumf.neutral .f32 hφ) (p : Fin 1024) :
    maximumf (broadcast S1024 (Scalar.ofBits .f32 0xFF800000#32))
        (multiReduction .maximumf [1] S1024 z 0xFF800000#32 h hφ hacc) (ix1 p)
      = Cert.GraphSpec.rowMax (fun j => z (ix2 p j)) := by
  show max (Ideal.ofBits .f32 0xFF800000#32) (multiReduction .maximumf [1] S1024 z 0xFF800000#32 h hφ hacc (ix1 p)) = _
  rw [Ideal.multiReduction_maximumf_single]
  have hz : (z ∘ h.lift (ix1 p)) = fun j : Fin 2 => z (ix2 p j) := funext fun j => congrArg z (lift_row h p j)
  rw [hz]
  rfl

/-- The sum of a row. -/
theorem rowSum_apply (e : FVec Ideal S1024x2 .f32) (h : S1024x2.Reduces [1] S1024) (hφ : FKind.Formats .f32)
    (hacc : (0x00000000#32 : BitVec 32) = FKind.add.neutral .f32 hφ) (p : Fin 1024) :
    multiReduction .add [1] S1024 e 0x00000000#32 h hφ hacc (ix1 p) = ∑ j : Fin 2, e (ix2 p j) :=
  (Ideal.multiReduction_add_single e _ h hφ hacc (ix1 p)).trans
    (Finset.sum_congr rfl fun k _ => congrArg e (lift_row h p k))

/-- The soft-max of the rows of `z : [1024, 2]`, read at `(p, j)`. -/
theorem softmax_apply (z : FVec Ideal S1024x2 .f32) (h : S1024x2.Reduces [1] S1024) (hφ hφ' : FKind.Formats .f32)
    (hacc : (0xFF800000#32 : BitVec 32) = FKind.maximumf.neutral .f32 hφ)
    (hacc' : (0x00000000#32 : BitVec 32) = FKind.add.neutral .f32 hφ')
    (h1 : S1024.ShapeCasts S1024x1) (h2 : S1024x1.Broadcasts S1024x2) (p : Fin 1024) (j : Fin 2) :
    divf (exp (subf z (broadcastTo S1024x2 (shapeCast S1024x1
            (maximumf (broadcast S1024 (Scalar.ofBits .f32 0xFF800000#32))
              (multiReduction .maximumf [1] S1024 z 0xFF800000#32 h hφ hacc)) h1) h2)))
        (broadcastTo S1024x2 (shapeCast S1024x1
          (multiReduction .add [1] S1024
            (exp (subf z (broadcastTo S1024x2 (shapeCast S1024x1
              (maximumf (broadcast S1024 (Scalar.ofBits .f32 0xFF800000#32))
                (multiReduction .maximumf [1] S1024 z 0xFF800000#32 h hφ hacc)) h1) h2)))
            0x00000000#32 h hφ' hacc') h1) h2) (ix2 p j)
      = Cert.GraphSpec.softmax2 (fun j => z (ix2 p j)) j := by
  have hsh : ∀ j' : Fin 2,
      exp (subf z (broadcastTo S1024x2 (shapeCast S1024x1
            (maximumf (broadcast S1024 (Scalar.ofBits .f32 0xFF800000#32))
              (multiReduction .maximumf [1] S1024 z 0xFF800000#32 h hφ hacc)) h1) h2)) (ix2 p j')
        = Ideal.exp (z (ix2 p j') - Cert.GraphSpec.rowMax (fun j => z (ix2 p j))) := fun j' => by
    show Ideal.exp (z (ix2 p j') - broadcastTo S1024x2 (shapeCast S1024x1
            (maximumf (broadcast S1024 (Scalar.ofBits .f32 0xFF800000#32))
              (multiReduction .maximumf [1] S1024 z 0xFF800000#32 h hφ hacc)) h1) h2 (ix2 p j')) = _
    rw [colBcast_apply, rowMax_apply]
  show Ideal.div (exp (subf z (broadcastTo S1024x2 (shapeCast S1024x1
            (maximumf (broadcast S1024 (Scalar.ofBits .f32 0xFF800000#32))
              (multiReduction .maximumf [1] S1024 z 0xFF800000#32 h hφ hacc)) h1) h2)) (ix2 p j))
        (broadcastTo S1024x2 (shapeCast S1024x1
          (multiReduction .add [1] S1024
            (exp (subf z (broadcastTo S1024x2 (shapeCast S1024x1
              (maximumf (broadcast S1024 (Scalar.ofBits .f32 0xFF800000#32))
                (multiReduction .maximumf [1] S1024 z 0xFF800000#32 h hφ hacc)) h1) h2)))
            0x00000000#32 h hφ' hacc') h1) h2 (ix2 p j)) = _
  rw [colBcast_apply, rowSum_apply, hsh]
  unfold Cert.GraphSpec.softmax2
  exact congrArg _ (Finset.sum_congr rfl fun j' _ => hsh j')

/-- The narrowing to bf16 is the identity on extended reals. -/
theorem truncf_bf16_apply {s : Shape} (a : FVec Ideal s .f32) (h : FTy.bits .bf16 < FTy.bits .f32) (i : s.Idx) :
    (truncf .bf16 a h : FVec Ideal s .bf16) i = a i := rfl

/-- A dense layer's bias added along the rows, read at `(p, c)`. -/
theorem dense_apply {m n : ℕ} (mm : FVec Ideal ⟨2, ![m, n]⟩ .f32) (b : FVec Ideal ⟨1, ![n]⟩ .f32)
    (h1 : (⟨1, ![n]⟩ : Shape).ShapeCasts ⟨2, ![1, n]⟩) (h2 : (⟨2, ![1, n]⟩ : Shape).Broadcasts ⟨2, ![m, n]⟩)
    (p : Fin m) (c : Fin n) :
    addf mm (broadcastTo ⟨2, ![m, n]⟩ (shapeCast ⟨2, ![1, n]⟩ b h1) h2) (ix2 p c) = mm (ix2 p c) + b (ix1 c) := by
  show mm (ix2 p c) + broadcastTo ⟨2, ![m, n]⟩ (shapeCast ⟨2, ![1, n]⟩ b h1) h2 (ix2 p c) = _
  rw [rowBcast_apply]

/-! ## The head's payloads at coordinates -/

section Head

variable (x0 : Vec Ideal S1024x5760 .bf16) (x1 : Vec Ideal S512x5760 .bf16)
  (x2 x3 x4 x5 x6 : Vec Ideal S512 .f32) (x7 : Vec Ideal S256x512 .bf16)
  (x8 x9 x10 x11 x12 : Vec Ideal S256 .f32) (x13 : Vec Ideal S2x256 .bf16) (x14 : Vec Ideal S2 .f32)

/-- The second stage before its normalisation: the rectified second dense layer of the first stage's row. -/
theorem pay3_apply (r : Fin 1024) (c : Fin 256) :
    k1_pay3 (F := Ideal) x0 x1 x2 x5 x6 x3 x4 x7 x8 (ix2 r c)
      = max (Cert.GraphSpec.fc
          (Cert.GraphSpec.stage1 (fun k => x0 (ix2 r k)) (fun h k => x1 (ix2 h k)) (fun h => x2 (ix1 h))
            (fun h => x3 (ix1 h)) (fun h => x4 (ix1 h)) (fun h => x5 (ix1 h)) (fun h => x6 (ix1 h)))
          (fun c h => x7 (ix2 c h)) (fun c => x8 (ix1 c)) c) 0 := by
  unfold k1_pay3
  refine (dense_relu_apply _ x8 _ _ r c).trans ?_
  refine congrArg (fun t => max (t + x8 (ix1 c)) 0) ?_
  refine (fc2_mm _ _ r c).trans (Finset.sum_congr rfl fun k _ => ?_)
  rw [shapeCast_self_apply]
  refine congrArg (· * x7 (ix2 c k)) ?_
  refine (truncf_bf16_apply _ _ _).trans ?_
  refine (norm_apply _ x5 x6 x3 x4 _ _ r k).trans ?_
  unfold Cert.GraphSpec.stage1
  refine congrArg (fun t => Cert.GraphSpec.bn t (x5 (ix1 k)) (x6 (ix1 k)) (x3 (ix1 k)) (x4 (ix1 k))) ?_
  refine (dense_relu_apply _ x2 _ _ r k).trans ?_
  refine congrArg (fun t => max (t + x2 (ix1 k)) 0) ?_
  refine (fc1_mm _ _ r k).trans (Finset.sum_congr rfl fun k' _ => ?_)
  rw [shapeCast_self_apply, shapeCast_self_apply]

/-- The kernel's second result, one element: the second stage's normalised activation. -/
theorem out_block (r : Fin 1024) (c : Fin 256) :
    k1_pay1 (F := Ideal) (k1_pay3 x0 x1 x2 x5 x6 x3 x4 x7 x8) x11 x12 x9 x10 (ix2 r c)
      = Cert.GraphSpec.outv (fun k => x0 (ix2 r k)) (fun h k => x1 (ix2 h k)) (fun h => x2 (ix1 h)) (fun h => x3 (ix1 h))
          (fun h => x4 (ix1 h)) (fun h => x5 (ix1 h)) (fun h => x6 (ix1 h)) (fun c h => x7 (ix2 c h)) (fun c => x8 (ix1 c))
          (fun c => x9 (ix1 c)) (fun c => x10 (ix1 c)) (fun c => x11 (ix1 c)) (fun c => x12 (ix1 c)) c := by
  unfold k1_pay1
  refine (norm_apply _ x11 x12 x9 x10 _ _ r c).trans ?_
  unfold Cert.GraphSpec.outv
  exact congrArg (fun t => Cert.GraphSpec.bn t (x11 (ix1 c)) (x12 (ix1 c)) (x9 (ix1 c)) (x10 (ix1 c)))
    (pay3_apply x0 x1 x2 x3 x4 x5 x6 x7 x8 r c)

/-- The kernel's first result, one element: the soft-max of the row's two logits. -/
theorem probs_block (r : Fin 1024) (j : Fin 2) :
    k1_pay2 (F := Ideal) (k1_pay3 x0 x1 x2 x5 x6 x3 x4 x7 x8) x11 x12 x9 x10 x13 x14 (ix2 r j)
      = Cert.GraphSpec.softmax2 (Cert.GraphSpec.logit (fun k => x0 (ix2 r k)) (fun h k => x1 (ix2 h k)) (fun h => x2 (ix1 h))
          (fun h => x3 (ix1 h)) (fun h => x4 (ix1 h)) (fun h => x5 (ix1 h)) (fun h => x6 (ix1 h)) (fun c h => x7 (ix2 c h))
          (fun c => x8 (ix1 c)) (fun c => x9 (ix1 c)) (fun c => x10 (ix1 c)) (fun c => x11 (ix1 c)) (fun c => x12 (ix1 c))
          (fun j c => x13 (ix2 j c)) (fun j => x14 (ix1 j))) j := by
  unfold k1_pay2
  refine (softmax_apply _ _ _ _ _ _ _ _ r j).trans ?_
  refine congrArg (fun l => Cert.GraphSpec.softmax2 l j) (funext fun j' => ?_)
  refine (dense_apply _ x14 _ _ r j').trans ?_
  rw [fc3_mm]
  unfold Cert.GraphSpec.logit Cert.GraphSpec.fc
  refine congrArg (· + x14 (ix1 j')) (Finset.sum_congr rfl fun k _ => ?_)
  rw [shapeCast_self_apply]
  refine congrArg (· * x13 (ix2 j' k)) ?_
  exact (truncf_bf16_apply _ _ _).trans (out_block x0 x1 x2 x3 x4 x5 x6 x7 x8 x9 x10 x11 x12 r k)

end Head

end Cert.KHead

end
-- ==== Proof.KReads.lean ====
/-
  The arrays the two kernels find when they are entered, read back to the launch memory.

  Before the graph kernel the host converts the four weight matrices to the kernel's storage format; between the kernels
  it reshapes the graph kernel's [4096,90,64] result to [4096,5760] and converts the three head weight matrices.  No
  host operation and no kernel writes an argument, so each window's array at a kernel's entry is an argument as
  launched, a converted argument, or the reshaped result of the first kernel.
-/
import proofs.«169563_j52381421142390_2_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (m : (ℓ : Loc nD τ sig) → Buf (Elt F) ℓ) (ρ : Dev nD → PrngReg)

/-! ## At the graph kernel's entry -/

/-- The first host stretch writes only the four converted weights: this argument is as launched. -/
theorem V1_arg0 (c : Dev nD) : V1 m ρ c main_arg0 = m ((c : Thread nD τ).loc main_arg0) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg0) = W0 m ρ c (Proc.devRef .tc main_arg0))

/-- The first host stretch writes only the four converted weights: this argument is as launched. -/
theorem V1_arg2 (c : Dev nD) : V1 m ρ c main_arg2 = m ((c : Thread nD τ).loc main_arg2) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg2) = W0 m ρ c (Proc.devRef .tc main_arg2))

/-- The first host stretch writes only the four converted weights: this argument is as launched. -/
theorem V1_arg5 (c : Dev nD) : V1 m ρ c main_arg5 = m ((c : Thread nD τ).loc main_arg5) :=
  (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg5) = W0 m ρ c (Proc.devRef .tc main_arg5))

/-- A converted weight matrix: the conversion of the argument as launched. -/
theorem V1_v0 (c : Dev nD) : (V1 m ρ c main_v0 : S128x195.Idx → Elt F .bf16)
    = truncf .bf16 (m ((c : Thread nD τ).loc main_arg1) : S128x195.Idx → Elt F .f32) bitsLt_bf16_f32 := by
  show StableHlo.after hostOps0 (W0 m ρ c) (Proc.devRef .tc main_v0) = _
  after_results

/-- A converted weight matrix: the conversion of the argument as launched. -/
theorem V1_v1 (c : Dev nD) : (V1 m ρ c main_v1 : S128x195.Idx → Elt F .bf16)
    = truncf .bf16 (m ((c : Thread nD τ).loc main_arg3) : S128x195.Idx → Elt F .f32) bitsLt_bf16_f32 := by
  show StableHlo.after hostOps0 (W0 m ρ c) (Proc.devRef .tc main_v1) = _
  after_results

/-- A converted weight matrix: the conversion of the argument as launched. -/
theorem V1_v2 (c : Dev nD) : (V1 m ρ c main_v2 : S64x128.Idx → Elt F .bf16)
    = truncf .bf16 (m ((c : Thread nD τ).loc main_arg4) : S64x128.Idx → Elt F .f32) bitsLt_bf16_f32 := by
  show StableHlo.after hostOps0 (W0 m ρ c) (Proc.devRef .tc main_v2) = _
  after_results

/-- A converted weight matrix: the conversion of the argument as launched. -/
theorem V1_v3 (c : Dev nD) : (V1 m ρ c main_v3 : S64x128.Idx → Elt F .bf16)
    = truncf .bf16 (m ((c : Thread nD τ).loc main_arg6) : S64x128.Idx → Elt F .f32) bitsLt_bf16_f32 := by
  show StableHlo.after hostOps0 (W0 m ρ c) (Proc.devRef .tc main_v3) = _
  after_results

/-! ## At the head kernel's entry -/

theorem W2_arg7 (c : Dev nD) : W2 m ρ c (Proc.devRef .tc main_arg7) = m ((c : Thread nD τ).loc main_arg7) :=
  (W2_of_ne m ρ c main_arg7 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg7) = W0 m ρ c (Proc.devRef .tc main_arg7))

theorem W2_arg8 (c : Dev nD) : W2 m ρ c (Proc.devRef .tc main_arg8) = m ((c : Thread nD τ).loc main_arg8) :=
  (W2_of_ne m ρ c main_arg8 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg8) = W0 m ρ c (Proc.devRef .tc main_arg8))

theorem W2_arg9 (c : Dev nD) : W2 m ρ c (Proc.devRef .tc main_arg9) = m ((c : Thread nD τ).loc main_arg9) :=
  (W2_of_ne m ρ c main_arg9 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg9) = W0 m ρ c (Proc.devRef .tc main_arg9))

theorem W2_arg10 (c : Dev nD) : W2 m ρ c (Proc.devRef .tc main_arg10) = m ((c : Thread nD τ).loc main_arg10) :=
  (W2_of_ne m ρ c main_arg10 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg10) = W0 m ρ c (Proc.devRef .tc main_arg10))

theorem W2_arg11 (c : Dev nD) : W2 m ρ c (Proc.devRef .tc main_arg11) = m ((c : Thread nD τ).loc main_arg11) :=
  (W2_of_ne m ρ c main_arg11 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg11) = W0 m ρ c (Proc.devRef .tc main_arg11))

theorem W2_arg12 (c : Dev nD) : W2 m ρ c (Proc.devRef .tc main_arg12) = m ((c : Thread nD τ).loc main_arg12) :=
  (W2_of_ne m ρ c main_arg12 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg12) = W0 m ρ c (Proc.devRef .tc main_arg12))

theorem W2_arg13 (c : Dev nD) : W2 m ρ c (Proc.devRef .tc main_arg13) = m ((c : Thread nD τ).loc main_arg13) :=
  (W2_of_ne m ρ c main_arg13 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg13) = W0 m ρ c (Proc.devRef .tc main_arg13))

theorem W2_arg14 (c : Dev nD) : W2 m ρ c (Proc.devRef .tc main_arg14) = m ((c : Thread nD τ).loc main_arg14) :=
  (W2_of_ne m ρ c main_arg14 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg14) = W0 m ρ c (Proc.devRef .tc main_arg14))

theorem W2_arg15 (c : Dev nD) : W2 m ρ c (Proc.devRef .tc main_arg15) = m ((c : Thread nD τ).loc main_arg15) :=
  (W2_of_ne m ρ c main_arg15 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg15) = W0 m ρ c (Proc.devRef .tc main_arg15))

theorem W2_arg16 (c : Dev nD) : W2 m ρ c (Proc.devRef .tc main_arg16) = m ((c : Thread nD τ).loc main_arg16) :=
  (W2_of_ne m ρ c main_arg16 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg16) = W0 m ρ c (Proc.devRef .tc main_arg16))

theorem W2_arg17 (c : Dev nD) : W2 m ρ c (Proc.devRef .tc main_arg17) = m ((c : Thread nD τ).loc main_arg17) :=
  (W2_of_ne m ρ c main_arg17 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg17) = W0 m ρ c (Proc.devRef .tc main_arg17))

theorem W2_arg18 (c : Dev nD) : W2 m ρ c (Proc.devRef .tc main_arg18) = m ((c : Thread nD τ).loc main_arg18) :=
  (W2_of_ne m ρ c main_arg18 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg18) = W0 m ρ c (Proc.devRef .tc main_arg18))

theorem W2_arg19 (c : Dev nD) : W2 m ρ c (Proc.devRef .tc main_arg19) = m ((c : Thread nD τ).loc main_arg19) :=
  (W2_of_ne m ρ c main_arg19 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg19) = W0 m ρ c (Proc.devRef .tc main_arg19))

theorem W2_arg20 (c : Dev nD) : W2 m ρ c (Proc.devRef .tc main_arg20) = m ((c : Thread nD τ).loc main_arg20) :=
  (W2_of_ne m ρ c main_arg20 (by decide)).trans
    (StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps0 (W0 m ρ c) (Proc.devRef .tc main_arg20) = W0 m ρ c (Proc.devRef .tc main_arg20))

/-- Neither host stretch and no window of the graph kernel writes this argument: it is as launched. -/
theorem V3_arg8 (c : Dev nD) : V3 m ρ c main_arg8 = m ((c : Thread nD τ).loc main_arg8) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg8) = W2 m ρ c (Proc.devRef .tc main_arg8))).trans (W2_arg8 m ρ c)

/-- Neither host stretch and no window of the graph kernel writes this argument: it is as launched. -/
theorem V3_arg9 (c : Dev nD) : V3 m ρ c main_arg9 = m ((c : Thread nD τ).loc main_arg9) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg9) = W2 m ρ c (Proc.devRef .tc main_arg9))).trans (W2_arg9 m ρ c)

/-- Neither host stretch and no window of the graph kernel writes this argument: it is as launched. -/
theorem V3_arg10 (c : Dev nD) : V3 m ρ c main_arg10 = m ((c : Thread nD τ).loc main_arg10) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg10) = W2 m ρ c (Proc.devRef .tc main_arg10))).trans (W2_arg10 m ρ c)

/-- Neither host stretch and no window of the graph kernel writes this argument: it is as launched. -/
theorem V3_arg11 (c : Dev nD) : V3 m ρ c main_arg11 = m ((c : Thread nD τ).loc main_arg11) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg11) = W2 m ρ c (Proc.devRef .tc main_arg11))).trans (W2_arg11 m ρ c)

/-- Neither host stretch and no window of the graph kernel writes this argument: it is as launched. -/
theorem V3_arg12 (c : Dev nD) : V3 m ρ c main_arg12 = m ((c : Thread nD τ).loc main_arg12) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg12) = W2 m ρ c (Proc.devRef .tc main_arg12))).trans (W2_arg12 m ρ c)

/-- Neither host stretch and no window of the graph kernel writes this argument: it is as launched. -/
theorem V3_arg14 (c : Dev nD) : V3 m ρ c main_arg14 = m ((c : Thread nD τ).loc main_arg14) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg14) = W2 m ρ c (Proc.devRef .tc main_arg14))).trans (W2_arg14 m ρ c)

/-- Neither host stretch and no window of the graph kernel writes this argument: it is as launched. -/
theorem V3_arg15 (c : Dev nD) : V3 m ρ c main_arg15 = m ((c : Thread nD τ).loc main_arg15) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg15) = W2 m ρ c (Proc.devRef .tc main_arg15))).trans (W2_arg15 m ρ c)

/-- Neither host stretch and no window of the graph kernel writes this argument: it is as launched. -/
theorem V3_arg16 (c : Dev nD) : V3 m ρ c main_arg16 = m ((c : Thread nD τ).loc main_arg16) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg16) = W2 m ρ c (Proc.devRef .tc main_arg16))).trans (W2_arg16 m ρ c)

/-- Neither host stretch and no window of the graph kernel writes this argument: it is as launched. -/
theorem V3_arg17 (c : Dev nD) : V3 m ρ c main_arg17 = m ((c : Thread nD τ).loc main_arg17) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg17) = W2 m ρ c (Proc.devRef .tc main_arg17))).trans (W2_arg17 m ρ c)

/-- Neither host stretch and no window of the graph kernel writes this argument: it is as launched. -/
theorem V3_arg18 (c : Dev nD) : V3 m ρ c main_arg18 = m ((c : Thread nD τ).loc main_arg18) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg18) = W2 m ρ c (Proc.devRef .tc main_arg18))).trans (W2_arg18 m ρ c)

/-- Neither host stretch and no window of the graph kernel writes this argument: it is as launched. -/
theorem V3_arg20 (c : Dev nD) : V3 m ρ c main_arg20 = m ((c : Thread nD τ).loc main_arg20) :=
  ((StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))) : StableHlo.after hostOps1 (W2 m ρ c) (Proc.devRef .tc main_arg20) = W2 m ρ c (Proc.devRef .tc main_arg20))).trans (W2_arg20 m ρ c)

/-- A converted head weight matrix: the conversion of the argument as launched. -/
theorem V3_v6 (c : Dev nD) : (V3 m ρ c main_v6 : S512x5760.Idx → Elt F .bf16)
    = truncf .bf16 (m ((c : Thread nD τ).loc main_arg7) : S512x5760.Idx → Elt F .f32) bitsLt_bf16_f32 := by
  show StableHlo.after hostOps1 (W2 m ρ c) (Proc.devRef .tc main_v6) = _
  after_results
  rw [W2_arg7 m ρ c]

/-- A converted head weight matrix: the conversion of the argument as launched. -/
theorem V3_v7 (c : Dev nD) : (V3 m ρ c main_v7 : S256x512.Idx → Elt F .bf16)
    = truncf .bf16 (m ((c : Thread nD τ).loc main_arg13) : S256x512.Idx → Elt F .f32) bitsLt_bf16_f32 := by
  show StableHlo.after hostOps1 (W2 m ρ c) (Proc.devRef .tc main_v7) = _
  after_results
  rw [W2_arg13 m ρ c]

/-- A converted head weight matrix: the conversion of the argument as launched. -/
theorem V3_v8 (c : Dev nD) : (V3 m ρ c main_v8 : S2x256.Idx → Elt F .bf16)
    = truncf .bf16 (m ((c : Thread nD τ).loc main_arg19) : S2x256.Idx → Elt F .f32) bitsLt_bf16_f32 := by
  show StableHlo.after hostOps1 (W2 m ρ c) (Proc.devRef .tc main_v8) = _
  after_results
  rw [W2_arg19 m ρ c]

/-- The head kernel's first operand is the graph kernel's result array, as its write-backs leave it, reshaped: entry
    (b, k) of the [4096,5760] array is entry (b, k / 64, k % 64) of the [4096,90,64] one. -/
theorem V3_v5_apply (c : Dev nD) (b : Fin 4096) (k : Fin 5760) :
    (V3 m ρ c main_v5 : S4096x5760.Idx → Elt F .bf16) (ix2 b k)
      = ((dat0 (V1 m ρ) c).arrAt 7 cfg0.N : S4096x90x64.Idx → Elt F .bf16)
          (ix3 b ⟨k.val / 64, by have := k.isLt; omega⟩ ⟨k.val % 64, Nat.mod_lt _ (by norm_num)⟩) := by
  have e : W2 m ρ c (Proc.devRef .tc main_v4) = (dat0 (V1 m ρ) c).arrAt 7 cfg0.N := W2_arr m ρ c 7
  show StableHlo.after hostOps1 (W2 m ρ c) (Proc.devRef .tc main_v5) (ix2 b k) = _
  after_results
  rw [e]
  refine shapeCast_apply _ _ _ _ ?_
  show ((⟨3, ![4096, 90, 64]⟩ : Shape).rowMajor (ix3 b ⟨k.val / 64, by have := k.isLt; omega⟩ ⟨k.val % 64, Nat.mod_lt _ (by norm_num)⟩)).val
      = ((⟨2, ![4096, 5760]⟩ : Shape).rowMajor (ix2 b k)).val
  rw [Shape.rowMajor_val_three, Shape.rowMajor_val_two]
  have := k.isLt
  show (b.val * 90 + k.val / 64) * 64 + k.val % 64 = b.val * 5760 + k.val
  omega

end Cert.KernelIdeal.Hand

end
-- ==== Proof.KBlocks.lean ====
/-
  Where the two kernels' blocks sit in their arrays.

  The graph kernel's grid has 128 points; at point t its input block is batch elements 32t … 32t + 31 of the signal and
  its output block the same batch elements of the [4096,90,64] result; the six weight and bias windows are whole arrays
  at every point.  The head kernel's grid has 4 points; at point t its input block is rows 1024t … 1024t + 1023 of the
  flattened graph output, its two output blocks the same rows of the two results; the fourteen parameter windows are
  whole arrays.  Every index of an output array lies in the block of the point its leading coordinate selects.
-/
import proofs.«169563_j52381421142390_2_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-! ## The graph kernel -/

/-- The moving windows' block indices, decided over the grid: block t along the batch axis. -/
theorem idx0_facts : ∀ t : Fin cfg0.N, win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The signal's block at point t, at (bb, n, f), is the signal at batch element 32t + bb. -/
theorem iblk0_0_apply (c : Dev nD) (t : Fin cfg0.N) (bb : Fin 32) (n : Fin 90) (f : Fin 195) (i : S4096x90x195.Idx)
    (h0 : (i 0).val = 32 * t.val + bb.val) (h1 : (i 1).val = n.val) (h2 : (i 2).val = f.val) :
    (iblk0 V c 0 t : Vec F S32x90x195 .f32) (ix3 bb n f) = (V c main_arg0 : S4096x90x195.Idx → Elt F .f32) i := by
  obtain ⟨e0, e1, e2, -⟩ := idx0_facts t
  unfold iblk0
  rw [View.read_apply]
  show V c main_arg0 _ = V c main_arg0 _
  congr 1
  funext a
  apply Fin.ext
  match a with
  | ⟨0, _⟩ => show win0_0.index t 0 * 32 + 1 * bb.val = (i 0).val; rw [e0, h0]; omega
  | ⟨1, _⟩ => show win0_0.index t 1 * 90 + 1 * n.val = (i 1).val; rw [e1, h1]; omega
  | ⟨2, _⟩ => show win0_0.index t 2 * 195 + 1 * f.val = (i 2).val; rw [e2, h2]; omega

theorem idx0_1 : ∀ t : Fin cfg0.N, win0_1.index t = fun _ => 0 :=
  (by decide +kernel : ∀ t : Fin grid0.N, _)

/-- The window's block is its whole array at every point. -/
theorem iblk0_1_eq (c : Dev nD) (t : Fin cfg0.N) :
    (iblk0 V c 1 t : Vec F S128x195 .bf16) = (V c main_v0 : S128x195.Idx → Elt F .bf16) := by
  unfold iblk0
  funext j
  rw [View.read_apply]
  show V c main_v0 _ = V c main_v0 _
  congr 1
  funext a
  apply Fin.ext
  match a with
  | ⟨0, _⟩ => show win0_1.index t 0 * 128 + 1 * (j 0).val = (j 0).val; rw [show win0_1.index t (0 : Fin 2) = 0 from congrFun (idx0_1 t) 0]; omega
  | ⟨1, _⟩ => show win0_1.index t 1 * 195 + 1 * (j 1).val = (j 1).val; rw [show win0_1.index t (1 : Fin 2) = 0 from congrFun (idx0_1 t) 1]; omega

theorem idx0_2 : ∀ t : Fin cfg0.N, win0_2.index t = fun _ => 0 :=
  (by decide +kernel : ∀ t : Fin grid0.N, _)

/-- The window's block is its whole array at every point. -/
theorem iblk0_2_eq (c : Dev nD) (t : Fin cfg0.N) :
    (iblk0 V c 2 t : Vec F S128 .f32) = (V c main_arg2 : S128.Idx → Elt F .f32) := by
  unfold iblk0
  funext j
  rw [View.read_apply]
  show V c main_arg2 _ = V c main_arg2 _
  congr 1
  funext a
  apply Fin.ext
  match a with
  | ⟨0, _⟩ => show win0_2.index t 0 * 128 + 1 * (j 0).val = (j 0).val; rw [show win0_2.index t (0 : Fin 1) = 0 from congrFun (idx0_2 t) 0]; omega

theorem idx0_3 : ∀ t : Fin cfg0.N, win0_3.index t = fun _ => 0 :=
  (by decide +kernel : ∀ t : Fin grid0.N, _)

/-- The window's block is its whole array at every point. -/
theorem iblk0_3_eq (c : Dev nD) (t : Fin cfg0.N) :
    (iblk0 V c 3 t : Vec F S128x195 .bf16) = (V c main_v1 : S128x195.Idx → Elt F .bf16) := by
  unfold iblk0
  funext j
  rw [View.read_apply]
  show V c main_v1 _ = V c main_v1 _
  congr 1
  funext a
  apply Fin.ext
  match a with
  | ⟨0, _⟩ => show win0_3.index t 0 * 128 + 1 * (j 0).val = (j 0).val; rw [show win0_3.index t (0 : Fin 2) = 0 from congrFun (idx0_3 t) 0]; omega
  | ⟨1, _⟩ => show win0_3.index t 1 * 195 + 1 * (j 1).val = (j 1).val; rw [show win0_3.index t (1 : Fin 2) = 0 from congrFun (idx0_3 t) 1]; omega

theorem idx0_4 : ∀ t : Fin cfg0.N, win0_4.index t = fun _ => 0 :=
  (by decide +kernel : ∀ t : Fin grid0.N, _)

/-- The window's block is its whole array at every point. -/
theorem iblk0_4_eq (c : Dev nD) (t : Fin cfg0.N) :
    (iblk0 V c 4 t : Vec F S64x128 .bf16) = (V c main_v2 : S64x128.Idx → Elt F .bf16) := by
  unfold iblk0
  funext j
  rw [View.read_apply]
  show V c main_v2 _ = V c main_v2 _
  congr 1
  funext a
  apply Fin.ext
  match a with
  | ⟨0, _⟩ => show win0_4.index t 0 * 64 + 1 * (j 0).val = (j 0).val; rw [show win0_4.index t (0 : Fin 2) = 0 from congrFun (idx0_4 t) 0]; omega
  | ⟨1, _⟩ => show win0_4.index t 1 * 128 + 1 * (j 1).val = (j 1).val; rw [show win0_4.index t (1 : Fin 2) = 0 from congrFun (idx0_4 t) 1]; omega

theorem idx0_5 : ∀ t : Fin cfg0.N, win0_5.index t = fun _ => 0 :=
  (by decide +kernel : ∀ t : Fin grid0.N, _)

/-- The window's block is its whole array at every point. -/
theorem iblk0_5_eq (c : Dev nD) (t : Fin cfg0.N) :
    (iblk0 V c 5 t : Vec F S64 .f32) = (V c main_arg5 : S64.Idx → Elt F .f32) := by
  unfold iblk0
  funext j
  rw [View.read_apply]
  show V c main_arg5 _ = V c main_arg5 _
  congr 1
  funext a
  apply Fin.ext
  match a with
  | ⟨0, _⟩ => show win0_5.index t 0 * 64 + 1 * (j 0).val = (j 0).val; rw [show win0_5.index t (0 : Fin 1) = 0 from congrFun (idx0_5 t) 0]; omega

theorem idx0_6 : ∀ t : Fin cfg0.N, win0_6.index t = fun _ => 0 :=
  (by decide +kernel : ∀ t : Fin grid0.N, _)

/-- The window's block is its whole array at every point. -/
theorem iblk0_6_eq (c : Dev nD) (t : Fin cfg0.N) :
    (iblk0 V c 6 t : Vec F S64x128 .bf16) = (V c main_v3 : S64x128.Idx → Elt F .bf16) := by
  unfold iblk0
  funext j
  rw [View.read_apply]
  show V c main_v3 _ = V c main_v3 _
  congr 1
  funext a
  apply Fin.ext
  match a with
  | ⟨0, _⟩ => show win0_6.index t 0 * 64 + 1 * (j 0).val = (j 0).val; rw [show win0_6.index t (0 : Fin 2) = 0 from congrFun (idx0_6 t) 0]; omega
  | ⟨1, _⟩ => show win0_6.index t 1 * 128 + 1 * (j 1).val = (j 1).val; rw [show win0_6.index t (1 : Fin 2) = 0 from congrFun (idx0_6 t) 1]; omega

/-- The output block's coordinate (bb, n, o) at point t sits at batch element 32t + bb of the result array. -/
theorem emb0_7 (t : Fin cfg0.N) (bb : Fin 32) (n : Fin 90) (o : Fin 64) (i : S4096x90x64.Idx)
    (h0 : (i 0).val = 32 * t.val + bb.val) (h1 : (i 1).val = n.val) (h2 : (i 2).val = o.val) :
    ((cfg0.win 7).blk t).view.emb (ix3 bb n o) = i := by
  obtain ⟨-, -, -, e0, e1, e2⟩ := idx0_facts t
  funext a
  apply Fin.ext
  match a with
  | ⟨0, _⟩ => show win0_7.index t 0 * 32 + 1 * bb.val = (i 0).val; rw [e0, h0]; omega
  | ⟨1, _⟩ => show win0_7.index t 1 * 90 + 1 * n.val = (i 1).val; rw [e1, h1]; omega
  | ⟨2, _⟩ => show win0_7.index t 2 * 64 + 1 * o.val = (i 2).val; rw [e2, h2]; omega

/-- Every index of the result array is in the block of point (batch element) / 32. -/
theorem cover0_7' (i : S4096x90x64.Idx) : ∃ t : Fin cfg0.N, (cfg0.win 7).flush t = true ∧ i ∈ ((cfg0.win 7).blk t).view.set := by
  have hi0 : (i 0).val < 4096 := (i 0).isLt
  have hi1 : (i 1).val < 90 := (i 1).isLt
  have hi2 : (i 2).val < 64 := (i 2).isLt
  have hN : cfg0.N = 128 := N_0
  let t : Fin cfg0.N := ⟨(i 0).val / 32, by rw [hN]; omega⟩
  obtain ⟨-, -, -, e0, e1, e2⟩ := idx0_facts t
  have ht : t.val = (i 0).val / 32 := rfl
  refine ⟨t, flush0_7 t, ?_⟩
  show i ∈ ((View.whole main_v4).slice (win0_7.rect t)).set
  rw [View.set_slice_whole, Rect.mem_set_unit]
  intro a
  match a with
  | ⟨0, _⟩ => show win0_7.index t 0 * 32 ≤ (i 0).val ∧ (i 0).val < win0_7.index t 0 * 32 + 32; rw [e0, ht]; omega
  | ⟨1, _⟩ => show win0_7.index t 1 * 90 ≤ (i 1).val ∧ (i 1).val < win0_7.index t 1 * 90 + 90; rw [e1]; omega
  | ⟨2, _⟩ => show win0_7.index t 2 * 64 ≤ (i 2).val ∧ (i 2).val < win0_7.index t 2 * 64 + 64; rw [e2]; omega

/-! ## The head kernel -/

/-- The moving windows' block indices, decided over the grid: block t along the row axis. -/
theorem idx1_facts : ∀ t : Fin cfg1.N, win1_0.index t (0 : Fin 2) = t.val ∧ win1_0.index t (1 : Fin 2) = 0
    ∧ win1_15.index t (0 : Fin 2) = t.val ∧ win1_15.index t (1 : Fin 2) = 0
    ∧ win1_16.index t (0 : Fin 2) = t.val ∧ win1_16.index t (1 : Fin 2) = 0 :=
  (by decide +kernel : ∀ t : Fin grid1.N, _)

/-- The flattened graph output's block at point t, at (r, k), is row 1024t + r of the array. -/
theorem iblk1_0_apply (c : Dev nD) (t : Fin cfg1.N) (r : Fin 1024) (k : Fin 5760) (i : S4096x5760.Idx)
    (h0 : (i 0).val = 1024 * t.val + r.val) (h1 : (i 1).val = k.val) :
    (iblk1 V c 0 t : Vec F S1024x5760 .bf16) (ix2 r k) = (V c main_v5 : S4096x5760.Idx → Elt F .bf16) i := by
  obtain ⟨e0, e1, -⟩ := idx1_facts t
  unfold iblk1
  rw [View.read_apply]
  show V c main_v5 _ = V c main_v5 _
  congr 1
  funext a
  apply Fin.ext
  match a with
  | ⟨0, _⟩ => show win1_0.index t 0 * 1024 + 1 * r.val = (i 0).val; rw [e0, h0]; omega
  | ⟨1, _⟩ => show win1_0.index t 1 * 5760 + 1 * k.val = (i 1).val; rw [e1, h1]; omega

theorem idx1_1 : ∀ t : Fin cfg1.N, win1_1.index t = fun _ => 0 :=
  (by decide +kernel : ∀ t : Fin grid1.N, _)

/-- The window's block is its whole array at every point. -/
theorem iblk1_1_eq (c : Dev nD) (t : Fin cfg1.N) :
    (iblk1 V c 1 t : Vec F S512x5760 .bf16) = (V c main_v6 : S512x5760.Idx → Elt F .bf16) := by
  unfold iblk1
  funext j
  rw [View.read_apply]
  show V c main_v6 _ = V c main_v6 _
  congr 1
  funext a
  apply Fin.ext
  match a with
  | ⟨0, _⟩ => show win1_1.index t 0 * 512 + 1 * (j 0).val = (j 0).val; rw [show win1_1.index t (0 : Fin 2) = 0 from congrFun (idx1_1 t) 0]; omega
  | ⟨1, _⟩ => show win1_1.index t 1 * 5760 + 1 * (j 1).val = (j 1).val; rw [show win1_1.index t (1 : Fin 2) = 0 from congrFun (idx1_1 t) 1]; omega

theorem idx1_2 : ∀ t : Fin cfg1.N, win1_2.index t = fun _ => 0 :=
  (by decide +kernel : ∀ t : Fin grid1.N, _)

/-- The window's block is its whole array at every point. -/
theorem iblk1_2_eq (c : Dev nD) (t : Fin cfg1.N) :
    (iblk1 V c 2 t : Vec F S512 .f32) = (V c main_arg8 : S512.Idx → Elt F .f32) := by
  unfold iblk1
  funext j
  rw [View.read_apply]
  show V c main_arg8 _ = V c main_arg8 _
  congr 1
  funext a
  apply Fin.ext
  match a with
  | ⟨0, _⟩ => show win1_2.index t 0 * 512 + 1 * (j 0).val = (j 0).val; rw [show win1_2.index t (0 : Fin 1) = 0 from congrFun (idx1_2 t) 0]; omega

theorem idx1_3 : ∀ t : Fin cfg1.N, win1_3.index t = fun _ => 0 :=
  (by decide +kernel : ∀ t : Fin grid1.N, _)

/-- The window's block is its whole array at every point. -/
theorem iblk1_3_eq (c : Dev nD) (t : Fin cfg1.N) :
    (iblk1 V c 3 t : Vec F S512 .f32) = (V c main_arg9 : S512.Idx → Elt F .f32) := by
  unfold iblk1
  funext j
  rw [View.read_apply]
  show V c main_arg9 _ = V c main_arg9 _
  congr 1
  funext a
  apply Fin.ext
  match a with
  | ⟨0, _⟩ => show win1_3.index t 0 * 512 + 1 * (j 0).val = (j 0).val; rw [show win1_3.index t (0 : Fin 1) = 0 from congrFun (idx1_3 t) 0]; omega

theorem idx1_4 : ∀ t : Fin cfg1.N, win1_4.index t = fun _ => 0 :=
  (by decide +kernel : ∀ t : Fin grid1.N, _)

/-- The window's block is its whole array at every point. -/
theorem iblk1_4_eq (c : Dev nD) (t : Fin cfg1.N) :
    (iblk1 V c 4 t : Vec F S512 .f32) = (V c main_arg10 : S512.Idx → Elt F .f32) := by
  unfold iblk1
  funext j
  rw [View.read_apply]
  show V c main_arg10 _ = V c main_arg10 _
  congr 1
  funext a
  apply Fin.ext
  match a with
  | ⟨0, _⟩ => show win1_4.index t 0 * 512 + 1 * (j 0).val = (j 0).val; rw [show win1_4.index t (0 : Fin 1) = 0 from congrFun (idx1_4 t) 0]; omega

theorem idx1_5 : ∀ t : Fin cfg1.N, win1_5.index t = fun _ => 0 :=
  (by decide +kernel : ∀ t : Fin grid1.N, _)

/-- The window's block is its whole array at every point. -/
theorem iblk1_5_eq (c : Dev nD) (t : Fin cfg1.N) :
    (iblk1 V c 5 t : Vec F S512 .f32) = (V c main_arg11 : S512.Idx → Elt F .f32) := by
  unfold iblk1
  funext j
  rw [View.read_apply]
  show V c main_arg11 _ = V c main_arg11 _
  congr 1
  funext a
  apply Fin.ext
  match a with
  | ⟨0, _⟩ => show win1_5.index t 0 * 512 + 1 * (j 0).val = (j 0).val; rw [show win1_5.index t (0 : Fin 1) = 0 from congrFun (idx1_5 t) 0]; omega

theorem idx1_6 : ∀ t : Fin cfg1.N, win1_6.index t = fun _ => 0 :=
  (by decide +kernel : ∀ t : Fin grid1.N, _)

/-- The window's block is its whole array at every point. -/
theorem iblk1_6_eq (c : Dev nD) (t : Fin cfg1.N) :
    (iblk1 V c 6 t : Vec F S512 .f32) = (V c main_arg12 : S512.Idx → Elt F .f32) := by
  unfold iblk1
  funext j
  rw [View.read_apply]
  show V c main_arg12 _ = V c main_arg12 _
  congr 1
  funext a
  apply Fin.ext
  match a with
  | ⟨0, _⟩ => show win1_6.index t 0 * 512 + 1 * (j 0).val = (j 0).val; rw [show win1_6.index t (0 : Fin 1) = 0 from congrFun (idx1_6 t) 0]; omega

theorem idx1_7 : ∀ t : Fin cfg1.N, win1_7.index t = fun _ => 0 :=
  (by decide +kernel : ∀ t : Fin grid1.N, _)

/-- The window's block is its whole array at every point. -/
theorem iblk1_7_eq (c : Dev nD) (t : Fin cfg1.N) :
    (iblk1 V c 7 t : Vec F S256x512 .bf16) = (V c main_v7 : S256x512.Idx → Elt F .bf16) := by
  unfold iblk1
  funext j
  rw [View.read_apply]
  show V c main_v7 _ = V c main_v7 _
  congr 1
  funext a
  apply Fin.ext
  match a with
  | ⟨0, _⟩ => show win1_7.index t 0 * 256 + 1 * (j 0).val = (j 0).val; rw [show win1_7.index t (0 : Fin 2) = 0 from congrFun (idx1_7 t) 0]; omega
  | ⟨1, _⟩ => show win1_7.index t 1 * 512 + 1 * (j 1).val = (j 1).val; rw [show win1_7.index t (1 : Fin 2) = 0 from congrFun (idx1_7 t) 1]; omega

theorem idx1_8 : ∀ t : Fin cfg1.N, win1_8.index t = fun _ => 0 :=
  (by decide +kernel : ∀ t : Fin grid1.N, _)

/-- The window's block is its whole array at every point. -/
theorem iblk1_8_eq (c : Dev nD) (t : Fin cfg1.N) :
    (iblk1 V c 8 t : Vec F S256 .f32) = (V c main_arg14 : S256.Idx → Elt F .f32) := by
  unfold iblk1
  funext j
  rw [View.read_apply]
  show V c main_arg14 _ = V c main_arg14 _
  congr 1
  funext a
  apply Fin.ext
  match a with
  | ⟨0, _⟩ => show win1_8.index t 0 * 256 + 1 * (j 0).val = (j 0).val; rw [show win1_8.index t (0 : Fin 1) = 0 from congrFun (idx1_8 t) 0]; omega

theorem idx1_9 : ∀ t : Fin cfg1.N, win1_9.index t = fun _ => 0 :=
  (by decide +kernel : ∀ t : Fin grid1.N, _)

/-- The window's block is its whole array at every point. -/
theorem iblk1_9_eq (c : Dev nD) (t : Fin cfg1.N) :
    (iblk1 V c 9 t : Vec F S256 .f32) = (V c main_arg15 : S256.Idx → Elt F .f32) := by
  unfold iblk1
  funext j
  rw [View.read_apply]
  show V c main_arg15 _ = V c main_arg15 _
  congr 1
  funext a
  apply Fin.ext
  match a with
  | ⟨0, _⟩ => show win1_9.index t 0 * 256 + 1 * (j 0).val = (j 0).val; rw [show win1_9.index t (0 : Fin 1) = 0 from congrFun (idx1_9 t) 0]; omega

theorem idx1_10 : ∀ t : Fin cfg1.N, win1_10.index t = fun _ => 0 :=
  (by decide +kernel : ∀ t : Fin grid1.N, _)

/-- The window's block is its whole array at every point. -/
theorem iblk1_10_eq (c : Dev nD) (t : Fin cfg1.N) :
    (iblk1 V c 10 t : Vec F S256 .f32) = (V c main_arg16 : S256.Idx → Elt F .f32) := by
  unfold iblk1
  funext j
  rw [View.read_apply]
  show V c main_arg16 _ = V c main_arg16 _
  congr 1
  funext a
  apply Fin.ext
  match a with
  | ⟨0, _⟩ => show win1_10.index t 0 * 256 + 1 * (j 0).val = (j 0).val; rw [show win1_10.index t (0 : Fin 1) = 0 from congrFun (idx1_10 t) 0]; omega

theorem idx1_11 : ∀ t : Fin cfg1.N, win1_11.index t = fun _ => 0 :=
  (by decide +kernel : ∀ t : Fin grid1.N, _)

/-- The window's block is its whole array at every point. -/
theorem iblk1_11_eq (c : Dev nD) (t : Fin cfg1.N) :
    (iblk1 V c 11 t : Vec F S256 .f32) = (V c main_arg17 : S256.Idx → Elt F .f32) := by
  unfold iblk1
  funext j
  rw [View.read_apply]
  show V c main_arg17 _ = V c main_arg17 _
  congr 1
  funext a
  apply Fin.ext
  match a with
  | ⟨0, _⟩ => show win1_11.index t 0 * 256 + 1 * (j 0).val = (j 0).val; rw [show win1_11.index t (0 : Fin 1) = 0 from congrFun (idx1_11 t) 0]; omega

theorem idx1_12 : ∀ t : Fin cfg1.N, win1_12.index t = fun _ => 0 :=
  (by decide +kernel : ∀ t : Fin grid1.N, _)

/-- The window's block is its whole array at every point. -/
theorem iblk1_12_eq (c : Dev nD) (t : Fin cfg1.N) :
    (iblk1 V c 12 t : Vec F S256 .f32) = (V c main_arg18 : S256.Idx → Elt F .f32) := by
  unfold iblk1
  funext j
  rw [View.read_apply]
  show V c main_arg18 _ = V c main_arg18 _
  congr 1
  funext a
  apply Fin.ext
  match a with
  | ⟨0, _⟩ => show win1_12.index t 0 * 256 + 1 * (j 0).val = (j 0).val; rw [show win1_12.index t (0 : Fin 1) = 0 from congrFun (idx1_12 t) 0]; omega

theorem idx1_13 : ∀ t : Fin cfg1.N, win1_13.index t = fun _ => 0 :=
  (by decide +kernel : ∀ t : Fin grid1.N, _)

/-- The window's block is its whole array at every point. -/
theorem iblk1_13_eq (c : Dev nD) (t : Fin cfg1.N) :
    (iblk1 V c 13 t : Vec F S2x256 .bf16) = (V c main_v8 : S2x256.Idx → Elt F .bf16) := by
  unfold iblk1
  funext j
  rw [View.read_apply]
  show V c main_v8 _ = V c main_v8 _
  congr 1
  funext a
  apply Fin.ext
  match a with
  | ⟨0, _⟩ => show win1_13.index t 0 * 2 + 1 * (j 0).val = (j 0).val; rw [show win1_13.index t (0 : Fin 2) = 0 from congrFun (idx1_13 t) 0]; omega
  | ⟨1, _⟩ => show win1_13.index t 1 * 256 + 1 * (j 1).val = (j 1).val; rw [show win1_13.index t (1 : Fin 2) = 0 from congrFun (idx1_13 t) 1]; omega

theorem idx1_14 : ∀ t : Fin cfg1.N, win1_14.index t = fun _ => 0 :=
  (by decide +kernel : ∀ t : Fin grid1.N, _)

/-- The window's block is its whole array at every point. -/
theorem iblk1_14_eq (c : Dev nD) (t : Fin cfg1.N) :
    (iblk1 V c 14 t : Vec F S2 .f32) = (V c main_arg20 : S2.Idx → Elt F .f32) := by
  unfold iblk1
  funext j
  rw [View.read_apply]
  show V c main_arg20 _ = V c main_arg20 _
  congr 1
  funext a
  apply Fin.ext
  match a with
  | ⟨0, _⟩ => show win1_14.index t 0 * 2 + 1 * (j 0).val = (j 0).val; rw [show win1_14.index t (0 : Fin 1) = 0 from congrFun (idx1_14 t) 0]; omega

/-- Output window 15's block coordinate (r, j) at point t sits at row 1024t + r of its result array. -/
theorem emb1_15 (t : Fin cfg1.N) (r : Fin 1024) (j : Fin 2) (i : S4096x2.Idx)
    (h0 : (i 0).val = 1024 * t.val + r.val) (h1 : (i 1).val = j.val) :
    ((cfg1.win 15).blk t).view.emb (ix2 r j) = i := by
  have e0 : win1_15.index t (0 : Fin 2) = t.val := (idx1_facts t).2.2.1
  have e1 : win1_15.index t (1 : Fin 2) = 0 := (idx1_facts t).2.2.2.1
  funext a
  apply Fin.ext
  match a with
  | ⟨0, _⟩ => show win1_15.index t 0 * 1024 + 1 * r.val = (i 0).val; rw [e0, h0]; omega
  | ⟨1, _⟩ => show win1_15.index t 1 * 2 + 1 * j.val = (i 1).val; rw [e1, h1]; omega

/-- Every index of result array 15 is in the block of point (row) / 1024. -/
theorem cover1_15' (i : S4096x2.Idx) : ∃ t : Fin cfg1.N, (cfg1.win 15).flush t = true ∧ i ∈ ((cfg1.win 15).blk t).view.set := by
  have hi0 : (i 0).val < 4096 := (i 0).isLt
  have hi1 : (i 1).val < 2 := (i 1).isLt
  have hN : cfg1.N = 4 := N_1
  let t : Fin cfg1.N := ⟨(i 0).val / 1024, by rw [hN]; omega⟩
  have e0 : win1_15.index t (0 : Fin 2) = t.val := (idx1_facts t).2.2.1
  have e1 : win1_15.index t (1 : Fin 2) = 0 := (idx1_facts t).2.2.2.1
  have ht : t.val = (i 0).val / 1024 := rfl
  refine ⟨t, flush1_15 t, ?_⟩
  show i ∈ ((View.whole main_v9_0).slice (win1_15.rect t)).set
  rw [View.set_slice_whole, Rect.mem_set_unit]
  intro a
  match a with
  | ⟨0, _⟩ => show win1_15.index t 0 * 1024 ≤ (i 0).val ∧ (i 0).val < win1_15.index t 0 * 1024 + 1024; rw [e0, ht]; omega
  | ⟨1, _⟩ => show win1_15.index t 1 * 2 ≤ (i 1).val ∧ (i 1).val < win1_15.index t 1 * 2 + 2; rw [e1]; omega

/-- Output window 16's block coordinate (r, j) at point t sits at row 1024t + r of its result array. -/
theorem emb1_16 (t : Fin cfg1.N) (r : Fin 1024) (j : Fin 256) (i : S4096x256.Idx)
    (h0 : (i 0).val = 1024 * t.val + r.val) (h1 : (i 1).val = j.val) :
    ((cfg1.win 16).blk t).view.emb (ix2 r j) = i := by
  have e0 : win1_16.index t (0 : Fin 2) = t.val := (idx1_facts t).2.2.2.2.1
  have e1 : win1_16.index t (1 : Fin 2) = 0 := (idx1_facts t).2.2.2.2.2
  funext a
  apply Fin.ext
  match a with
  | ⟨0, _⟩ => show win1_16.index t 0 * 1024 + 1 * r.val = (i 0).val; rw [e0, h0]; omega
  | ⟨1, _⟩ => show win1_16.index t 1 * 256 + 1 * j.val = (i 1).val; rw [e1, h1]; omega

/-- Every index of result array 16 is in the block of point (row) / 1024. -/
theorem cover1_16' (i : S4096x256.Idx) : ∃ t : Fin cfg1.N, (cfg1.win 16).flush t = true ∧ i ∈ ((cfg1.win 16).blk t).view.set := by
  have hi0 : (i 0).val < 4096 := (i 0).isLt
  have hi1 : (i 1).val < 256 := (i 1).isLt
  have hN : cfg1.N = 4 := N_1
  let t : Fin cfg1.N := ⟨(i 0).val / 1024, by rw [hN]; omega⟩
  have e0 : win1_16.index t (0 : Fin 2) = t.val := (idx1_facts t).2.2.2.2.1
  have e1 : win1_16.index t (1 : Fin 2) = 0 := (idx1_facts t).2.2.2.2.2
  have ht : t.val = (i 0).val / 1024 := rfl
  refine ⟨t, flush1_16 t, ?_⟩
  show i ∈ ((View.whole main_v9_1).slice (win1_16.rect t)).set
  rw [View.set_slice_whole, Rect.mem_set_unit]
  intro a
  match a with
  | ⟨0, _⟩ => show win1_16.index t 0 * 1024 ≤ (i 0).val ∧ (i 0).val < win1_16.index t 0 * 1024 + 1024; rw [e0, ht]; omega
  | ⟨1, _⟩ => show win1_16.index t 1 * 256 ≤ (i 1).val ∧ (i 1).val < win1_16.index t 1 * 256 + 256; rw [e1]; omega

end Cert.KernelIdeal.Hand

end
-- ==== Proof.KRun.lean ====
/-
  The idealized kernel program's run with its two result arrays NAMED.

  @main is four stretches: four host conversions of the weights, the graph kernel over 128 blocks of 32 batch
  elements, a host reshape [4096,90,64] → [4096,5760] with three more conversions, and the head kernel over 4 blocks of
  1024 rows.  The buffer contents at the four boundaries are the fold `W0 … W4` of the generated frame; the run ends
  with every unscoped buffer at `W4`, so each result array is `W4` at its buffer — what the head kernel's
  write-backs leave there.
-/
import proofs.«169563_j52381421142390_2_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the two result arrays at the last boundary's contents and the
    arguments as launched: the launch over the four segments, the last thread state read against the final state. -/
theorem run_vals : θ_run defs (onTc (τ := τ) (main (F := F))) ⟨m, fun _ => 0, ρ⟩ (fun r => ∀ c : Dev nD,
      r.2.mem ((c.tc : Thread nD τ).loc main_v9_0) = W4 m ρ c (Proc.devRef .tc main_v9_0)
      ∧ r.2.mem ((c.tc : Thread nD τ).loc main_v9_1) = W4 m ρ c (Proc.devRef .tc main_v9_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v9_0 (by decide)), h c _ (mem_uc main_v9_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c)⟩)

end Cert.KernelIdeal.Hand

end
-- ==== Proof.KValue.lean ====
/-
  What the idealized kernel program's result arrays hold after the run, as functions of the arguments as launched.

  The graph kernel's result array holds, at (b, n, o), the two graph layers (the kernel's way of aggregating) of batch
  element b: what grid point t writes back is block t of that one function, because its input block is batch elements
  32t … 32t + 31 of the signal and its other windows are the whole (converted) weight arrays, and the blocks cover the
  array.  The head kernel's first operand is that array reshaped, so its row b is the flattened graph output of batch
  element b; its two result arrays hold, at row b, the head's normalised activations and the soft-max of its logits of
  that row, by the same argument over its 4 grid points.

  The three facts about the kernels' arithmetic — each stored value, at a coordinate, as the specification's function of
  the loaded blocks — are hypotheses here (`hsage`, `hout`, `hprobs`).
-/
import proofs.«169563_j52381421142390_2_alg».proof.Proof.Gen.KernelIdeal.Frame
import proofs.«169563_j52381421142390_2_alg».proof.Proof.Spec
import proofs.«169563_j52381421142390_2_alg».proof.Proof.KReads
import proofs.«169563_j52381421142390_2_alg».proof.Proof.KBlocks
import proofs.«169563_j52381421142390_2_alg».proof.Proof.KRun
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A launch array as a table over its coordinates. -/
abbrev tab1 {a : ℕ} (v : (⟨1, ![a]⟩ : Shape).Idx → EReal) : Fin a → EReal := fun p => v (ix1 p)
abbrev tab2 {a b : ℕ} (v : (⟨2, ![a, b]⟩ : Shape).Idx → EReal) : Fin a → Fin b → EReal := fun p q => v (ix2 p q)

/-- Batch element b of the signal as launched. -/
abbrev sig0 (c : Dev nD) (b : Fin 4096) : Fin 90 → Fin 195 → EReal :=
  fun n f => (m ((c : Thread nD τ).loc main_arg0) : S4096x90x195.Idx → EReal) (ix3 b n f)

/-! ## The graph kernel's result array -/

/-- At (b, n, o): the two graph layers of batch element b, aggregating the kernel's way. -/
def G0c (c : Dev nD) (b : Fin 4096) (n : Fin 90) (o : Fin 64) : EReal :=
  Cert.GraphSpec.sageK (sig0 m c b) (tab2 (m ((c : Thread nD τ).loc main_arg1) : S128x195.Idx → EReal)) (tab1 (m ((c : Thread nD τ).loc main_arg2) : S128.Idx → EReal)) (tab2 (m ((c : Thread nD τ).loc main_arg3) : S128x195.Idx → EReal)) (tab2 (m ((c : Thread nD τ).loc main_arg4) : S64x128.Idx → EReal)) (tab1 (m ((c : Thread nD τ).loc main_arg5) : S64.Idx → EReal)) (tab2 (m ((c : Thread nD τ).loc main_arg6) : S64x128.Idx → EReal)) n o

def G0 (c : Dev nD) : S4096x90x64.Idx → EReal :=
  fun i => G0c m c ⟨(i 0).val, (i 0).isLt⟩ ⟨(i 1).val, (i 1).isLt⟩ ⟨(i 2).val, (i 2).isLt⟩

section Region0

variable (hsage : ∀ (x0 : Vec Ideal S32x90x195 .f32) (x1 : Vec Ideal S128x195 .bf16) (x2 : Vec Ideal S128 .f32) (x3 : Vec Ideal S128x195 .bf16) (x4 : Vec Ideal S64x128 .bf16) (x5 : Vec Ideal S64 .f32) (x6 : Vec Ideal S64x128 .bf16)
      (bb : Fin 32) (n : Fin 90) (o : Fin 64),
    k0_pay1 (F := Ideal) (k0_pay2 x0) (k0_pay4 x3) x2 (k0_pay5 x0) (k0_pay6 x0 x1) x4 x6 x5 (ix3 bb n o)
      = Cert.GraphSpec.sageK (fun n f => x0 (ix3 bb n f)) (fun h f => x1 (ix2 h f)) (fun h => x2 (ix1 h)) (fun h f => x3 (ix2 h f)) (fun o h => x4 (ix2 o h)) (fun o => x5 (ix1 o)) (fun o h => x6 (ix2 o h)) n o)

include hsage in
/-- What grid point t writes back is block t of `G0`. -/
theorem flushed0_7_eq (c : Dev nD) (t : Fin cfg0.N) :
    (dat0 (V1 m ρ) c).flushed 7 t = ((cfg0.win 7).blk t).view.read (Elt Ideal) (G0 m c) := by
  show (cfg0.win 7).cut (grid0.coords t) ((dat0 (V1 m ρ) c).after 7 t) = _
  rw [after0_7]
  unfold out0_7
  rw [View.canon_unit_zero hz3]
  simp only [View.ld_unit_zero (S := S32x90x195) hz3, View.ld_unit_zero (S := S128x195) hz2, View.ld_unit_zero (S := S128) hz1,
    View.ld_unit_zero (S := S64x128) hz2, View.ld_unit_zero (S := S64) hz1]
  funext j
  obtain ⟨bb, n, o, rfl⟩ : ∃ (bb : Fin 32) (n : Fin 90) (o : Fin 64), j = ix3 bb n o := ⟨j 0, j 1, j 2, eq_ix3 j⟩
  have ht : t.val < 128 := by have h := t.isLt; have hN : cfg0.N = 128 := N_0; omega
  have hb : 32 * t.val + bb.val < 4096 := by have := bb.isLt; omega
  rw [View.read_apply, emb0_7 t bb n o (ix3 ⟨32 * t.val + bb.val, hb⟩ n o) rfl rfl rfl]
  refine (hsage (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) bb n o).trans ?_
  have e0 : (fun n f => (iblk0 (V1 m ρ) c 0 t : Vec Ideal S32x90x195 .f32) (ix3 bb n f)) = sig0 m c ⟨32 * t.val + bb.val, hb⟩ :=
    funext fun n => funext fun f =>
      (iblk0_0_apply (V1 m ρ) c t bb n f (ix3 ⟨32 * t.val + bb.val, hb⟩ n f) rfl rfl rfl).trans (congrFun (V1_arg0 m ρ c) _)
  have e1 : (fun h f => (iblk0 (V1 m ρ) c 1 t : Vec Ideal S128x195 .bf16) (ix2 h f)) = tab2 (m ((c : Thread nD τ).loc main_arg1) : S128x195.Idx → EReal) := by
    rw [iblk0_1_eq (V1 m ρ) c t, V1_v0 m ρ c]; rfl
  have e2 : (fun h => (iblk0 (V1 m ρ) c 2 t : Vec Ideal S128 .f32) (ix1 h)) = tab1 (m ((c : Thread nD τ).loc main_arg2) : S128.Idx → EReal) := by
    rw [iblk0_2_eq (V1 m ρ) c t, V1_arg2 m ρ c]
  have e3 : (fun h f => (iblk0 (V1 m ρ) c 3 t : Vec Ideal S128x195 .bf16) (ix2 h f)) = tab2 (m ((c : Thread nD τ).loc main_arg3) : S128x195.Idx → EReal) := by
    rw [iblk0_3_eq (V1 m ρ) c t, V1_v1 m ρ c]; rfl
  have e4 : (fun o h => (iblk0 (V1 m ρ) c 4 t : Vec Ideal S64x128 .bf16) (ix2 o h)) = tab2 (m ((c : Thread nD τ).loc main_arg4) : S64x128.Idx → EReal) := by
    rw [iblk0_4_eq (V1 m ρ) c t, V1_v2 m ρ c]; rfl
  have e5 : (fun o => (iblk0 (V1 m ρ) c 5 t : Vec Ideal S64 .f32) (ix1 o)) = tab1 (m ((c : Thread nD τ).loc main_arg5) : S64.Idx → EReal) := by
    rw [iblk0_5_eq (V1 m ρ) c t, V1_arg5 m ρ c]
  have e6 : (fun o h => (iblk0 (V1 m ρ) c 6 t : Vec Ideal S64x128 .bf16) (ix2 o h)) = tab2 (m ((c : Thread nD τ).loc main_arg6) : S64x128.Idx → EReal) := by
    rw [iblk0_6_eq (V1 m ρ) c t, V1_v3 m ρ c]; rfl
  show Cert.GraphSpec.sageK (fun n f => (iblk0 (V1 m ρ) c 0 t : Vec Ideal S32x90x195 .f32) (ix3 bb n f))
      (fun h f => (iblk0 (V1 m ρ) c 1 t : Vec Ideal S128x195 .bf16) (ix2 h f)) (fun h => (iblk0 (V1 m ρ) c 2 t : Vec Ideal S128 .f32) (ix1 h))
      (fun h f => (iblk0 (V1 m ρ) c 3 t : Vec Ideal S128x195 .bf16) (ix2 h f)) (fun o h => (iblk0 (V1 m ρ) c 4 t : Vec Ideal S64x128 .bf16) (ix2 o h))
      (fun o => (iblk0 (V1 m ρ) c 5 t : Vec Ideal S64 .f32) (ix1 o)) (fun o h => (iblk0 (V1 m ρ) c 6 t : Vec Ideal S64x128 .bf16) (ix2 o h)) n o
    = G0c m c ⟨32 * t.val + bb.val, hb⟩ n o
  rw [e0, e1, e2, e3, e4, e5, e6]
  rfl

include hsage in
/-- The blocks cover the array, so it ends holding `G0`. -/
theorem final0 (c : Dev nD) : (dat0 (V1 m ρ) c).arrAt 7 cfg0.N = G0 m c :=
  (dat0 (V1 m ρ) c).arrAt_eq_of_cover 7 (G0 m c) (fun t _ => flushed0_7_eq m ρ hsage c t) cover0_7'

/-- Row b of the head kernel's first operand: the flattened graph output of batch element b. -/
def hrow (c : Dev nD) (b : Fin 4096) : Fin 5760 → EReal := Cert.GraphSpec.flat (fun n o => G0c m c b n o)

include hsage in
theorem V3_v5_row (c : Dev nD) (b : Fin 4096) (k : Fin 5760) :
    (V3 m ρ c main_v5 : S4096x5760.Idx → EReal) (ix2 b k) = hrow m c b k := by
  rw [V3_v5_apply m ρ c b k, final0 m ρ hsage c]
  rfl

end Region0

/-! ## The head kernel's result arrays -/

/-- Second result at (b, cc): the head's normalised activations of row b. -/
def G1outc (c : Dev nD) (b : Fin 4096) (cc : Fin 256) : EReal :=
  Cert.GraphSpec.outv (hrow m c b) (tab2 (m ((c : Thread nD τ).loc main_arg7) : S512x5760.Idx → EReal)) (tab1 (m ((c : Thread nD τ).loc main_arg8) : S512.Idx → EReal)) (tab1 (m ((c : Thread nD τ).loc main_arg9) : S512.Idx → EReal)) (tab1 (m ((c : Thread nD τ).loc main_arg10) : S512.Idx → EReal)) (tab1 (m ((c : Thread nD τ).loc main_arg11) : S512.Idx → EReal)) (tab1 (m ((c : Thread nD τ).loc main_arg12) : S512.Idx → EReal)) (tab2 (m ((c : Thread nD τ).loc main_arg13) : S256x512.Idx → EReal)) (tab1 (m ((c : Thread nD τ).loc main_arg14) : S256.Idx → EReal)) (tab1 (m ((c : Thread nD τ).loc main_arg15) : S256.Idx → EReal)) (tab1 (m ((c : Thread nD τ).loc main_arg16) : S256.Idx → EReal)) (tab1 (m ((c : Thread nD τ).loc main_arg17) : S256.Idx → EReal)) (tab1 (m ((c : Thread nD τ).loc main_arg18) : S256.Idx → EReal)) cc
def G1out (c : Dev nD) : S4096x256.Idx → EReal :=
  fun i => G1outc m c ⟨(i 0).val, (i 0).isLt⟩ ⟨(i 1).val, (i 1).isLt⟩

/-- First result at (b, j): the soft-max of row b's two logits. -/
def G1probsc (c : Dev nD) (b : Fin 4096) (j : Fin 2) : EReal :=
  Cert.GraphSpec.softmax2 (Cert.GraphSpec.logit (hrow m c b) (tab2 (m ((c : Thread nD τ).loc main_arg7) : S512x5760.Idx → EReal)) (tab1 (m ((c : Thread nD τ).loc main_arg8) : S512.Idx → EReal)) (tab1 (m ((c : Thread nD τ).loc main_arg9) : S512.Idx → EReal)) (tab1 (m ((c : Thread nD τ).loc main_arg10) : S512.Idx → EReal)) (tab1 (m ((c : Thread nD τ).loc main_arg11) : S512.Idx → EReal)) (tab1 (m ((c : Thread nD τ).loc main_arg12) : S512.Idx → EReal)) (tab2 (m ((c : Thread nD τ).loc main_arg13) : S256x512.Idx → EReal)) (tab1 (m ((c : Thread nD τ).loc main_arg14) : S256.Idx → EReal)) (tab1 (m ((c : Thread nD τ).loc main_arg15) : S256.Idx → EReal)) (tab1 (m ((c : Thread nD τ).loc main_arg16) : S256.Idx → EReal)) (tab1 (m ((c : Thread nD τ).loc main_arg17) : S256.Idx → EReal)) (tab1 (m ((c : Thread nD τ).loc main_arg18) : S256.Idx → EReal)) (tab2 (m ((c : Thread nD τ).loc main_arg19) : S2x256.Idx → EReal)) (tab1 (m ((c : Thread nD τ).loc main_arg20) : S2.Idx → EReal))) j
def G1probs (c : Dev nD) : S4096x2.Idx → EReal :=
  fun i => G1probsc m c ⟨(i 0).val, (i 0).isLt⟩ ⟨(i 1).val, (i 1).isLt⟩

section Region1

variable (hsage : ∀ (x0 : Vec Ideal S32x90x195 .f32) (x1 : Vec Ideal S128x195 .bf16) (x2 : Vec Ideal S128 .f32) (x3 : Vec Ideal S128x195 .bf16) (x4 : Vec Ideal S64x128 .bf16) (x5 : Vec Ideal S64 .f32) (x6 : Vec Ideal S64x128 .bf16)
      (bb : Fin 32) (n : Fin 90) (o : Fin 64),
    k0_pay1 (F := Ideal) (k0_pay2 x0) (k0_pay4 x3) x2 (k0_pay5 x0) (k0_pay6 x0 x1) x4 x6 x5 (ix3 bb n o)
      = Cert.GraphSpec.sageK (fun n f => x0 (ix3 bb n f)) (fun h f => x1 (ix2 h f)) (fun h => x2 (ix1 h)) (fun h f => x3 (ix2 h f)) (fun o h => x4 (ix2 o h)) (fun o => x5 (ix1 o)) (fun o h => x6 (ix2 o h)) n o)
  (hout : ∀ (x0 : Vec Ideal S1024x5760 .bf16) (x1 : Vec Ideal S512x5760 .bf16) (x2 x3 x4 x5 x6 : Vec Ideal S512 .f32) (x7 : Vec Ideal S256x512 .bf16) (x8 x9 x10 x11 x12 : Vec Ideal S256 .f32)
      (r : Fin 1024) (cc : Fin 256),
    k1_pay1 (F := Ideal) (k1_pay3 x0 x1 x2 x5 x6 x3 x4 x7 x8) x11 x12 x9 x10 (ix2 r cc)
      = Cert.GraphSpec.outv (fun k => x0 (ix2 r k)) (fun h k => x1 (ix2 h k)) (fun h => x2 (ix1 h)) (fun h => x3 (ix1 h)) (fun h => x4 (ix1 h)) (fun h => x5 (ix1 h)) (fun h => x6 (ix1 h)) (fun p h => x7 (ix2 p h)) (fun p => x8 (ix1 p)) (fun p => x9 (ix1 p)) (fun p => x10 (ix1 p)) (fun p => x11 (ix1 p)) (fun p => x12 (ix1 p)) cc)
  (hprobs : ∀ (x0 : Vec Ideal S1024x5760 .bf16) (x1 : Vec Ideal S512x5760 .bf16) (x2 x3 x4 x5 x6 : Vec Ideal S512 .f32) (x7 : Vec Ideal S256x512 .bf16) (x8 x9 x10 x11 x12 : Vec Ideal S256 .f32) (x13 : Vec Ideal S2x256 .bf16) (x14 : Vec Ideal S2 .f32)
      (r : Fin 1024) (j : Fin 2),
    k1_pay2 (F := Ideal) (k1_pay3 x0 x1 x2 x5 x6 x3 x4 x7 x8) x11 x12 x9 x10 x13 x14 (ix2 r j)
      = Cert.GraphSpec.softmax2 (Cert.GraphSpec.logit (fun k => x0 (ix2 r k)) (fun h k => x1 (ix2 h k)) (fun h => x2 (ix1 h)) (fun h => x3 (ix1 h)) (fun h => x4 (ix1 h)) (fun h => x5 (ix1 h)) (fun h => x6 (ix1 h)) (fun p h => x7 (ix2 p h)) (fun p => x8 (ix1 p)) (fun p => x9 (ix1 p)) (fun p => x10 (ix1 p)) (fun p => x11 (ix1 p)) (fun p => x12 (ix1 p)) (fun p q => x13 (ix2 p q)) (fun p => x14 (ix1 p))) j)

include hsage hout in
/-- What grid point t writes back to the second result is block t of `G1out`. -/
theorem flushed1_16_eq (c : Dev nD) (t : Fin cfg1.N) :
    (dat1 (V3 m ρ) c).flushed 16 t = ((cfg1.win 16).blk t).view.read (Elt Ideal) (G1out m c) := by
  show (cfg1.win 16).cut (grid1.coords t) ((dat1 (V3 m ρ) c).after 16 t) = _
  rw [after1_16]
  unfold out1_16
  rw [View.canon_unit_zero hz2]
  simp only [View.ld_unit_zero (S := S1024x5760) hz2, View.ld_unit_zero (S := S512x5760) hz2, View.ld_unit_zero (S := S512) hz1,
    View.ld_unit_zero (S := S256x512) hz2, View.ld_unit_zero (S := S256) hz1]
  funext jj
  obtain ⟨r, cc, rfl⟩ : ∃ (r : Fin 1024) (cc : Fin 256), jj = ix2 r cc := ⟨jj 0, jj 1, eq_ix2 jj⟩
  have ht : t.val < 4 := by have h := t.isLt; have hN : cfg1.N = 4 := N_1; omega
  have hb : 1024 * t.val + r.val < 4096 := by have := r.isLt; omega
  rw [View.read_apply, emb1_16 t r cc (ix2 ⟨1024 * t.val + r.val, hb⟩ cc) rfl rfl]
  refine (hout (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) r cc).trans ?_
  have f0 : (fun k => (iblk1 (V3 m ρ) c 0 t : Vec Ideal S1024x5760 .bf16) (ix2 r k)) = hrow m c ⟨1024 * t.val + r.val, hb⟩ :=
    funext fun k => (iblk1_0_apply (V3 m ρ) c t r k (ix2 ⟨1024 * t.val + r.val, hb⟩ k) rfl rfl).trans (V3_v5_row m ρ hsage c _ k)
  have f1 : (fun p q => (iblk1 (V3 m ρ) c 1 t : Vec Ideal S512x5760 .bf16) (ix2 p q)) = tab2 (m ((c : Thread nD τ).loc main_arg7) : S512x5760.Idx → EReal) := by
    rw [iblk1_1_eq (V3 m ρ) c t, V3_v6 m ρ c]; rfl
  have f2 : (fun p => (iblk1 (V3 m ρ) c 2 t : Vec Ideal S512 .f32) (ix1 p)) = tab1 (m ((c : Thread nD τ).loc main_arg8) : S512.Idx → EReal) := by
    rw [iblk1_2_eq (V3 m ρ) c t, V3_arg8 m ρ c]
  have f3 : (fun p => (iblk1 (V3 m ρ) c 3 t : Vec Ideal S512 .f32) (ix1 p)) = tab1 (m ((c : Thread nD τ).loc main_arg9) : S512.Idx → EReal) := by
    rw [iblk1_3_eq (V3 m ρ) c t, V3_arg9 m ρ c]
  have f4 : (fun p => (iblk1 (V3 m ρ) c 4 t : Vec Ideal S512 .f32) (ix1 p)) = tab1 (m ((c : Thread nD τ).loc main_arg10) : S512.Idx → EReal) := by
    rw [iblk1_4_eq (V3 m ρ) c t, V3_arg10 m ρ c]
  have f5 : (fun p => (iblk1 (V3 m ρ) c 5 t : Vec Ideal S512 .f32) (ix1 p)) = tab1 (m ((c : Thread nD τ).loc main_arg11) : S512.Idx → EReal) := by
    rw [iblk1_5_eq (V3 m ρ) c t, V3_arg11 m ρ c]
  have f6 : (fun p => (iblk1 (V3 m ρ) c 6 t : Vec Ideal S512 .f32) (ix1 p)) = tab1 (m ((c : Thread nD τ).loc main_arg12) : S512.Idx → EReal) := by
    rw [iblk1_6_eq (V3 m ρ) c t, V3_arg12 m ρ c]
  have f7 : (fun p q => (iblk1 (V3 m ρ) c 7 t : Vec Ideal S256x512 .bf16) (ix2 p q)) = tab2 (m ((c : Thread nD τ).loc main_arg13) : S256x512.Idx → EReal) := by
    rw [iblk1_7_eq (V3 m ρ) c t, V3_v7 m ρ c]; rfl
  have f8 : (fun p => (iblk1 (V3 m ρ) c 8 t : Vec Ideal S256 .f32) (ix1 p)) = tab1 (m ((c : Thread nD τ).loc main_arg14) : S256.Idx → EReal) := by
    rw [iblk1_8_eq (V3 m ρ) c t, V3_arg14 m ρ c]
  have f9 : (fun p => (iblk1 (V3 m ρ) c 9 t : Vec Ideal S256 .f32) (ix1 p)) = tab1 (m ((c : Thread nD τ).loc main_arg15) : S256.Idx → EReal) := by
    rw [iblk1_9_eq (V3 m ρ) c t, V3_arg15 m ρ c]
  have f10 : (fun p => (iblk1 (V3 m ρ) c 10 t : Vec Ideal S256 .f32) (ix1 p)) = tab1 (m ((c : Thread nD τ).loc main_arg16) : S256.Idx → EReal) := by
    rw [iblk1_10_eq (V3 m ρ) c t, V3_arg16 m ρ c]
  have f11 : (fun p => (iblk1 (V3 m ρ) c 11 t : Vec Ideal S256 .f32) (ix1 p)) = tab1 (m ((c : Thread nD τ).loc main_arg17) : S256.Idx → EReal) := by
    rw [iblk1_11_eq (V3 m ρ) c t, V3_arg17 m ρ c]
  have f12 : (fun p => (iblk1 (V3 m ρ) c 12 t : Vec Ideal S256 .f32) (ix1 p)) = tab1 (m ((c : Thread nD τ).loc main_arg18) : S256.Idx → EReal) := by
    rw [iblk1_12_eq (V3 m ρ) c t, V3_arg18 m ρ c]
  show Cert.GraphSpec.outv (fun k => (iblk1 (V3 m ρ) c 0 t : Vec Ideal S1024x5760 .bf16) (ix2 r k))
      (fun p q => (iblk1 (V3 m ρ) c 1 t : Vec Ideal S512x5760 .bf16) (ix2 p q))
      (fun p => (iblk1 (V3 m ρ) c 2 t : Vec Ideal S512 .f32) (ix1 p))
      (fun p => (iblk1 (V3 m ρ) c 3 t : Vec Ideal S512 .f32) (ix1 p))
      (fun p => (iblk1 (V3 m ρ) c 4 t : Vec Ideal S512 .f32) (ix1 p))
      (fun p => (iblk1 (V3 m ρ) c 5 t : Vec Ideal S512 .f32) (ix1 p))
      (fun p => (iblk1 (V3 m ρ) c 6 t : Vec Ideal S512 .f32) (ix1 p))
      (fun p q => (iblk1 (V3 m ρ) c 7 t : Vec Ideal S256x512 .bf16) (ix2 p q))
      (fun p => (iblk1 (V3 m ρ) c 8 t : Vec Ideal S256 .f32) (ix1 p))
      (fun p => (iblk1 (V3 m ρ) c 9 t : Vec Ideal S256 .f32) (ix1 p))
      (fun p => (iblk1 (V3 m ρ) c 10 t : Vec Ideal S256 .f32) (ix1 p))
      (fun p => (iblk1 (V3 m ρ) c 11 t : Vec Ideal S256 .f32) (ix1 p))
      (fun p => (iblk1 (V3 m ρ) c 12 t : Vec Ideal S256 .f32) (ix1 p)) cc
    = G1outc m c ⟨1024 * t.val + r.val, hb⟩ cc
  rw [f0, f1, f2, f3, f4, f5, f6, f7, f8, f9, f10, f11, f12]
  rfl

include hsage hprobs in
/-- What grid point t writes back to the first result is block t of `G1probs`. -/
theorem flushed1_15_eq (c : Dev nD) (t : Fin cfg1.N) :
    (dat1 (V3 m ρ) c).flushed 15 t = ((cfg1.win 15).blk t).view.read (Elt Ideal) (G1probs m c) := by
  show (cfg1.win 15).cut (grid1.coords t) ((dat1 (V3 m ρ) c).after 15 t) = _
  rw [after1_15]
  unfold out1_15
  rw [View.canon_unit_zero hz2]
  simp only [View.ld_unit_zero (S := S1024x5760) hz2, View.ld_unit_zero (S := S512x5760) hz2, View.ld_unit_zero (S := S512) hz1,
    View.ld_unit_zero (S := S256x512) hz2, View.ld_unit_zero (S := S256) hz1, View.ld_unit_zero (S := S2x256) hz2, View.ld_unit_zero (S := S2) hz1]
  funext jj
  obtain ⟨r, j, rfl⟩ : ∃ (r : Fin 1024) (j : Fin 2), jj = ix2 r j := ⟨jj 0, jj 1, eq_ix2 jj⟩
  have ht : t.val < 4 := by have h := t.isLt; have hN : cfg1.N = 4 := N_1; omega
  have hb : 1024 * t.val + r.val < 4096 := by have := r.isLt; omega
  rw [View.read_apply, emb1_15 t r j (ix2 ⟨1024 * t.val + r.val, hb⟩ j) rfl rfl]
  refine (hprobs (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) (iblk1 (V3 m ρ) c 11 t) (iblk1 (V3 m ρ) c 12 t) (iblk1 (V3 m ρ) c 13 t) (iblk1 (V3 m ρ) c 14 t) r j).trans ?_
  have f0 : (fun k => (iblk1 (V3 m ρ) c 0 t : Vec Ideal S1024x5760 .bf16) (ix2 r k)) = hrow m c ⟨1024 * t.val + r.val, hb⟩ :=
    funext fun k => (iblk1_0_apply (V3 m ρ) c t r k (ix2 ⟨1024 * t.val + r.val, hb⟩ k) rfl rfl).trans (V3_v5_row m ρ hsage c _ k)
  have f1 : (fun p q => (iblk1 (V3 m ρ) c 1 t : Vec Ideal S512x5760 .bf16) (ix2 p q)) = tab2 (m ((c : Thread nD τ).loc main_arg7) : S512x5760.Idx → EReal) := by
    rw [iblk1_1_eq (V3 m ρ) c t, V3_v6 m ρ c]; rfl
  have f2 : (fun p => (iblk1 (V3 m ρ) c 2 t : Vec Ideal S512 .f32) (ix1 p)) = tab1 (m ((c : Thread nD τ).loc main_arg8) : S512.Idx → EReal) := by
    rw [iblk1_2_eq (V3 m ρ) c t, V3_arg8 m ρ c]
  have f3 : (fun p => (iblk1 (V3 m ρ) c 3 t : Vec Ideal S512 .f32) (ix1 p)) = tab1 (m ((c : Thread nD τ).loc main_arg9) : S512.Idx → EReal) := by
    rw [iblk1_3_eq (V3 m ρ) c t, V3_arg9 m ρ c]
  have f4 : (fun p => (iblk1 (V3 m ρ) c 4 t : Vec Ideal S512 .f32) (ix1 p)) = tab1 (m ((c : Thread nD τ).loc main_arg10) : S512.Idx → EReal) := by
    rw [iblk1_4_eq (V3 m ρ) c t, V3_arg10 m ρ c]
  have f5 : (fun p => (iblk1 (V3 m ρ) c 5 t : Vec Ideal S512 .f32) (ix1 p)) = tab1 (m ((c : Thread nD τ).loc main_arg11) : S512.Idx → EReal) := by
    rw [iblk1_5_eq (V3 m ρ) c t, V3_arg11 m ρ c]
  have f6 : (fun p => (iblk1 (V3 m ρ) c 6 t : Vec Ideal S512 .f32) (ix1 p)) = tab1 (m ((c : Thread nD τ).loc main_arg12) : S512.Idx → EReal) := by
    rw [iblk1_6_eq (V3 m ρ) c t, V3_arg12 m ρ c]
  have f7 : (fun p q => (iblk1 (V3 m ρ) c 7 t : Vec Ideal S256x512 .bf16) (ix2 p q)) = tab2 (m ((c : Thread nD τ).loc main_arg13) : S256x512.Idx → EReal) := by
    rw [iblk1_7_eq (V3 m ρ) c t, V3_v7 m ρ c]; rfl
  have f8 : (fun p => (iblk1 (V3 m ρ) c 8 t : Vec Ideal S256 .f32) (ix1 p)) = tab1 (m ((c : Thread nD τ).loc main_arg14) : S256.Idx → EReal) := by
    rw [iblk1_8_eq (V3 m ρ) c t, V3_arg14 m ρ c]
  have f9 : (fun p => (iblk1 (V3 m ρ) c 9 t : Vec Ideal S256 .f32) (ix1 p)) = tab1 (m ((c : Thread nD τ).loc main_arg15) : S256.Idx → EReal) := by
    rw [iblk1_9_eq (V3 m ρ) c t, V3_arg15 m ρ c]
  have f10 : (fun p => (iblk1 (V3 m ρ) c 10 t : Vec Ideal S256 .f32) (ix1 p)) = tab1 (m ((c : Thread nD τ).loc main_arg16) : S256.Idx → EReal) := by
    rw [iblk1_10_eq (V3 m ρ) c t, V3_arg16 m ρ c]
  have f11 : (fun p => (iblk1 (V3 m ρ) c 11 t : Vec Ideal S256 .f32) (ix1 p)) = tab1 (m ((c : Thread nD τ).loc main_arg17) : S256.Idx → EReal) := by
    rw [iblk1_11_eq (V3 m ρ) c t, V3_arg17 m ρ c]
  have f12 : (fun p => (iblk1 (V3 m ρ) c 12 t : Vec Ideal S256 .f32) (ix1 p)) = tab1 (m ((c : Thread nD τ).loc main_arg18) : S256.Idx → EReal) := by
    rw [iblk1_12_eq (V3 m ρ) c t, V3_arg18 m ρ c]
  have f13 : (fun p q => (iblk1 (V3 m ρ) c 13 t : Vec Ideal S2x256 .bf16) (ix2 p q)) = tab2 (m ((c : Thread nD τ).loc main_arg19) : S2x256.Idx → EReal) := by
    rw [iblk1_13_eq (V3 m ρ) c t, V3_v8 m ρ c]; rfl
  have f14 : (fun p => (iblk1 (V3 m ρ) c 14 t : Vec Ideal S2 .f32) (ix1 p)) = tab1 (m ((c : Thread nD τ).loc main_arg20) : S2.Idx → EReal) := by
    rw [iblk1_14_eq (V3 m ρ) c t, V3_arg20 m ρ c]
  show Cert.GraphSpec.softmax2 (Cert.GraphSpec.logit (fun k => (iblk1 (V3 m ρ) c 0 t : Vec Ideal S1024x5760 .bf16) (ix2 r k))
      (fun p q => (iblk1 (V3 m ρ) c 1 t : Vec Ideal S512x5760 .bf16) (ix2 p q))
      (fun p => (iblk1 (V3 m ρ) c 2 t : Vec Ideal S512 .f32) (ix1 p))
      (fun p => (iblk1 (V3 m ρ) c 3 t : Vec Ideal S512 .f32) (ix1 p))
      (fun p => (iblk1 (V3 m ρ) c 4 t : Vec Ideal S512 .f32) (ix1 p))
      (fun p => (iblk1 (V3 m ρ) c 5 t : Vec Ideal S512 .f32) (ix1 p))
      (fun p => (iblk1 (V3 m ρ) c 6 t : Vec Ideal S512 .f32) (ix1 p))
      (fun p q => (iblk1 (V3 m ρ) c 7 t : Vec Ideal S256x512 .bf16) (ix2 p q))
      (fun p => (iblk1 (V3 m ρ) c 8 t : Vec Ideal S256 .f32) (ix1 p))
      (fun p => (iblk1 (V3 m ρ) c 9 t : Vec Ideal S256 .f32) (ix1 p))
      (fun p => (iblk1 (V3 m ρ) c 10 t : Vec Ideal S256 .f32) (ix1 p))
      (fun p => (iblk1 (V3 m ρ) c 11 t : Vec Ideal S256 .f32) (ix1 p))
      (fun p => (iblk1 (V3 m ρ) c 12 t : Vec Ideal S256 .f32) (ix1 p))
      (fun p q => (iblk1 (V3 m ρ) c 13 t : Vec Ideal S2x256 .bf16) (ix2 p q))
      (fun p => (iblk1 (V3 m ρ) c 14 t : Vec Ideal S2 .f32) (ix1 p))) j
    = G1probsc m c ⟨1024 * t.val + r.val, hb⟩ j
  rw [f0, f1, f2, f3, f4, f5, f6, f7, f8, f9, f10, f11, f12, f13, f14]
  rfl

include hsage hout in
theorem final1_16 (c : Dev nD) : (dat1 (V3 m ρ) c).arrAt 16 cfg1.N = G1out m c :=
  (dat1 (V3 m ρ) c).arrAt_eq_of_cover 16 (G1out m c) (fun t _ => flushed1_16_eq m ρ hsage hout c t) cover1_16'

include hsage hprobs in
theorem final1_15 (c : Dev nD) : (dat1 (V3 m ρ) c).arrAt 15 cfg1.N = G1probs m c :=
  (dat1 (V3 m ρ) c).arrAt_eq_of_cover 15 (G1probs m c) (fun t _ => flushed1_15_eq m ρ hsage hprobs c t) cover1_15'

include hsage hout hprobs in
/-- The run, read: both result arrays at their functions of the arguments, the arguments unchanged. -/
theorem run_named : θ_run defs (onTc (τ := τ) (main (F := Ideal))) ⟨m, fun _ => 0, ρ⟩ (fun r => ∀ c : Dev nD,
      r.2.mem ((c.tc : Thread nD τ).loc main_v9_0) = G1probs m c
      ∧ r.2.mem ((c.tc : Thread nD τ).loc main_v9_1) = G1out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
      ⟨(h c).1.trans ((W4_arr m ρ c 15).trans (final1_15 m ρ hsage hprobs c)),
       (h c).2.1.trans ((W4_arr m ρ c 16).trans (final1_16 m ρ hsage hout c)),
       (h c).2.2⟩)
    (run_vals m ρ)

end Region1

end Cert.KernelIdeal.Hand

end
-- ==== Proof.RefGraph.lean ====
/-
  The reference's graph layers, read one element at a time.

  Every operation of the reference from the row mean to the flattened output of the second graph layer is read at
  an index and matched against the specification: the row mean, the centred rows, their Gram matrix and its
  diagonal, the norms, the Pearson correlation, its threshold at one half (the adjacency), the in-degree, the two
  rounds of mean aggregation with their linear layers, and the row-major flattening.
-/
import proofs.«169563_j52381421142390_2_alg».proof.Proof.Spec
import proofs.«169563_j52381421142390_2_alg».proof.Proof.Gen.ReferenceIdeal.Read
import Idealize.ShloMosaic.Lib.ValueLayout

noncomputable section

namespace Cert.RefGraph

open Cert.ReferenceIdeal Cert.ReferenceIdeal.Gen Cert.ReferenceIdeal.Read Idealize.ShloMosaic Idealize.ShloMosaic.ValueIdx
open Cert.GraphSpec

/-! ## Indices -/

/-- Two rank-3 indices with equal coordinates are equal. -/
theorem ext3 {n0 n1 n2 : Nat} (i j : (⟨3, ![n0, n1, n2]⟩ : Shape).Idx)
    (h0 : (i 0).val = (j 0).val) (h1 : (i 1).val = (j 1).val) (h2 : (i 2).val = (j 2).val) : i = j := by
  funext a; refine Fin.ext ?_
  match a with | ⟨0, _⟩ => exact h0 | ⟨1, _⟩ => exact h1 | ⟨2, _⟩ => exact h2
/-- Two rank-2 indices with equal coordinates are equal. -/
theorem ext2 {n0 n1 : Nat} (i j : (⟨2, ![n0, n1]⟩ : Shape).Idx)
    (h0 : (i 0).val = (j 0).val) (h1 : (i 1).val = (j 1).val) : i = j := by
  funext a; refine Fin.ext ?_
  match a with | ⟨0, _⟩ => exact h0 | ⟨1, _⟩ => exact h1
/-- Two rank-1 indices with equal coordinates are equal. -/
theorem ext1 {n0 : Nat} (i j : (⟨1, ![n0]⟩ : Shape).Idx) (h0 : (i 0).val = (j 0).val) : i = j := by
  funext a; refine Fin.ext ?_
  match a with | ⟨0, _⟩ => exact h0

/-! ## The diagonal of the Gram matrix: a gather at the index table (n, n) -/

/-- A small natural number as a 32-bit word reads back, signed, as itself. -/
theorem toInt_ofNat_small (n : Nat) (h : n < 90) : (BitVec.ofNat 32 n).toInt = (n : Int) := by
  rw [BitVec.toInt_eq_toNat_cond, BitVec.toNat_ofNat, Nat.mod_eq_of_lt (by omega), if_pos (by omega)]

/-- A small natural number as a 32-bit word is not negative. -/
theorem slt_zero_small (n : Nat) (h : n < 90) : IntOp.cmpi .slt (BitVec.ofNat 32 n) 0#32 = 0#1 := by
  have h1 := toInt_ofNat_small n h
  have : (BitVec.ofNat 32 n).slt 0#32 = false := by
    simp only [BitVec.slt, h1, BitVec.toInt_zero, decide_eq_false_iff_not, not_lt]
    omega
  simp only [IntOp.cmpi, this]
  rfl

section Table
variable {F : FTy → Type} [FloatOps F]

/-- The first column of the index table: row n holds n (the wrap-around of a negative index never applies). -/
theorem table_col0 (n : Fin 90) : val_main_call0_v6 (F := F) (ix1 n) = BitVec.ofNat 32 n.val := by
  rw [val_main_call0_v6_apply, val_main_call0_v3_apply, val_main_call0_v0_apply, val_main_call0_v2_apply,
    val_main_call0_c_apply]
  show Scalar.select (IntOp.cmpi .slt (BitVec.ofNat 32 n.val) 0#32) _ (BitVec.ofNat 32 n.val) = _
  rw [slt_zero_small n.val n.isLt, select_zero]

/-- The second column of the index table: row n holds n. -/
theorem table_col1 (n : Fin 90) : val_main_call0_v11 (F := F) (ix1 n) = BitVec.ofNat 32 n.val := by
  rw [val_main_call0_v11_apply, val_main_call0_v8_apply, val_main_call0_v1_apply, val_main_call0_v7_apply,
    val_main_call0_c_1_apply]
  show Scalar.select (IntOp.cmpi .slt (BitVec.ofNat 32 n.val) 0#32) _ (BitVec.ofNat 32 n.val) = _
  rw [slt_zero_small n.val n.isLt, select_zero]

/-- The index table at (n, 0). -/
theorem table_at0 (n : Fin 90) : val_main_call0_v14 (F := F) (ix2 n (0 : Fin 2)) = BitVec.ofNat 32 n.val := by
  unfold val_main_call0_v14
  refine (concatenate_pair_apply_left (1 : Fin S90x2.rank) _ _ concatenates_S90x1_S90x1_S90x2_d1 (ix2 n (0 : Fin 2)) rfl
    (ix2 n (0 : Fin 1)) (fun b => match b with | ⟨0, _⟩ => rfl | ⟨1, _⟩ => rfl)).trans ?_
  rw [val_main_call0_v12_apply, show idx_main_call0_v12 (ix2 n (0 : Fin 1)) = ix1 n from ext1 _ _ rfl]
  exact table_col0 n

/-- The index table at (n, 1). -/
theorem table_at1 (n : Fin 90) : val_main_call0_v14 (F := F) (ix2 n (1 : Fin 2)) = BitVec.ofNat 32 n.val := by
  unfold val_main_call0_v14
  refine (concatenate_pair_apply_right (1 : Fin S90x2.rank) _ _ concatenates_S90x1_S90x1_S90x2_d1 (ix2 n (1 : Fin 2)) rfl rfl
    (ix2 n (0 : Fin 1)) (fun b hb => match b, hb with | ⟨0, _⟩, _ => rfl | ⟨1, _⟩, hb => absurd rfl hb) rfl).trans ?_
  rw [val_main_call0_v13_apply, show idx_main_call0_v13 (ix2 n (0 : Fin 1)) = ix1 n from ext1 _ _ rfl]
  exact table_col1 n

end Table

/-- The gather's dimension numbers: the whole batch axis, one element on each of the two matrix axes. -/
abbrev GD := gather_S4096x90x90_S90x2_S4096x90_0_12_n_n_12_1_409611

/-- A gather with these dimension numbers at an index table whose row n is (n, n) reads the diagonal. -/
theorem gather_diag {α : Type} (x : S4096x90x90.Idx → α) (idx : IVec S90x2 32) (b : Fin 4096) (n : Fin 90)
    (h0 : idx (ix2 n (0 : Fin 2)) = BitVec.ofNat 32 n.val) (h1 : idx (ix2 n (1 : Fin 2)) = BitVec.ofNat 32 n.val) :
    Host.gather GD x idx (ix2 b n) = x (ix3 b n n) := by
  have hn : ((BitVec.ofNat 32 n.val).toInt).toNat = n.val := by
    rw [toInt_ofNat_small n.val n.isLt]; omega
  have hlt := n.isLt
  -- axis 0: the whole batch axis is one slice, read at the result's batch coordinate
  have hs0 : GD.start (ix2 b n) idx ⟨0, by decide⟩ = 0 := by
    unfold GatherDims.start
    rw [dif_neg (show ¬ (⟨0, by decide⟩ : Fin S4096x90x90.rank) ∈ GD.startIndexMap by decide)]
  have ho0 : GD.offCoord (ix2 b n) ⟨0, by decide⟩ = b.val := by
    unfold GatherDims.offCoord
    rw [dif_pos (show (⟨0, by decide⟩ : Fin S4096x90x90.rank) ∈ GD.sKept by decide)]
    rfl
  -- axes 1 and 2: collapsed, started at the table's two entries of row n
  have ho1 : GD.offCoord (ix2 b n) ⟨1, by decide⟩ = 0 :=
    GatherDims.offCoord_eq_zero _ _ _ (show ¬ (⟨1, by decide⟩ : Fin S4096x90x90.rank) ∈ GD.sKept by decide)
  have ho2 : GD.offCoord (ix2 b n) ⟨2, by decide⟩ = 0 :=
    GatherDims.offCoord_eq_zero _ _ _ (show ¬ (⟨2, by decide⟩ : Fin S4096x90x90.rank) ∈ GD.sKept by decide)
  have hs1 : GD.start (ix2 b n) idx ⟨1, by decide⟩ = n.val := by
    unfold GatherDims.start
    rw [dif_pos (show (⟨1, by decide⟩ : Fin S4096x90x90.rank) ∈ GD.startIndexMap by decide)]
    have hsi : GD.siIdx (ix2 b n) ⟨List.idxOf (⟨1, by decide⟩ : Fin S4096x90x90.rank) GD.startIndexMap,
        List.idxOf_lt_length_iff.2 (show (⟨1, by decide⟩ : Fin S4096x90x90.rank) ∈ GD.startIndexMap by decide)⟩
        = ix2 n (0 : Fin 2) := by
      funext c; refine Fin.ext ?_
      match c with
      | ⟨0, _⟩ => rfl
      | ⟨1, _⟩ => rfl
    rw [hsi, h0, hn]
    show min n.val (90 - 1) = n.val
    omega
  have hs2 : GD.start (ix2 b n) idx ⟨2, by decide⟩ = n.val := by
    unfold GatherDims.start
    rw [dif_pos (show (⟨2, by decide⟩ : Fin S4096x90x90.rank) ∈ GD.startIndexMap by decide)]
    have hsi : GD.siIdx (ix2 b n) ⟨List.idxOf (⟨2, by decide⟩ : Fin S4096x90x90.rank) GD.startIndexMap,
        List.idxOf_lt_length_iff.2 (show (⟨2, by decide⟩ : Fin S4096x90x90.rank) ∈ GD.startIndexMap by decide)⟩
        = ix2 n (1 : Fin 2) := by
      funext c; refine Fin.ext ?_
      match c with
      | ⟨0, _⟩ => rfl
      | ⟨1, _⟩ => rfl
    rw [hsi, h1, hn]
    show min n.val (90 - 1) = n.val
    omega
  unfold Host.gather
  refine congrArg x (ext3 _ _ ?_ ?_ ?_)
  · show GD.start (ix2 b n) idx ⟨0, by decide⟩ + GD.batchCoord (ix2 b n) ⟨0, by decide⟩
      + GD.offCoord (ix2 b n) ⟨0, by decide⟩ = b.val
    rw [GatherDims.batchCoord_eq_zero _ _ _ List.not_mem_nil, hs0, ho0]; omega
  · show GD.start (ix2 b n) idx ⟨1, by decide⟩ + GD.batchCoord (ix2 b n) ⟨1, by decide⟩
      + GD.offCoord (ix2 b n) ⟨1, by decide⟩ = n.val
    rw [GatherDims.batchCoord_eq_zero _ _ _ List.not_mem_nil, hs1, ho1]; omega
  · show GD.start (ix2 b n) idx ⟨2, by decide⟩ + GD.batchCoord (ix2 b n) ⟨2, by decide⟩
      + GD.offCoord (ix2 b n) ⟨2, by decide⟩ = n.val
    rw [GatherDims.batchCoord_eq_zero _ _ _ List.not_mem_nil, hs2, ho2]; omega

/-! ## The float chain, one stage at a time -/

/-- The unsigned conversion of a "greater than" bit is the indicator of the strict inequality. -/
theorem uitofp_cmp_gt (c h : Ideal .f32) :
    (FloatOps.uitofp .f32 (FloatOps.cmpf .ogt c h) : Ideal .f32) = if h < c then 1 else 0 := by
  change (((BitVec.ofBool (decide (h < c))).toNat : ℝ) : EReal) = _
  by_cases hc : h < c <;> simp [hc]

section Graph

variable (x0 : (⟨S4096x90x195, .f32⟩ : BufTy).Contents (Elt Ideal))
  (x1 : (⟨S128x195, .f32⟩ : BufTy).Contents (Elt Ideal)) (x2 : (⟨S128, .f32⟩ : BufTy).Contents (Elt Ideal))
  (x3 : (⟨S128x195, .f32⟩ : BufTy).Contents (Elt Ideal)) (x4 : (⟨S64x128, .f32⟩ : BufTy).Contents (Elt Ideal))
  (x5 : (⟨S64, .f32⟩ : BufTy).Contents (Elt Ideal)) (x6 : (⟨S64x128, .f32⟩ : BufTy).Contents (Elt Ideal))

/-- Batch element b of the input as a 90 × 195 table. -/
abbrev X (b : Fin 4096) : Fin 90 → Fin 195 → EReal := fun n f => x0 (ix3 b n f)
/-- A rank-2 array as a table. -/
abbrev M2 {n0 n1 : Nat} (w : (⟨2, ![n0, n1]⟩ : Shape).Idx → EReal) : Fin n0 → Fin n1 → EReal := fun h f => w (ix2 h f)
/-- A rank-1 array as a family. -/
abbrev V1 {n0 : Nat} (w : (⟨1, ![n0]⟩ : Shape).Idx → EReal) : Fin n0 → EReal := fun h => w (ix1 h)

/-- The row mean: the row's sum over 195. -/
theorem mean_eq (b : Fin 4096) (n : Fin 90) (z : Fin 1) :
    val_main_v3 (F := Ideal) x0 (ix3 b n z) = rowMean (X x0 b) n := by
  rw [val_main_v3_apply, val_main_v1_apply, val_main_v0_apply, val_main_v2_apply, val_main_cst_0_apply,
    val_main_cst_apply]
  simp only [Ideal.hostDivf_def, Ideal.ofBits_def, Ideal.ofBits_zero_f32, zero_add]
  unfold rowMean
  exact congrArg (Ideal.div · _) (Finset.sum_congr rfl fun k _ => congrArg x0 (ext3 _ _ rfl rfl rfl))

/-- The centred rows. -/
theorem centred_eq (b : Fin 4096) (n : Fin 90) (f : Fin 195) :
    val_main_v5 (F := Ideal) x0 (ix3 b n f) = centred (X x0 b) n f := by
  rw [val_main_v5_apply, val_main_v4_apply,
    show idx_main_v4 (ix3 b n f) = ix3 b n (0 : Fin 1) from ext3 _ _ rfl rfl rfl, mean_eq]
  rfl

/-- The Gram matrix of the centred rows. -/
theorem cov_eq (b : Fin 4096) (n m : Fin 90) :
    val_main_v6 (F := Ideal) x0 (ix3 b n m) = cov (X x0 b) n m := by
  rw [val_main_v6_apply]
  unfold cov
  refine Finset.sum_congr rfl fun k _ => ?_
  rw [show lidx_main_v6 (ix3 b n m) k = ix3 b n k from ext3 _ _ rfl rfl rfl,
    show ridx_main_v6 (ix3 b n m) k = ix3 b m k from ext3 _ _ rfl rfl rfl, centred_eq, centred_eq]

/-- Its diagonal: the centred rows' sums of squares. -/
theorem diag_eq (b : Fin 4096) (n : Fin 90) :
    val_main_v7 (F := Ideal) x0 (ix2 b n) = sumSq (X x0 b) n := by
  unfold val_main_v7
  rw [gather_diag (val_main_v6 (F := Ideal) x0) (val_main_call0_v14 (F := Ideal)) b n (table_at0 n) (table_at1 n), cov_eq]
  rfl

/-- The centred rows' lengths. -/
theorem norm_eq (b : Fin 4096) (n : Fin 90) :
    val_main_v8 (F := Ideal) x0 (ix2 b n) = norm (X x0 b) n := by
  rw [val_main_v8_apply, diag_eq]
  rfl

/-- The Pearson correlation. -/
theorem corr_eq (b : Fin 4096) (n m : Fin 90) :
    val_main_v14 (F := Ideal) x0 (ix3 b n m) = corr (X x0 b) n m := by
  rw [val_main_v14_apply, val_main_v13_apply, val_main_v11_apply, val_main_v9_apply, val_main_v12_apply,
    val_main_v10_apply, cov_eq,
    show idx_main_v9 (idx_main_v11 (ix3 b n m)) = ix2 b n from ext2 _ _ rfl rfl,
    show idx_main_v10 (idx_main_v12 (ix3 b n m)) = ix2 b m from ext2 _ _ rfl rfl, norm_eq, norm_eq]
  rfl

/-- The adjacency: the correlation thresholded at one half. -/
theorem adj_eq (b : Fin 4096) (n m : Fin 90) :
    val_main_v17 (F := Ideal) x0 (ix3 b n m) = adj (X x0 b) n m := by
  rw [val_main_v17_apply, val_main_v16_apply, val_main_v15_apply, val_main_cst_1_apply, corr_eq]
  exact uitofp_cmp_gt _ _

/-- The transposed adjacency, as the first layer reads it. -/
theorem adjT_eq (b : Fin 4096) (i j : Fin 90) :
    val_main_v18 (F := Ideal) x0 (ix3 b i j) = adj (X x0 b) j i := by
  rw [val_main_v18_apply, show idx_main_v18 (ix3 b i j) = ix3 b j i from ext3 _ _ rfl rfl rfl, adj_eq]

/-- The in-degree, as the first layer takes it. -/
theorem deg_eq (b : Fin 4096) (i : Fin 90) :
    val_main_v19 (F := Ideal) x0 (ix2 b i) = deg (X x0 b) i := by
  rw [val_main_v19_apply, val_main_cst_2_apply]
  simp only [Ideal.ofBits_def, Ideal.ofBits_zero_f32, zero_add]
  unfold deg
  refine Finset.sum_congr rfl fun k _ => ?_
  rw [show idx_main_v19 (ix2 b i) k = ix3 b i k from ext3 _ _ rfl rfl rfl, adjT_eq]

/-- The first layer's mean aggregation of the input rows. -/
theorem agg1_eq (b : Fin 4096) (i : Fin 90) (f : Fin 195) :
    val_main_v23 (F := Ideal) x0 (ix3 b i f) = aggR (X x0 b) (X x0 b) i f := by
  rw [val_main_v23_apply, val_main_v21_apply, val_main_v22_apply, val_main_v20_apply,
    show idx_main_v20 (idx_main_v22 (ix3 b i f)) = ix2 b i from ext2 _ _ rfl rfl, deg_eq]
  simp only [Ideal.hostDivf_def]
  unfold aggR
  refine congrArg (Ideal.div · _) (Finset.sum_congr rfl fun k _ => ?_)
  rw [show lidx_main_v21 (ix3 b i f) k = ix3 b i k from ext3 _ _ rfl rfl rfl,
    show ridx_main_v21 (ix3 b i f) k = ix3 b k f from ext3 _ _ rfl rfl rfl, adjT_eq]

/-- The first layer's affine part. -/
theorem lin1_eq (b : Fin 4096) (n : Fin 90) (h : Fin 128) :
    val_main_v29 (F := Ideal) x0 x1 x2 x3 (ix3 b n h)
      = lin (aggR (X x0 b) (X x0 b)) (X x0 b) (M2 x1) (M2 x3) (V1 x2) n h := by
  rw [val_main_v29_apply, val_main_v27_apply, val_main_v24_apply, val_main_v26_apply, val_main_v25_apply,
    val_main_v28_apply]
  simp only [Ideal.addf_def]
  unfold lin
  refine congrArg₂ (· + ·) (congrArg₂ (· + ·) (Finset.sum_congr rfl fun k _ => ?_) (congrArg x2 (ext1 _ _ rfl)))
    (Finset.sum_congr rfl fun k _ => ?_)
  · rw [show lidx_main_v24 (ix3 b n h) k = ix3 b n k from ext3 _ _ rfl rfl rfl, agg1_eq,
      show ridx_main_v24 (ix3 b n h) k = ix2 h k from ext2 _ _ rfl rfl]
  · rw [show lidx_main_v28 (ix3 b n h) k = ix3 b n k from ext3 _ _ rfl rfl rfl,
      show ridx_main_v28 (ix3 b n h) k = ix2 h k from ext2 _ _ rfl rfl]

/-- The hidden layer. -/
theorem hid_eq (b : Fin 4096) (n : Fin 90) (h : Fin 128) :
    val_main_v30 (F := Ideal) x0 x1 x2 x3 (ix3 b n h) = hidR (X x0 b) (M2 x1) (V1 x2) (M2 x3) n h := by
  rw [val_main_v30_apply, val_main_call1_v0_apply, val_main_call1_cst_apply, lin1_eq]
  simp only [Ideal.maximumf_def, Ideal.ofBits_def, Ideal.ofBits_zero_f32]
  rfl

/-- The transposed adjacency, as the second layer reads it. -/
theorem adjT2_eq (b : Fin 4096) (i j : Fin 90) :
    val_main_v31 (F := Ideal) x0 (ix3 b i j) = adj (X x0 b) j i := by
  rw [val_main_v31_apply, show idx_main_v31 (ix3 b i j) = ix3 b j i from ext3 _ _ rfl rfl rfl, adj_eq]

/-- The in-degree, as the second layer takes it. -/
theorem deg2_eq (b : Fin 4096) (i : Fin 90) :
    val_main_v32 (F := Ideal) x0 (ix2 b i) = deg (X x0 b) i := by
  rw [val_main_v32_apply, val_main_cst_3_apply]
  simp only [Ideal.ofBits_def, Ideal.ofBits_zero_f32, zero_add]
  unfold deg
  refine Finset.sum_congr rfl fun k _ => ?_
  rw [show idx_main_v32 (ix2 b i) k = ix3 b i k from ext3 _ _ rfl rfl rfl, adjT2_eq]

/-- The second layer's mean aggregation of the hidden rows. -/
theorem agg2_eq (b : Fin 4096) (i : Fin 90) (h : Fin 128) :
    val_main_v36 (F := Ideal) x0 x1 x2 x3 (ix3 b i h)
      = aggR (X x0 b) (hidR (X x0 b) (M2 x1) (V1 x2) (M2 x3)) i h := by
  rw [val_main_v36_apply, val_main_v34_apply, val_main_v35_apply, val_main_v33_apply,
    show idx_main_v33 (idx_main_v35 (ix3 b i h)) = ix2 b i from ext2 _ _ rfl rfl, deg2_eq]
  simp only [Ideal.hostDivf_def]
  unfold aggR
  refine congrArg (Ideal.div · _) (Finset.sum_congr rfl fun k _ => ?_)
  rw [show lidx_main_v34 (ix3 b i h) k = ix3 b i k from ext3 _ _ rfl rfl rfl,
    show ridx_main_v34 (ix3 b i h) k = ix3 b k h from ext3 _ _ rfl rfl rfl, adjT2_eq, hid_eq]

/-- Both graph layers. -/
theorem sage_eq (b : Fin 4096) (n : Fin 90) (o : Fin 64) :
    val_main_v42 (F := Ideal) x0 x1 x2 x3 x4 x5 x6 (ix3 b n o)
      = sageR (X x0 b) (M2 x1) (V1 x2) (M2 x3) (M2 x4) (V1 x5) (M2 x6) n o := by
  rw [val_main_v42_apply, val_main_v40_apply, val_main_v37_apply, val_main_v39_apply, val_main_v38_apply,
    val_main_v41_apply]
  simp only [Ideal.addf_def]
  unfold sageR lin
  refine congrArg₂ (· + ·) (congrArg₂ (· + ·) (Finset.sum_congr rfl fun k _ => ?_) (congrArg x5 (ext1 _ _ rfl)))
    (Finset.sum_congr rfl fun k _ => ?_)
  · rw [show lidx_main_v37 (ix3 b n o) k = ix3 b n k from ext3 _ _ rfl rfl rfl, agg2_eq,
      show ridx_main_v37 (ix3 b n o) k = ix2 o k from ext2 _ _ rfl rfl]
  · rw [show lidx_main_v41 (ix3 b n o) k = ix3 b n k from ext3 _ _ rfl rfl rfl, hid_eq,
      show ridx_main_v41 (ix3 b n o) k = ix2 o k from ext2 _ _ rfl rfl]

end Graph

/-- THE REFERENCE'S GRAPH LAYERS: the flattened output of the second layer, read at batch element b and position k,
    is the specification's two-layer network on batch element b, flattened row-major. -/
theorem v43_eq (x0 : (⟨S4096x90x195, .f32⟩ : BufTy).Contents (Elt Ideal))
    (x1 : (⟨S128x195, .f32⟩ : BufTy).Contents (Elt Ideal)) (x2 : (⟨S128, .f32⟩ : BufTy).Contents (Elt Ideal))
    (x3 : (⟨S128x195, .f32⟩ : BufTy).Contents (Elt Ideal)) (x4 : (⟨S64x128, .f32⟩ : BufTy).Contents (Elt Ideal))
    (x5 : (⟨S64, .f32⟩ : BufTy).Contents (Elt Ideal)) (x6 : (⟨S64x128, .f32⟩ : BufTy).Contents (Elt Ideal))
    (b : Fin 4096) (k : Fin 5760) :
    val_main_v43 (F := Ideal) x0 x1 x2 x3 x4 x5 x6 (ix2 b k)
      = Cert.GraphSpec.flat (Cert.GraphSpec.sageR (fun n f => x0 (ix3 b n f)) (fun h f => x1 (ix2 h f))
          (fun h => x2 (ix1 h)) (fun h f => x3 (ix2 h f)) (fun o h => x4 (ix2 o h)) (fun o => x5 (ix1 o))
          (fun o h => x6 (ix2 o h))) k := by
  have hk := k.isLt
  have hb := b.isLt
  rw [val_main_v43_apply,
    show idx_main_v43 (ix2 b k) = ix3 b (⟨k.val / 64, by omega⟩ : Fin 90) (⟨k.val % 64, by omega⟩ : Fin 64) from
      ext3 _ _ (by show (b.val * 5760 + k.val) / 5760 = b.val; omega)
        (by show (b.val * 5760 + k.val) / 64 % 90 = k.val / 64; omega)
        (by show (b.val * 5760 + k.val) % 64 = k.val % 64; omega),
    sage_eq]
  rfl

end Cert.RefGraph

end
-- ==== Proof.RefHead.lean ====
/-
  The reference's dense head, read one entry at a time.

  Writing u k for the flattened graph output of batch element b at position k, every entry of the
  reference's second result is Spec's `outv` of u and the head's weights, and every entry of its first
  result is the two-way soft-max of Spec's `logit`.  The flattened graph output stays opaque here.
-/
import proofs.«169563_j52381421142390_2_alg».proof.Proof.Spec
import proofs.«169563_j52381421142390_2_alg».proof.Proof.Gen.ReferenceIdeal.Read

noncomputable section

namespace Cert.RefHead

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.GraphSpec (fc bn stage1 outv logit rowMax softmax2 weps wninf)

variable (x0 : (⟨S4096x90x195, .f32⟩ : BufTy).Contents (Elt Ideal)) (x1 : (⟨S128x195, .f32⟩ : BufTy).Contents (Elt Ideal)) (x2 : (⟨S128, .f32⟩ : BufTy).Contents (Elt Ideal)) (x3 : (⟨S128x195, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S512x5760, .f32⟩ : BufTy).Contents (Elt Ideal)) (x8 x9 x10 x11 x12 : (⟨S512, .f32⟩ : BufTy).Contents (Elt Ideal)) (x13 : (⟨S256x512, .f32⟩ : BufTy).Contents (Elt Ideal)) (x14 x15 x16 x17 x18 : (⟨S256, .f32⟩ : BufTy).Contents (Elt Ideal)) (x19 : (⟨S2x256, .f32⟩ : BufTy).Contents (Elt Ideal)) (x20 : (⟨S2, .f32⟩ : BufTy).Contents (Elt Ideal))

/-! ## First stage: 5760 → 512 -/

/-- The first bias, broadcast over the batch, at (b, h). -/
theorem v47_at (b : Fin 4096) (h : Fin 512) : val_main_v47 (F := Ideal) x8 (ix2 b h) = x8 (ix1 h) := by
  rw [val_main_v47_apply, val_main_v46_apply]
  exact congrArg x8 (funext fun a => by match a with | ⟨0, _⟩ => rfl)

/-- The first stage's stored mean, broadcast over the batch, at (b, h). -/
theorem v51_at (b : Fin 4096) (h : Fin 512) : val_main_v51 (F := Ideal) x11 (ix2 b h) = x11 (ix1 h) := by
  rw [val_main_v51_apply, val_main_v50_apply]
  exact congrArg x11 (funext fun a => by match a with | ⟨0, _⟩ => rfl)

/-- The first stage's scale, broadcast over the batch, at (b, h). -/
theorem v60_at (b : Fin 4096) (h : Fin 512) : val_main_v60 (F := Ideal) x9 (ix2 b h) = x9 (ix1 h) := by
  rw [val_main_v60_apply, val_main_v59_apply]
  exact congrArg x9 (funext fun a => by match a with | ⟨0, _⟩ => rfl)

/-- The first stage's shift, broadcast over the batch, at (b, h). -/
theorem v63_at (b : Fin 4096) (h : Fin 512) : val_main_v63 (F := Ideal) x10 (ix2 b h) = x10 (ix1 h) := by
  rw [val_main_v63_apply, val_main_v62_apply]
  exact congrArg x10 (funext fun a => by match a with | ⟨0, _⟩ => rfl)

/-- The first stage's reciprocal standard deviation, broadcast over the batch, at (b, h). -/
theorem v57_at (b : Fin 4096) (h : Fin 512) :
    val_main_v57 (F := Ideal) x12 (ix2 b h) = Ideal.rsqrt (x12 (ix1 h) + weps) := by
  rw [val_main_v57_apply, val_main_v56_apply, val_main_v55_apply, val_main_v54_apply, val_main_v53_apply,
    val_main_cst_4_apply]
  simp only [Ideal.hostUnary_rsqrt_def, Ideal.addf_def, Ideal.ofBits_def]
  exact congrArg (fun i => Ideal.rsqrt (x12 i + weps)) (funext fun a => by match a with | ⟨0, _⟩ => rfl)

/-- The first product at (b, h): row b of the flattened graph output against row h of the first weight. -/
theorem v45_at (b : Fin 4096) (h : Fin 512) :
    val_main_v45 (F := Ideal) x0 x1 x2 x3 x4 x5 x6 x7 (ix2 b h)
      = ∑ k : Fin 5760, val_main_v43 (F := Ideal) x0 x1 x2 x3 x4 x5 x6 (ix2 b k) * x7 (ix2 h k) := by
  rw [val_main_v45_apply]
  refine Finset.sum_congr rfl fun k _ => ?_
  rw [val_main_v44_apply]
  refine congrArg₂ (· * ·) (congrArg (val_main_v43 (F := Ideal) x0 x1 x2 x3 x4 x5 x6) (funext fun a => by match a with | ⟨0, _⟩ => rfl | ⟨1, _⟩ => rfl))
    (congrArg x7 (funext fun a => by match a with | ⟨0, _⟩ => rfl | ⟨1, _⟩ => rfl))

/-- The first dense layer at (b, h). -/
theorem v48_at (b : Fin 4096) (h : Fin 512) :
    val_main_v48 (F := Ideal) x0 x1 x2 x3 x4 x5 x6 x7 x8 (ix2 b h)
      = fc (fun k => val_main_v43 (F := Ideal) x0 x1 x2 x3 x4 x5 x6 (ix2 b k)) (fun h k => x7 (ix2 h k)) (fun h => x8 (ix1 h)) h := by
  rw [val_main_v48_apply, Ideal.addf_def, v45_at, v47_at]
  rfl

/-- The rectifier's zero splat over [4096, 512] is 0 everywhere. -/
theorem call2_v0_at (i : S4096x512.Idx) : val_main_call2_v0 (F := Ideal) i = 0 := by
  rw [val_main_call2_v0_apply, val_main_call2_cst_apply, Ideal.ofBits_def, Ideal.ofBits_zero_f32]

/-- The first stage at (b, h): dense layer, rectifier, affine normalisation. -/
theorem v64_at (b : Fin 4096) (h : Fin 512) :
    val_main_v64 (F := Ideal) x0 x1 x2 x3 x4 x5 x6 x7 x8 x9 x10 x11 x12 (ix2 b h)
      = stage1 (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) h := by
  rw [val_main_v64_apply, val_main_v61_apply, val_main_v58_apply, val_main_v52_apply, val_main_v49_apply,
    v48_at, call2_v0_at, v51_at, v57_at, v60_at, v63_at]
  rfl

/-! ## Second stage: 512 → 256 -/

/-- The second bias, broadcast over the batch, at (b, c). -/
theorem v68_at (b : Fin 4096) (c : Fin 256) : val_main_v68 (F := Ideal) x14 (ix2 b c) = x14 (ix1 c) := by
  rw [val_main_v68_apply, val_main_v67_apply]
  exact congrArg x14 (funext fun a => by match a with | ⟨0, _⟩ => rfl)

/-- The second stage's stored mean, broadcast over the batch, at (b, c). -/
theorem v72_at (b : Fin 4096) (c : Fin 256) : val_main_v72 (F := Ideal) x17 (ix2 b c) = x17 (ix1 c) := by
  rw [val_main_v72_apply, val_main_v71_apply]
  exact congrArg x17 (funext fun a => by match a with | ⟨0, _⟩ => rfl)

/-- The second stage's scale, broadcast over the batch, at (b, c). -/
theorem v81_at (b : Fin 4096) (c : Fin 256) : val_main_v81 (F := Ideal) x15 (ix2 b c) = x15 (ix1 c) := by
  rw [val_main_v81_apply, val_main_v80_apply]
  exact congrArg x15 (funext fun a => by match a with | ⟨0, _⟩ => rfl)

/-- The second stage's shift, broadcast over the batch, at (b, c). -/
theorem v84_at (b : Fin 4096) (c : Fin 256) : val_main_v84 (F := Ideal) x16 (ix2 b c) = x16 (ix1 c) := by
  rw [val_main_v84_apply, val_main_v83_apply]
  exact congrArg x16 (funext fun a => by match a with | ⟨0, _⟩ => rfl)

/-- The second stage's reciprocal standard deviation, broadcast over the batch, at (b, c). -/
theorem v78_at (b : Fin 4096) (c : Fin 256) :
    val_main_v78 (F := Ideal) x18 (ix2 b c) = Ideal.rsqrt (x18 (ix1 c) + weps) := by
  rw [val_main_v78_apply, val_main_v77_apply, val_main_v76_apply, val_main_v75_apply, val_main_v74_apply,
    val_main_cst_5_apply]
  simp only [Ideal.hostUnary_rsqrt_def, Ideal.addf_def, Ideal.ofBits_def]
  exact congrArg (fun i => Ideal.rsqrt (x18 i + weps)) (funext fun a => by match a with | ⟨0, _⟩ => rfl)

/-- The second product at (b, c): the first stage's row b against row c of the second weight. -/
theorem v66_at (b : Fin 4096) (c : Fin 256) :
    val_main_v66 (F := Ideal) x0 x1 x2 x3 x4 x5 x6 x7 x8 x9 x10 x11 x12 x13 (ix2 b c)
      = ∑ k : Fin 512, stage1 (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) k * x13 (ix2 c k) := by
  rw [val_main_v66_apply]
  refine Finset.sum_congr rfl fun k _ => ?_
  rw [val_main_v65_apply, ← v64_at x0 x1 x2 x3 x4 x5 x6 x7 x8 x9 x10 x11 x12 b k]
  refine congrArg₂ (· * ·) (congrArg (val_main_v64 (F := Ideal) x0 x1 x2 x3 x4 x5 x6 x7 x8 x9 x10 x11 x12) (funext fun a => by match a with | ⟨0, _⟩ => rfl | ⟨1, _⟩ => rfl))
    (congrArg x13 (funext fun a => by match a with | ⟨0, _⟩ => rfl | ⟨1, _⟩ => rfl))

/-- The rectifier's zero splat over [4096, 256] is 0 everywhere. -/
theorem call3_v0_at (i : S4096x256.Idx) : val_main_call3_v0 (F := Ideal) i = 0 := by
  rw [val_main_call3_v0_apply, val_main_call3_cst_apply, Ideal.ofBits_def, Ideal.ofBits_zero_f32]

/-- The reference's second result at (b, c) is `outv` of batch element b's flattened graph output. -/
theorem v85_eq (b : Fin 4096) (c : Fin 256) :
    val_main_v85 (F := Ideal) x0 x1 x2 x3 x4 x5 x6 x7 x8 x9 x10 x11 x12 x13 x14 x15 x16 x17 x18 (ix2 b c)
      = Cert.GraphSpec.outv (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) c := by
  rw [val_main_v85_apply, val_main_v82_apply, val_main_v79_apply, val_main_v73_apply, val_main_v70_apply,
    val_main_v69_apply, v66_at, call3_v0_at, v68_at, v72_at, v78_at, v81_at, v84_at]
  rfl

/-! ## Logits and soft-max -/

/-- The last bias, broadcast over the batch, at (b, j). -/
theorem v89_at (b : Fin 4096) (j : Fin 2) : val_main_v89 (F := Ideal) x20 (ix2 b j) = x20 (ix1 j) := by
  rw [val_main_v89_apply, val_main_v88_apply]
  exact congrArg x20 (funext fun a => by match a with | ⟨0, _⟩ => rfl)

/-- The last product at (b, j): the second result's row b against row j of the last weight. -/
theorem v87_at (b : Fin 4096) (j : Fin 2) :
    val_main_v87 (F := Ideal) x0 x1 x2 x3 x4 x5 x6 x7 x8 x9 x10 x11 x12 x13 x14 x15 x16 x17 x18 x19 (ix2 b j)
      = ∑ k : Fin 256, outv (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) k * x19 (ix2 j k) := by
  rw [val_main_v87_apply]
  refine Finset.sum_congr rfl fun k _ => ?_
  rw [val_main_v86_apply, ← v85_eq x0 x1 x2 x3 x4 x5 x6 x7 x8 x9 x10 x11 x12 x13 x14 x15 x16 x17 x18 b k]
  exact congrArg₂ (· * ·)
    (congrArg (val_main_v85 (F := Ideal) x0 x1 x2 x3 x4 x5 x6 x7 x8 x9 x10 x11 x12 x13 x14 x15 x16 x17 x18) (funext fun a => by match a with | ⟨0, _⟩ => rfl | ⟨1, _⟩ => rfl))
    (congrArg x19 (funext fun a => by match a with | ⟨0, _⟩ => rfl | ⟨1, _⟩ => rfl))

/-- The logits at (b, j). -/
theorem v90_at (b : Fin 4096) (j : Fin 2) :
    val_main_v90 (F := Ideal) x0 x1 x2 x3 x4 x5 x6 x7 x8 x9 x10 x11 x12 x13 x14 x15 x16 x17 x18 x19 x20 (ix2 b j) = logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j)) j := by
  rw [val_main_v90_apply, Ideal.addf_def, v87_at, v89_at]
  rfl

/-- The running maximum of row b from -∞: a fold of `max` over the row's two entries. -/
theorem v91_at (b : Fin 4096) :
    val_main_v91 (F := Ideal) x0 x1 x2 x3 x4 x5 x6 x7 x8 x9 x10 x11 x12 x13 x14 x15 x16 x17 x18 x19 x20 (ix1 b)
      = (Finset.univ : Finset (Fin 2)).fold max wninf
          (fun k => val_main_v90 (F := Ideal) x0 x1 x2 x3 x4 x5 x6 x7 x8 x9 x10 x11 x12 x13 x14 x15 x16 x17 x18 x19 x20 (ix2 b k)) := by
  unfold val_main_v91
  generalize val_main_v90 (F := Ideal) x0 x1 x2 x3 x4 x5 x6 x7 x8 x9 x10 x11 x12 x13 x14 x15 x16 x17 x18 x19 x20 = y
  have h : S4096x2.Reduces [1] S4096 := by decide
  refine (Host.reduce_eq_fold_single (α := EReal) (FloatOps.maximumf (F := Ideal) (φ := .f32)) y _
    reducesTo_S4096x2_S4096_d1 h h_S_ (ix1 b)).trans ?_
  have hf : (y ∘ h.lift (ix1 b)) = fun k : Fin 2 => y (ix2 b k) :=
    funext fun k => congrArg y (funext fun a => Fin.ext (by match a with | ⟨0, _⟩ => rfl | ⟨1, _⟩ => rfl))
  rw [hf]
  rfl

/-- The shift the soft-max subtracts from row b. -/
theorem v93_at (b : Fin 4096) :
    val_main_v93 (F := Ideal) x0 x1 x2 x3 x4 x5 x6 x7 x8 x9 x10 x11 x12 x13 x14 x15 x16 x17 x18 x19 x20 (ix1 b) = rowMax (logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j))) := by
  rw [val_main_v93_apply, val_main_v92_apply, val_main_cst_7_apply, v91_at]
  simp only [Ideal.maximumf_def, Ideal.ofBits_def]
  unfold rowMax
  exact congrArg (max wninf) (congrArg (fun l => Finset.fold max wninf l (Finset.univ : Finset (Fin 2)))
    (funext fun k => v90_at x0 x1 x2 x3 x4 x5 x6 x7 x8 x9 x10 x11 x12 x13 x14 x15 x16 x17 x18 x19 x20 b k))

/-- The shift, broadcast along the row, at (b, j). -/
theorem v95_at (b : Fin 4096) (j : Fin 2) :
    val_main_v95 (F := Ideal) x0 x1 x2 x3 x4 x5 x6 x7 x8 x9 x10 x11 x12 x13 x14 x15 x16 x17 x18 x19 x20 (ix2 b j) = rowMax (logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j))) := by
  rw [val_main_v95_apply, val_main_v94_apply, ← v93_at x0 x1 x2 x3 x4 x5 x6 x7 x8 x9 x10 x11 x12 x13 x14 x15 x16 x17 x18 x19 x20 b]
  exact congrArg (val_main_v93 (F := Ideal) x0 x1 x2 x3 x4 x5 x6 x7 x8 x9 x10 x11 x12 x13 x14 x15 x16 x17 x18 x19 x20) (funext fun a => by match a with | ⟨0, _⟩ => rfl)

/-- The exponentials at (b, j). -/
theorem v97_at (b : Fin 4096) (j : Fin 2) :
    val_main_v97 (F := Ideal) x0 x1 x2 x3 x4 x5 x6 x7 x8 x9 x10 x11 x12 x13 x14 x15 x16 x17 x18 x19 x20 (ix2 b j) = Ideal.exp ((logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j))) j - rowMax (logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j)))) := by
  rw [val_main_v97_apply, val_main_v96_apply, v90_at, v95_at]
  rfl

/-- The exponentials' row sum at b. -/
theorem v98_at (b : Fin 4096) :
    val_main_v98 (F := Ideal) x0 x1 x2 x3 x4 x5 x6 x7 x8 x9 x10 x11 x12 x13 x14 x15 x16 x17 x18 x19 x20 (ix1 b) = ∑ j' : Fin 2, Ideal.exp ((logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j))) j' - rowMax (logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j)))) := by
  rw [val_main_v98_apply, val_main_cst_8_apply, Ideal.ofBits_def, Ideal.ofBits_zero_f32, zero_add]
  refine Finset.sum_congr rfl fun k _ => ?_
  rw [← v97_at x0 x1 x2 x3 x4 x5 x6 x7 x8 x9 x10 x11 x12 x13 x14 x15 x16 x17 x18 x19 x20 b k]
  exact congrArg (val_main_v97 (F := Ideal) x0 x1 x2 x3 x4 x5 x6 x7 x8 x9 x10 x11 x12 x13 x14 x15 x16 x17 x18 x19 x20) (funext fun a => by match a with | ⟨0, _⟩ => rfl | ⟨1, _⟩ => rfl)

/-- The row sum, broadcast along the row, at (b, j). -/
theorem v100_at (b : Fin 4096) (j : Fin 2) :
    val_main_v100 (F := Ideal) x0 x1 x2 x3 x4 x5 x6 x7 x8 x9 x10 x11 x12 x13 x14 x15 x16 x17 x18 x19 x20 (ix2 b j) = ∑ j' : Fin 2, Ideal.exp ((logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j))) j' - rowMax (logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j)))) := by
  rw [val_main_v100_apply, val_main_v99_apply, ← v98_at x0 x1 x2 x3 x4 x5 x6 x7 x8 x9 x10 x11 x12 x13 x14 x15 x16 x17 x18 x19 x20 b]
  exact congrArg (val_main_v98 (F := Ideal) x0 x1 x2 x3 x4 x5 x6 x7 x8 x9 x10 x11 x12 x13 x14 x15 x16 x17 x18 x19 x20) (funext fun a => by match a with | ⟨0, _⟩ => rfl)

/-- The reference's first result at (b, j) is the soft-max of batch element b's two logits. -/
theorem v101_eq (b : Fin 4096) (j : Fin 2) :
    val_main_v101 (F := Ideal) x0 x1 x2 x3 x4 x5 x6 x7 x8 x9 x10 x11 x12 x13 x14 x15 x16 x17 x18 x19 x20 (ix2 b j)
      = Cert.GraphSpec.softmax2 (Cert.GraphSpec.logit (fun k => val_main_v43 (F := Ideal) x0 x1 x2 x3 x4 x5 x6 (ix2 b k)) (fun h k => x7 (ix2 h k)) (fun h => x8 (ix1 h)) (fun h => x9 (ix1 h)) (fun h => x10 (ix1 h)) (fun h => x11 (ix1 h)) (fun h => x12 (ix1 h)) (fun c h => x13 (ix2 c h)) (fun c => x14 (ix1 c)) (fun c => x15 (ix1 c)) (fun c => x16 (ix1 c)) (fun c => x17 (ix1 c)) (fun c => x18 (ix1 c)) (fun j c => x19 (ix2 j c)) (fun j => x20 (ix1 j))) j := by
  rw [val_main_v101_apply, v97_at, v100_at]
  rfl

end Cert.RefHead

end
-- ==== Proof.Bridge.lean ====
/-
  The reference's two results are the kernel program's, index by index.

  The reference's results are its stages `val_main_v85` and `val_main_v101` of the arguments; read at (b, ·) they are the
  head of row b, whose input is the flattened two graph layers of batch element b, aggregated the reference's way
  (hypotheses `hv43`, `hv85`, `hv101`: the reference's operations read at an index).  The kernel program's results are
  the same head of the same rows with the layers aggregated the kernel's way.  On every batch element of the launch
  memory the two ways agree (`hlaw`), and the two programs start from memories agreeing on the arguments.
-/
import proofs.«169563_j52381421142390_2_alg».proof.Defs
import proofs.«169563_j52381421142390_2_alg».proof.Proof.Spec
import proofs.«169563_j52381421142390_2_alg».proof.Proof.KValue
import proofs.«169563_j52381421142390_2_alg».proof.Proof.Gen.ReferenceIdeal.Read
import Idealize.ShloMosaic.Lib.ValueIdx

set_option maxRecDepth 16384

noncomputable section

namespace Cert.Bridge

open Idealize.ShloMosaic Idealize.ShloMosaic.TcCoe Idealize.SL.Sem Idealize.ShloMosaic.ValueIdx
open Cert.KernelIdeal.Hand

section

variable
  (hv43 : ∀ (a0 : Cert.ReferenceIdeal.S4096x90x195.Idx → EReal) (a1 : Cert.ReferenceIdeal.S128x195.Idx → EReal) (a2 : Cert.ReferenceIdeal.S128.Idx → EReal) (a3 : Cert.ReferenceIdeal.S128x195.Idx → EReal) (a4 : Cert.ReferenceIdeal.S64x128.Idx → EReal) (a5 : Cert.ReferenceIdeal.S64.Idx → EReal) (a6 : Cert.ReferenceIdeal.S64x128.Idx → EReal) (b : Fin 4096) (k : Fin 5760),
    Cert.ReferenceIdeal.Read.val_main_v43 (F := Ideal) a0 a1 a2 a3 a4 a5 a6 (ix2 b k) = Cert.GraphSpec.flat (Cert.GraphSpec.sageR (fun n f => a0 (ix3 b n f)) (fun p q => a1 (ix2 p q)) (fun p => a2 (ix1 p)) (fun p q => a3 (ix2 p q)) (fun p q => a4 (ix2 p q)) (fun p => a5 (ix1 p)) (fun p q => a6 (ix2 p q))) k)
  (hv85 : ∀ (a0 : Cert.ReferenceIdeal.S4096x90x195.Idx → EReal) (a1 : Cert.ReferenceIdeal.S128x195.Idx → EReal) (a2 : Cert.ReferenceIdeal.S128.Idx → EReal) (a3 : Cert.ReferenceIdeal.S128x195.Idx → EReal) (a4 : Cert.ReferenceIdeal.S64x128.Idx → EReal) (a5 : Cert.ReferenceIdeal.S64.Idx → EReal) (a6 : Cert.ReferenceIdeal.S64x128.Idx → EReal) (a7 : Cert.ReferenceIdeal.S512x5760.Idx → EReal) (a8 : Cert.ReferenceIdeal.S512.Idx → EReal) (a9 : Cert.ReferenceIdeal.S512.Idx → EReal) (a10 : Cert.ReferenceIdeal.S512.Idx → EReal) (a11 : Cert.ReferenceIdeal.S512.Idx → EReal) (a12 : Cert.ReferenceIdeal.S512.Idx → EReal) (a13 : Cert.ReferenceIdeal.S256x512.Idx → EReal) (a14 : Cert.ReferenceIdeal.S256.Idx → EReal) (a15 : Cert.ReferenceIdeal.S256.Idx → EReal) (a16 : Cert.ReferenceIdeal.S256.Idx → EReal) (a17 : Cert.ReferenceIdeal.S256.Idx → EReal) (a18 : Cert.ReferenceIdeal.S256.Idx → EReal) (b : Fin 4096) (cc : Fin 256),
    Cert.ReferenceIdeal.Read.val_main_v85 (F := Ideal) a0 a1 a2 a3 a4 a5 a6 a7 a8 a9 a10 a11 a12 a13 a14 a15 a16 a17 a18 (ix2 b cc)
      = Cert.GraphSpec.outv (fun k => Cert.ReferenceIdeal.Read.val_main_v43 (F := Ideal) a0 a1 a2 a3 a4 a5 a6 (ix2 b k)) (fun p q => a7 (ix2 p q)) (fun p => a8 (ix1 p)) (fun p => a9 (ix1 p)) (fun p => a10 (ix1 p)) (fun p => a11 (ix1 p)) (fun p => a12 (ix1 p)) (fun p q => a13 (ix2 p q)) (fun p => a14 (ix1 p)) (fun p => a15 (ix1 p)) (fun p => a16 (ix1 p)) (fun p => a17 (ix1 p)) (fun p => a18 (ix1 p)) cc)
  (hv101 : ∀ (a0 : Cert.ReferenceIdeal.S4096x90x195.Idx → EReal) (a1 : Cert.ReferenceIdeal.S128x195.Idx → EReal) (a2 : Cert.ReferenceIdeal.S128.Idx → EReal) (a3 : Cert.ReferenceIdeal.S128x195.Idx → EReal) (a4 : Cert.ReferenceIdeal.S64x128.Idx → EReal) (a5 : Cert.ReferenceIdeal.S64.Idx → EReal) (a6 : Cert.ReferenceIdeal.S64x128.Idx → EReal) (a7 : Cert.ReferenceIdeal.S512x5760.Idx → EReal) (a8 : Cert.ReferenceIdeal.S512.Idx → EReal) (a9 : Cert.ReferenceIdeal.S512.Idx → EReal) (a10 : Cert.ReferenceIdeal.S512.Idx → EReal) (a11 : Cert.ReferenceIdeal.S512.Idx → EReal) (a12 : Cert.ReferenceIdeal.S512.Idx → EReal) (a13 : Cert.ReferenceIdeal.S256x512.Idx → EReal) (a14 : Cert.ReferenceIdeal.S256.Idx → EReal) (a15 : Cert.ReferenceIdeal.S256.Idx → EReal) (a16 : Cert.ReferenceIdeal.S256.Idx → EReal) (a17 : Cert.ReferenceIdeal.S256.Idx → EReal) (a18 : Cert.ReferenceIdeal.S256.Idx → EReal) (a19 : Cert.ReferenceIdeal.S2x256.Idx → EReal) (a20 : Cert.ReferenceIdeal.S2.Idx → EReal) (b : Fin 4096) (j : Fin 2),
    Cert.ReferenceIdeal.Read.val_main_v101 (F := Ideal) a0 a1 a2 a3 a4 a5 a6 a7 a8 a9 a10 a11 a12 a13 a14 a15 a16 a17 a18 a19 a20 (ix2 b j)
      = Cert.GraphSpec.softmax2 (Cert.GraphSpec.logit (fun k => Cert.ReferenceIdeal.Read.val_main_v43 (F := Ideal) a0 a1 a2 a3 a4 a5 a6 (ix2 b k)) (fun p q => a7 (ix2 p q)) (fun p => a8 (ix1 p)) (fun p => a9 (ix1 p)) (fun p => a10 (ix1 p)) (fun p => a11 (ix1 p)) (fun p => a12 (ix1 p)) (fun p q => a13 (ix2 p q)) (fun p => a14 (ix1 p)) (fun p => a15 (ix1 p)) (fun p => a16 (ix1 p)) (fun p => a17 (ix1 p)) (fun p => a18 (ix1 p)) (fun p q => a19 (ix2 p q)) (fun p => a20 (ix1 p))) j)

include hv43 hv85 in
/-- The reference's second result at (b, cc), from any argument arrays. -/
theorem ref_out_apply (a0 : Cert.ReferenceIdeal.S4096x90x195.Idx → EReal) (a1 : Cert.ReferenceIdeal.S128x195.Idx → EReal) (a2 : Cert.ReferenceIdeal.S128.Idx → EReal) (a3 : Cert.ReferenceIdeal.S128x195.Idx → EReal) (a4 : Cert.ReferenceIdeal.S64x128.Idx → EReal) (a5 : Cert.ReferenceIdeal.S64.Idx → EReal) (a6 : Cert.ReferenceIdeal.S64x128.Idx → EReal) (a7 : Cert.ReferenceIdeal.S512x5760.Idx → EReal) (a8 : Cert.ReferenceIdeal.S512.Idx → EReal) (a9 : Cert.ReferenceIdeal.S512.Idx → EReal) (a10 : Cert.ReferenceIdeal.S512.Idx → EReal) (a11 : Cert.ReferenceIdeal.S512.Idx → EReal) (a12 : Cert.ReferenceIdeal.S512.Idx → EReal) (a13 : Cert.ReferenceIdeal.S256x512.Idx → EReal) (a14 : Cert.ReferenceIdeal.S256.Idx → EReal) (a15 : Cert.ReferenceIdeal.S256.Idx → EReal) (a16 : Cert.ReferenceIdeal.S256.Idx → EReal) (a17 : Cert.ReferenceIdeal.S256.Idx → EReal) (a18 : Cert.ReferenceIdeal.S256.Idx → EReal) (b : Fin 4096) (cc : Fin 256) :
    Cert.ReferenceIdeal.Read.val_main_v85 (F := Ideal) a0 a1 a2 a3 a4 a5 a6 a7 a8 a9 a10 a11 a12 a13 a14 a15 a16 a17 a18 (ix2 b cc)
      = Cert.GraphSpec.outv (Cert.GraphSpec.flat (Cert.GraphSpec.sageR (fun n f => a0 (ix3 b n f)) (fun p q => a1 (ix2 p q)) (fun p => a2 (ix1 p)) (fun p q => a3 (ix2 p q)) (fun p q => a4 (ix2 p q)) (fun p => a5 (ix1 p)) (fun p q => a6 (ix2 p q)))) (fun p q => a7 (ix2 p q)) (fun p => a8 (ix1 p)) (fun p => a9 (ix1 p)) (fun p => a10 (ix1 p)) (fun p => a11 (ix1 p)) (fun p => a12 (ix1 p)) (fun p q => a13 (ix2 p q)) (fun p => a14 (ix1 p)) (fun p => a15 (ix1 p)) (fun p => a16 (ix1 p)) (fun p => a17 (ix1 p)) (fun p => a18 (ix1 p)) cc := by
  rw [hv85]
  exact congrArg (fun u => Cert.GraphSpec.outv u (fun p q => a7 (ix2 p q)) (fun p => a8 (ix1 p)) (fun p => a9 (ix1 p)) (fun p => a10 (ix1 p)) (fun p => a11 (ix1 p)) (fun p => a12 (ix1 p)) (fun p q => a13 (ix2 p q)) (fun p => a14 (ix1 p)) (fun p => a15 (ix1 p)) (fun p => a16 (ix1 p)) (fun p => a17 (ix1 p)) (fun p => a18 (ix1 p)) cc) (funext fun k => hv43 a0 a1 a2 a3 a4 a5 a6 b k)

include hv43 hv101 in
/-- The reference's first result at (b, j), from any argument arrays. -/
theorem ref_probs_apply (a0 : Cert.ReferenceIdeal.S4096x90x195.Idx → EReal) (a1 : Cert.ReferenceIdeal.S128x195.Idx → EReal) (a2 : Cert.ReferenceIdeal.S128.Idx → EReal) (a3 : Cert.ReferenceIdeal.S128x195.Idx → EReal) (a4 : Cert.ReferenceIdeal.S64x128.Idx → EReal) (a5 : Cert.ReferenceIdeal.S64.Idx → EReal) (a6 : Cert.ReferenceIdeal.S64x128.Idx → EReal) (a7 : Cert.ReferenceIdeal.S512x5760.Idx → EReal) (a8 : Cert.ReferenceIdeal.S512.Idx → EReal) (a9 : Cert.ReferenceIdeal.S512.Idx → EReal) (a10 : Cert.ReferenceIdeal.S512.Idx → EReal) (a11 : Cert.ReferenceIdeal.S512.Idx → EReal) (a12 : Cert.ReferenceIdeal.S512.Idx → EReal) (a13 : Cert.ReferenceIdeal.S256x512.Idx → EReal) (a14 : Cert.ReferenceIdeal.S256.Idx → EReal) (a15 : Cert.ReferenceIdeal.S256.Idx → EReal) (a16 : Cert.ReferenceIdeal.S256.Idx → EReal) (a17 : Cert.ReferenceIdeal.S256.Idx → EReal) (a18 : Cert.ReferenceIdeal.S256.Idx → EReal) (a19 : Cert.ReferenceIdeal.S2x256.Idx → EReal) (a20 : Cert.ReferenceIdeal.S2.Idx → EReal) (b : Fin 4096) (j : Fin 2) :
    Cert.ReferenceIdeal.Read.val_main_v101 (F := Ideal) a0 a1 a2 a3 a4 a5 a6 a7 a8 a9 a10 a11 a12 a13 a14 a15 a16 a17 a18 a19 a20 (ix2 b j)
      = Cert.GraphSpec.softmax2 (Cert.GraphSpec.logit (Cert.GraphSpec.flat (Cert.GraphSpec.sageR (fun n f => a0 (ix3 b n f)) (fun p q => a1 (ix2 p q)) (fun p => a2 (ix1 p)) (fun p q => a3 (ix2 p q)) (fun p q => a4 (ix2 p q)) (fun p => a5 (ix1 p)) (fun p q => a6 (ix2 p q)))) (fun p q => a7 (ix2 p q)) (fun p => a8 (ix1 p)) (fun p => a9 (ix1 p)) (fun p => a10 (ix1 p)) (fun p => a11 (ix1 p)) (fun p => a12 (ix1 p)) (fun p q => a13 (ix2 p q)) (fun p => a14 (ix1 p)) (fun p => a15 (ix1 p)) (fun p => a16 (ix1 p)) (fun p => a17 (ix1 p)) (fun p => a18 (ix1 p)) (fun p q => a19 (ix2 p q)) (fun p => a20 (ix1 p))) j := by
  rw [hv101]
  exact congrArg (fun u => Cert.GraphSpec.softmax2 (Cert.GraphSpec.logit u (fun p q => a7 (ix2 p q)) (fun p => a8 (ix1 p)) (fun p => a9 (ix1 p)) (fun p => a10 (ix1 p)) (fun p => a11 (ix1 p)) (fun p => a12 (ix1 p)) (fun p q => a13 (ix2 p q)) (fun p => a14 (ix1 p)) (fun p => a15 (ix1 p)) (fun p => a16 (ix1 p)) (fun p => a17 (ix1 p)) (fun p => a18 (ix1 p)) (fun p q => a19 (ix2 p q)) (fun p => a20 (ix1 p))) j) (funext fun k => hv43 a0 a1 a2 a3 a4 a5 a6 b k)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
  (hlaw : ∀ (c : Dev Cert.KernelIdeal.nD) (b : Fin 4096),
      Cert.GraphSpec.sageK (sig0 m c b) (tab2 (m ((c.tc : Thread Cert.KernelIdeal.nD Cert.KernelIdeal.τ).loc Cert.KernelIdeal.main_arg1))) (tab1 (m ((c.tc : Thread Cert.KernelIdeal.nD Cert.KernelIdeal.τ).loc Cert.KernelIdeal.main_arg2))) (tab2 (m ((c.tc : Thread Cert.KernelIdeal.nD Cert.KernelIdeal.τ).loc Cert.KernelIdeal.main_arg3))) (tab2 (m ((c.tc : Thread Cert.KernelIdeal.nD Cert.KernelIdeal.τ).loc Cert.KernelIdeal.main_arg4))) (tab1 (m ((c.tc : Thread Cert.KernelIdeal.nD Cert.KernelIdeal.τ).loc Cert.KernelIdeal.main_arg5))) (tab2 (m ((c.tc : Thread Cert.KernelIdeal.nD Cert.KernelIdeal.τ).loc Cert.KernelIdeal.main_arg6)))
        = Cert.GraphSpec.sageR (sig0 m c b) (tab2 (m ((c.tc : Thread Cert.KernelIdeal.nD Cert.KernelIdeal.τ).loc Cert.KernelIdeal.main_arg1))) (tab1 (m ((c.tc : Thread Cert.KernelIdeal.nD Cert.KernelIdeal.τ).loc Cert.KernelIdeal.main_arg2))) (tab2 (m ((c.tc : Thread Cert.KernelIdeal.nD Cert.KernelIdeal.τ).loc Cert.KernelIdeal.main_arg3))) (tab2 (m ((c.tc : Thread Cert.KernelIdeal.nD Cert.KernelIdeal.τ).loc Cert.KernelIdeal.main_arg4))) (tab1 (m ((c.tc : Thread Cert.KernelIdeal.nD Cert.KernelIdeal.τ).loc Cert.KernelIdeal.main_arg5))) (tab2 (m ((c.tc : Thread Cert.KernelIdeal.nD Cert.KernelIdeal.τ).loc Cert.KernelIdeal.main_arg6))))

include hlaw in
/-- Row b of the head's input is the flattened graph layers of batch element b, aggregated either way. -/
theorem hrow_eq (c : Dev Cert.KernelIdeal.nD) (b : Fin 4096) :
    hrow m c b = Cert.GraphSpec.flat (Cert.GraphSpec.sageR (sig0 m c b) (tab2 (m ((c.tc : Thread Cert.KernelIdeal.nD Cert.KernelIdeal.τ).loc Cert.KernelIdeal.main_arg1))) (tab1 (m ((c.tc : Thread Cert.KernelIdeal.nD Cert.KernelIdeal.τ).loc Cert.KernelIdeal.main_arg2))) (tab2 (m ((c.tc : Thread Cert.KernelIdeal.nD Cert.KernelIdeal.τ).loc Cert.KernelIdeal.main_arg3))) (tab2 (m ((c.tc : Thread Cert.KernelIdeal.nD Cert.KernelIdeal.τ).loc Cert.KernelIdeal.main_arg4))) (tab1 (m ((c.tc : Thread Cert.KernelIdeal.nD Cert.KernelIdeal.τ).loc Cert.KernelIdeal.main_arg5))) (tab2 (m ((c.tc : Thread Cert.KernelIdeal.nD Cert.KernelIdeal.τ).loc Cert.KernelIdeal.main_arg6)))) := by
  rw [← hlaw c b]
  rfl

include hv43 hv85 hagree hlaw in
theorem out_eq (c : Dev Cert.KernelIdeal.nD) : Cert.ReferenceIdeal.Value.res_main_v85 m' c = G1out m c := by
  rw [Cert.ReferenceIdeal.Read.val_main_v85_eq]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1]
  funext i
  obtain ⟨b, cc, rfl⟩ : ∃ (b : Fin 4096) (cc : Fin 256), i = ix2 b cc := ⟨i 0, i 1, eq_ix2 i⟩
  refine (ref_out_apply hv43 hv85 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) b cc).trans ?_
  show _ = G1outc m c b cc
  unfold G1outc
  rw [hrow_eq m hlaw c b]

include hv43 hv101 hagree hlaw in
theorem probs_eq (c : Dev Cert.KernelIdeal.nD) : Cert.ReferenceIdeal.Value.res_main_v101 m' c = G1probs m c := by
  rw [Cert.ReferenceIdeal.Read.val_main_v101_eq]
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
  funext i
  obtain ⟨b, j, rfl⟩ : ∃ (b : Fin 4096) (j : Fin 2), i = ix2 b j := ⟨i 0, i 1, eq_ix2 i⟩
  refine (ref_probs_apply hv43 hv101 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) b j).trans ?_
  show _ = G1probsc m c b j
  unfold G1probsc
  rw [hrow_eq m hlaw c b]

end

end Cert.Bridge

end
-- ==== Proof.lean ====
/-
  The proof of `Cert.Claim` for the two-kernel graph network: a correlation-thresholded adjacency with two rounds of
  mean aggregation (first kernel, 128 blocks of 32 graphs) and a dense head with a soft-max (second kernel, 4 blocks of
  1024 rows), against the same network written with jnp.

  Frames: both kernel programs' frames are the generated ones; the reference's is its generated run with the results
  dropped.  `preserves` is `True`: the idealized kernel is the kernel's own text.

  `algebraic`: Spec.lean states the network once per graph, with the ONE place the programs differ — the kernel divides
  the adjacency by the in-degree before aggregating, the reference divides the aggregate — as two functions; Law.lean
  proves them equal when the signal and the first layer's parameters are real and every node's centred row has a positive
  sum of squares (then each node correlates 1 with itself, so every in-degree is a real ≥ 1); PreFacts.lean reads exactly
  those facts out of the precondition.  KAdj / KSage / KHead read the kernels' stored values at a coordinate as the
  specification's functions of the loaded blocks; KReads / KBlocks / KValue / KRun carry that through the two grids to the
  result arrays after the run; RefGraph / RefHead read the reference's operations at an index; Bridge puts the two sides
  together on memories that agree on the arguments.
-/
import proofs.«169563_j52381421142390_2_alg».proof.Defs
import proofs.«169563_j52381421142390_2_alg».proof.Proof.Gen.Kernel
import proofs.«169563_j52381421142390_2_alg».proof.Proof.Gen.Kernel.Frame
import proofs.«169563_j52381421142390_2_alg».proof.Proof.Gen.KernelIdeal
import proofs.«169563_j52381421142390_2_alg».proof.Proof.Gen.KernelIdeal.Frame
import proofs.«169563_j52381421142390_2_alg».proof.Proof.Gen.ReferenceIdeal
import proofs.«169563_j52381421142390_2_alg».proof.Proof.Gen.Pre_finite_inputs
import proofs.«169563_j52381421142390_2_alg».proof.Proof.Gen.ReferenceIdeal.Run
import proofs.«169563_j52381421142390_2_alg».proof.Proof.Gen.ReferenceIdeal.Read
import proofs.«169563_j52381421142390_2_alg».proof.Proof.Spec
import proofs.«169563_j52381421142390_2_alg».proof.Proof.Law
import proofs.«169563_j52381421142390_2_alg».proof.Proof.PreFacts
import proofs.«169563_j52381421142390_2_alg».proof.Proof.KAdj
import proofs.«169563_j52381421142390_2_alg».proof.Proof.KSage
import proofs.«169563_j52381421142390_2_alg».proof.Proof.KHead
import proofs.«169563_j52381421142390_2_alg».proof.Proof.KValue
import proofs.«169563_j52381421142390_2_alg».proof.Proof.RefGraph
import proofs.«169563_j52381421142390_2_alg».proof.Proof.RefHead
import proofs.«169563_j52381421142390_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.KernelIdeal.Hand

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten by the idealization. -/
theorem preserves : Cert.preserves_Kernel_KernelIdeal := trivial

/-- The graph kernel's stored value at a coordinate: its normalised adjacency read first, then its two layers. -/
theorem graph_block (x0 : Vec Ideal Cert.KernelIdeal.S32x90x195 .f32) (x1 : Vec Ideal Cert.KernelIdeal.S128x195 .bf16) (x2 : Vec Ideal Cert.KernelIdeal.S128 .f32)
    (x3 : Vec Ideal Cert.KernelIdeal.S128x195 .bf16) (x4 : Vec Ideal Cert.KernelIdeal.S64x128 .bf16) (x5 : Vec Ideal Cert.KernelIdeal.S64 .f32) (x6 : Vec Ideal Cert.KernelIdeal.S64x128 .bf16)
    (bb : Fin 32) (n : Fin 90) (o : Fin 64) :
    Cert.KernelIdeal.Gen.k0_pay1 (F := Ideal) (Cert.KernelIdeal.Gen.k0_pay2 x0) (Cert.KernelIdeal.Gen.k0_pay4 x3) x2 (Cert.KernelIdeal.Gen.k0_pay5 x0) (Cert.KernelIdeal.Gen.k0_pay6 x0 x1) x4 x6 x5 (ix3 bb n o)
      = Cert.GraphSpec.sageK (fun n f => x0 (ix3 bb n f)) (fun h f => x1 (ix2 h f)) (fun h => x2 (ix1 h)) (fun h f => x3 (ix2 h f)) (fun o h => x4 (ix2 o h)) (fun o => x5 (ix1 o)) (fun o h => x6 (ix2 o h)) n o :=
  Cert.KSage.sage_block x0 x1 x2 x3 x4 x5 x6 (fun bb i j => Cert.KAdj.pay2_apply x0 bb i j) bb n o

/-- From memories agreeing on the arguments both idealized programs end with the same two result arrays. -/
theorem algebraic : Cert.algebraic_KernelIdeal_ReferenceIdeal := by
  intro m ρ m' ρ' hpre hagree
  have hlaw : ∀ (c : Dev Cert.KernelIdeal.nD) (b : Fin 4096),
      Cert.GraphSpec.sageK (sig0 m c b) (tab2 (m ((c.tc : Thread Cert.KernelIdeal.nD Cert.KernelIdeal.τ).loc Cert.KernelIdeal.main_arg1))) (tab1 (m ((c.tc : Thread Cert.KernelIdeal.nD Cert.KernelIdeal.τ).loc Cert.KernelIdeal.main_arg2))) (tab2 (m ((c.tc : Thread Cert.KernelIdeal.nD Cert.KernelIdeal.τ).loc Cert.KernelIdeal.main_arg3))) (tab2 (m ((c.tc : Thread Cert.KernelIdeal.nD Cert.KernelIdeal.τ).loc Cert.KernelIdeal.main_arg4))) (tab1 (m ((c.tc : Thread Cert.KernelIdeal.nD Cert.KernelIdeal.τ).loc Cert.KernelIdeal.main_arg5))) (tab2 (m ((c.tc : Thread Cert.KernelIdeal.nD Cert.KernelIdeal.τ).loc Cert.KernelIdeal.main_arg6)))
        = Cert.GraphSpec.sageR (sig0 m c b) (tab2 (m ((c.tc : Thread Cert.KernelIdeal.nD Cert.KernelIdeal.τ).loc Cert.KernelIdeal.main_arg1))) (tab1 (m ((c.tc : Thread Cert.KernelIdeal.nD Cert.KernelIdeal.τ).loc Cert.KernelIdeal.main_arg2))) (tab2 (m ((c.tc : Thread Cert.KernelIdeal.nD Cert.KernelIdeal.τ).loc Cert.KernelIdeal.main_arg3))) (tab2 (m ((c.tc : Thread Cert.KernelIdeal.nD Cert.KernelIdeal.τ).loc Cert.KernelIdeal.main_arg4))) (tab1 (m ((c.tc : Thread Cert.KernelIdeal.nD Cert.KernelIdeal.τ).loc Cert.KernelIdeal.main_arg5))) (tab2 (m ((c.tc : Thread Cert.KernelIdeal.nD Cert.KernelIdeal.τ).loc Cert.KernelIdeal.main_arg6))) := by
    intro c b
    obtain ⟨h0, h1, h2, h3, hv⟩ := Cert.PreFacts.facts (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (hpre c)
    exact Cert.GraphLaw.sageK_eq_sageR _ _ _ _ _ _ _ (fun n f => h0 _) (fun h f => h1 _) (fun h => h2 _) (fun h f => h3 _) (hv b)
  refine ⟨fun c => G1probs m c, fun c => G1out m c,
    run_named m ρ graph_block Cert.KHead.out_block Cert.KHead.probs_block, ?_⟩
  exact (θ_run Cert.ReferenceIdeal.defs _ _).mono (fun _ h c =>
      ⟨(h c).1.trans (Cert.Bridge.probs_eq Cert.RefGraph.v43_eq Cert.RefHead.v101_eq m m' hagree hlaw c),
       (h c).2.1.trans (Cert.Bridge.out_eq Cert.RefGraph.v43_eq Cert.RefHead.v85_eq m m' hagree hlaw c),
       (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
